-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)) →
    ∃ (v0 : (c : Dev Cert.KernelIdeal.nD) → Buf (Elt Ideal) ((c.tc : Thread Cert.KernelIdeal.nD Cert.KernelIdeal.τ).loc Cert.KernelIdeal.main_v60)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v60) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v76) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S100000x64 : Shape := ⟨2, ![100000, 64]⟩
abbrev S2x1600000 : Shape := ⟨2, ![2, 1600000]⟩
abbrev S64x64 : Shape := ⟨2, ![64, 64]⟩
abbrev S64x1 : Shape := ⟨2, ![64, 1]⟩
abbrev S_ : Shape := ⟨0, ![]⟩

class Facts : Prop where
  bcast_S_S100000x64 : S_.BroadcastsInDim S100000x64 (![] : Fin 0 → Fin S100000x64.rank)
  reducesTo_S100000x64_S_d0_1 : S100000x64.ReducesTo [0, 1] S_
  h_S_ : 0 < S_.numel
  bcast_S_S64x64 : S_.BroadcastsInDim S64x64 (![] : Fin 0 → Fin S64x64.rank)
  reducesTo_S64x64_S_d0_1 : S64x64.ReducesTo [0, 1] S_
  bcast_S_S64x1 : S_.BroadcastsInDim S64x1 (![] : Fin 0 → Fin S64x1.rank)
  reducesTo_S64x1_S_d0_1 : S64x1.ReducesTo [0, 1] S_

variable [Facts]

def fn_part1 {F : FTy → Type} [FloatOps F] (main_arg5 : FVec F S64x1 .f32) (main_v13 : IVec S_ 1) (main_v16 : IVec S64x64 1) : IVec S_ 1 :=
  let main_c_5 : IVec S_ 1 := constantI S_ 1 1#1
  let main_v17 : IVec S_ 1 := (fun x v => Host.reduce IntOp.andi x v reducesTo_S64x64_S_d0_1 h_S_) main_v16 main_c_5
  let main_v18 : IVec S_ 1 := andi main_v13 main_v17
  let main_v19 : FVec F S64x1 .f32 := Host.absf main_arg5
  let main_cst_6 : FVec F S_ .f32 := constant S_ .f32 0x7F800000#32
  let main_v20 : FVec F S64x1 .f32 := broadcastInDim S64x1 ![] bcast_S_S64x1 main_cst_6
  let main_v21 : IVec S64x1 1 := cmpf .olt main_v19 main_v20
  let main_c_7 : IVec S_ 1 := constantI S_ 1 1#1
  let main_v22 : IVec S_ 1 := (fun x v => Host.reduce IntOp.andi x v reducesTo_S64x1_S_d0_1 h_S_) main_v21 main_c_7
  let main_v23 : IVec S_ 1 := andi main_v18 main_v22
  main_v23

def fn {F : FTy → Type} [FloatOps F] (main_arg0 : FVec F S100000x64 .f32) (main_arg1 : IVec S2x1600000 32) (main_arg2 : FVec F S64x64 .f32) (main_arg3 : FVec F S64x64 .f32) (main_arg4 : FVec F S64x64 .f32) (main_arg5 : FVec F S64x1 .f32) : IVec S_ 1 :=
  let main_v0 : FVec F S100000x64 .f32 := Host.absf main_arg0
  let main_cst : FVec F S_ .f32 := constant S_ .f32 0x7F800000#32
  let main_v1 : FVec F S100000x64 .f32 := broadcastInDim S100000x64 ![] bcast_S_S100000x64 main_cst
  let main_v2 : IVec S100000x64 1 := cmpf .olt main_v0 main_v1
  let main_c : IVec S_ 1 := constantI S_ 1 1#1
  let main_v3 : IVec S_ 1 := (fun x v => Host.reduce IntOp.andi x v reducesTo_S100000x64_S_d0_1 h_S_) main_v2 main_c
  let main_v4 : FVec F S64x64 .f32 := Host.absf main_arg2
  let main_cst_0 : FVec F S_ .f32 := constant S_ .f32 0x7F800000#32
  let main_v5 : FVec F S64x64 .f32 := broadcastInDim S64x64 ![] bcast_S_S64x64 main_cst_0
  let main_v6 : IVec S64x64 1 := cmpf .olt main_v4 main_v5
  let main_c_1 : IVec S_ 1 := constantI S_ 1 1#1
  let main_v7 : IVec S_ 1 := (fun x v => Host.reduce IntOp.andi x v reducesTo_S64x64_S_d0_1 h_S_) main_v6 main_c_1
  let main_v8 : IVec S_ 1 := andi main_v3 main_v7
  let main_v9 : FVec F S64x64 .f32 := Host.absf main_arg3
  let main_cst_2 : FVec F S_ .f32 := constant S_ .f32 0x7F800000#32
  let main_v10 : FVec F S64x64 .f32 := broadcastInDim S64x64 ![] bcast_S_S64x64 main_cst_2
  let main_v11 : IVec S64x64 1 := cmpf .olt main_v9 main_v10
  let main_c_3 : IVec S_ 1 := constantI S_ 1 1#1
  let main_v12 : IVec S_ 1 := (fun x v => Host.reduce IntOp.andi x v reducesTo_S64x64_S_d0_1 h_S_) main_v11 main_c_3
  let main_v13 : IVec S_ 1 := andi main_v8 main_v12
  let main_v14 : FVec F S64x64 .f32 := Host.absf main_arg4
  let main_cst_4 : FVec F S_ .f32 := constant S_ .f32 0x7F800000#32
  let main_v15 : FVec F S64x64 .f32 := broadcastInDim S64x64 ![] bcast_S_S64x64 main_cst_4
  let main_v16 : IVec S64x64 1 := cmpf .olt main_v14 main_v15
  fn_part1 (F := F) main_arg5 main_v13 main_v16
-- ==== Kernel.lean ====
abbrev S100000x64 : Shape := ⟨2, ![100000, 64]⟩
abbrev S2x1600000 : Shape := ⟨2, ![2, 1600000]⟩
abbrev S64x64 : Shape := ⟨2, ![64, 64]⟩
abbrev S64x1 : Shape := ⟨2, ![64, 1]⟩
abbrev S1x1600000 : Shape := ⟨2, ![1, 1600000]⟩
abbrev S1600000 : Shape := ⟨1, ![1600000]⟩
abbrev S_ : Shape := ⟨0, ![]⟩
abbrev S100000 : Shape := ⟨1, ![100000]⟩
abbrev S1600000x1 : Shape := ⟨2, ![1600000, 1]⟩
abbrev S100000x1 : Shape := ⟨2, ![100000, 1]⟩
abbrev S64 : Shape := ⟨1, ![64]⟩
abbrev S1x64 : Shape := ⟨2, ![1, 64]⟩
abbrev S10000x64 : Shape := ⟨2, ![10000, 64]⟩
abbrev S10000x1 : Shape := ⟨2, ![10000, 1]⟩
abbrev S1600000x64 : Shape := ⟨2, ![1600000, 64]⟩

abbrev nBuf : Space → Nat
  | .hbm => 84
  | .vmem => 37
  | .smem => 0
  | _ => 0

abbrev bufTy : (tb : Table) → Fin (tcTables nBuf tb) → BufTy
  | .hbm, ⟨0, _⟩ => ⟨S100000x64, .f32⟩
  | .hbm, ⟨1, _⟩ => ⟨S2x1600000, .i32⟩
  | .hbm, ⟨2, _⟩ => ⟨S64x64, .f32⟩
  | .hbm, ⟨3, _⟩ => ⟨S64x64, .f32⟩
  | .hbm, ⟨4, _⟩ => ⟨S64x64, .f32⟩
  | .hbm, ⟨5, _⟩ => ⟨S64x1, .f32⟩
  | .hbm, ⟨6, _⟩ => ⟨S1x1600000, .i32⟩
  | .hbm, ⟨7, _⟩ => ⟨S1600000, .i32⟩
  | .hbm, ⟨8, _⟩ => ⟨S1x1600000, .i32⟩
  | .hbm, ⟨9, _⟩ => ⟨S1600000, .i32⟩
  | .hbm, ⟨10, _⟩ => ⟨S_, .f32⟩
  | .hbm, ⟨11, _⟩ => ⟨S1600000, .f32⟩
  | .hbm, ⟨12, _⟩ => ⟨S_, .f32⟩
  | .hbm, ⟨13, _⟩ => ⟨S100000, .f32⟩
  | .hbm, ⟨14, _⟩ => ⟨S1600000x1, .i32⟩
  | .hbm, ⟨15, _⟩ => ⟨S100000, .f32⟩
  | .hbm, ⟨16, _⟩ => ⟨S100000x1, .f32⟩
  | .hbm, ⟨17, _⟩ => ⟨S64, .f32⟩
  | .hbm, ⟨18, _⟩ => ⟨S_, .f32⟩
  | .hbm, ⟨19, _⟩ => ⟨S64, .f32⟩
  | .hbm, ⟨20, _⟩ => ⟨S64, .f32⟩
  | .hbm, ⟨21, _⟩ => ⟨S1x64, .f32⟩
  | .hbm, ⟨22, _⟩ => ⟨S64x64, .f32⟩
  | .hbm, ⟨23, _⟩ => ⟨S64x64, .f32⟩
  | .hbm, ⟨24, _⟩ => ⟨S64x64, .f32⟩
  | .hbm, ⟨25, _⟩ => ⟨S100000x64, .f32⟩
  | .hbm, ⟨26, _⟩ => ⟨S_, .f32⟩
  | .hbm, ⟨27, _⟩ => ⟨S100000x64, .f32⟩
  | .hbm, ⟨28, _⟩ => ⟨S_, .i32⟩
  | .hbm, ⟨29, _⟩ => ⟨S1600000, .i32⟩
  | .hbm, ⟨30, _⟩ => ⟨S1600000, .i1⟩
  | .hbm, ⟨31, _⟩ => ⟨S_, .i32⟩
  | .hbm, ⟨32, _⟩ => ⟨S1600000, .i32⟩
  | .hbm, ⟨33, _⟩ => ⟨S1600000, .i32⟩
  | .hbm, ⟨34, _⟩ => ⟨S1600000, .i32⟩
  | .hbm, ⟨35, _⟩ => ⟨S1600000x1, .i32⟩
  | .hbm, ⟨36, _⟩ => ⟨S1600000x64, .f32⟩
  | .hbm, ⟨37, _⟩ => ⟨S_, .f32⟩
  | .hbm, ⟨38, _⟩ => ⟨S100000x64, .f32⟩
  | .hbm, ⟨39, _⟩ => ⟨S1600000x1, .i32⟩
  | .hbm, ⟨40, _⟩ => ⟨S100000x64, .f32⟩
  | .hbm, ⟨41, _⟩ => ⟨S100000x64, .f32⟩
  | .hbm, ⟨42, _⟩ => ⟨S_, .i32⟩
  | .hbm, ⟨43, _⟩ => ⟨S1600000, .i32⟩
  | .hbm, ⟨44, _⟩ => ⟨S1600000, .i1⟩
  | .hbm, ⟨45, _⟩ => ⟨S_, .i32⟩
  | .hbm, ⟨46, _⟩ => ⟨S1600000, .i32⟩
  | .hbm, ⟨47, _⟩ => ⟨S1600000, .i32⟩
  | .hbm, ⟨48, _⟩ => ⟨S1600000, .i32⟩
  | .hbm, ⟨49, _⟩ => ⟨S1600000x1, .i32⟩
  | .hbm, ⟨50, _⟩ => ⟨S1600000x64, .f32⟩
  | .hbm, ⟨51, _⟩ => ⟨S_, .f32⟩
  | .hbm, ⟨52, _⟩ => ⟨S100000x64, .f32⟩
  | .hbm, ⟨53, _⟩ => ⟨S1600000x1, .i32⟩
  | .hbm, ⟨54, _⟩ => ⟨S100000x64, .f32⟩
  | .hbm, ⟨55, _⟩ => ⟨S100000x64, .f32⟩
  | .hbm, ⟨56, _⟩ => ⟨S_, .i32⟩
  | .hbm, ⟨57, _⟩ => ⟨S1600000, .i32⟩
  | .hbm, ⟨58, _⟩ => ⟨S1600000, .i1⟩
  | .hbm, ⟨59, _⟩ => ⟨S_, .i32⟩
  | .hbm, ⟨60, _⟩ => ⟨S1600000, .i32⟩
  | .hbm, ⟨61, _⟩ => ⟨S1600000, .i32⟩
  | .hbm, ⟨62, _⟩ => ⟨S1600000, .i32⟩
  | .hbm, ⟨63, _⟩ => ⟨S1600000x1, .i32⟩
  | .hbm, ⟨64, _⟩ => ⟨S1600000x64, .f32⟩
  | .hbm, ⟨65, _⟩ => ⟨S_, .f32⟩
  | .hbm, ⟨66, _⟩ => ⟨S100000x64, .f32⟩
  | .hbm, ⟨67, _⟩ => ⟨S1600000x1, .i32⟩
  | .hbm, ⟨68, _⟩ => ⟨S100000x64, .f32⟩
  | .hbm, ⟨69, _⟩ => ⟨S100000x64, .f32⟩
  | .hbm, ⟨70, _⟩ => ⟨S_, .i32⟩
  | .hbm, ⟨71, _⟩ => ⟨S1600000, .i32⟩
  | .hbm, ⟨72, _⟩ => ⟨S1600000, .i1⟩
  | .hbm, ⟨73, _⟩ => ⟨S_, .i32⟩
  | .hbm, ⟨74, _⟩ => ⟨S1600000, .i32⟩
  | .hbm, ⟨75, _⟩ => ⟨S1600000, .i32⟩
  | .hbm, ⟨76, _⟩ => ⟨S1600000, .i32⟩
  | .hbm, ⟨77, _⟩ => ⟨S1600000x1, .i32⟩
  | .hbm, ⟨78, _⟩ => ⟨S1600000x64, .f32⟩
  | .hbm, ⟨79, _⟩ => ⟨S_, .f32⟩
  | .hbm, ⟨80, _⟩ => ⟨S100000x64, .f32⟩
  | .hbm, ⟨81, _⟩ => ⟨S1600000x1, .i32⟩
  | .hbm, ⟨82, _⟩ => ⟨S100000x64, .f32⟩
  | .hbm, ⟨83, _⟩ => ⟨S100000x64, .f32⟩
  | .local _ .vmem, ⟨0, _⟩ => ⟨S10000x64, .f32⟩
  | .local _ .vmem, ⟨1, _⟩ => ⟨S10000x64, .f32⟩
  | .local _ .vmem, ⟨2, _⟩ => ⟨S10000x1, .f32⟩
  | .local _ .vmem, ⟨3, _⟩ => ⟨S10000x1, .f32⟩
  | .local _ .vmem, ⟨4, _⟩ => ⟨S1x64, .f32⟩
  | .local _ .vmem, ⟨5, _⟩ => ⟨S64x64, .f32⟩
  | .local _ .vmem, ⟨6, _⟩ => ⟨S64x64, .f32⟩
  | .local _ .vmem, ⟨7, _⟩ => ⟨S10000x64, .f32⟩
  | .local _ .vmem, ⟨8, _⟩ => ⟨S10000x64, .f32⟩
  | .local _ .vmem, ⟨9, _⟩ => ⟨S10000x64, .f32⟩
  | .local _ .vmem, ⟨10, _⟩ => ⟨S10000x64, .f32⟩
  | .local _ .vmem, ⟨11, _⟩ => ⟨S10000x64, .f32⟩
  | .local _ .vmem, ⟨12, _⟩ => ⟨S10000x64, .f32⟩
  | .local _ .vmem, ⟨13, _⟩ => ⟨S64x64, .f32⟩
  | .local _ .vmem, ⟨14, _⟩ => ⟨S10000x64, .f32⟩
  | .local _ .vmem, ⟨15, _⟩ => ⟨S10000x64, .f32⟩
  | .local _ .vmem, ⟨16, _⟩ => ⟨S10000x64, .f32⟩
  | .local _ .vmem, ⟨17, _⟩ => ⟨S10000x64, .f32⟩
  | .local _ .vmem, ⟨18, _⟩ => ⟨S10000x64, .f32⟩
  | .local _ .vmem, ⟨19, _⟩ => ⟨S10000x64, .f32⟩
  | .local _ .vmem, ⟨20, _⟩ => ⟨S64x64, .f32⟩
  | .local _ .vmem, ⟨21, _⟩ => ⟨S10000x64, .f32⟩
  | .local _ .vmem, ⟨22, _⟩ => ⟨S10000x64, .f32⟩
  | .local _ .vmem, ⟨23, _⟩ => ⟨S10000x64, .f32⟩
  | .local _ .vmem, ⟨24, _⟩ => ⟨S10000x64, .f32⟩
  | .local _ .vmem, ⟨25, _⟩ => ⟨S10000x64, .f32⟩
  | .local _ .vmem, ⟨26, _⟩ => ⟨S10000x64, .f32⟩
  | .local _ .vmem, ⟨27, _⟩ => ⟨S64x64, .f32⟩
  | .local _ .vmem, ⟨28, _⟩ => ⟨S10000x64, .f32⟩
  | .local _ .vmem, ⟨29, _⟩ => ⟨S10000x64, .f32⟩
  | .local _ .vmem, ⟨30, _⟩ => ⟨S10000x64, .f32⟩
  | .local _ .vmem, ⟨31, _⟩ => ⟨S10000x64, .f32⟩
  | .local _ .vmem, ⟨32, _⟩ => ⟨S10000x64, .f32⟩
  | .local _ .vmem, ⟨33, _⟩ => ⟨S10000x64, .f32⟩
  | .local _ .vmem, ⟨34, _⟩ => ⟨S64x64, .f32⟩
  | .local _ .vmem, ⟨35, _⟩ => ⟨S10000x64, .f32⟩
  | .local _ .vmem, ⟨36, _⟩ => ⟨S10000x64, .f32⟩
  | _, _ => ⟨S100000x64, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | .vmem, ⟨36, _⟩ => true
  | _, _ => false

abbrev semScoped : Fin 0 → Bool
  | ⟨_, h⟩ => absurd h (Nat.not_lt_zero _)

abbrev dmaSemScoped : Fin 37 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | _ => false

abbrev sig : RefSig :=
  ofTc nBuf bufTy 0 37 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_cst : Ref sig .tc := ⟨.hbm, 10, rfl⟩
abbrev main_v4 : Ref sig .tc := ⟨.hbm, 11, rfl⟩
abbrev main_cst_0 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_call0_cst : Ref sig .tc := ⟨.hbm, 18, rfl⟩
abbrev main_call0_v0 : Ref sig .tc := ⟨.hbm, 19, rfl⟩
abbrev main_v10 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_cst_1 : Ref sig .tc := ⟨.hbm, 26, rfl⟩
abbrev main_v16 : Ref sig .tc := ⟨.hbm, 27, rfl⟩
abbrev main_c : Ref sig .tc := ⟨.hbm, 28, rfl⟩
abbrev main_v17 : Ref sig .tc := ⟨.hbm, 29, rfl⟩
abbrev main_v18 : Ref sig .tc := ⟨.hbm, 30, rfl⟩
abbrev main_c_2 : Ref sig .tc := ⟨.hbm, 31, rfl⟩
abbrev main_v19 : Ref sig .tc := ⟨.hbm, 32, rfl⟩
abbrev main_v20 : Ref sig .tc := ⟨.hbm, 33, rfl⟩
abbrev main_v21 : Ref sig .tc := ⟨.hbm, 34, rfl⟩
abbrev main_v22 : Ref sig .tc := ⟨.hbm, 35, rfl⟩
abbrev main_v23 : Ref sig .tc := ⟨.hbm, 36, rfl⟩
abbrev main_cst_3 : Ref sig .tc := ⟨.hbm, 37, rfl⟩
abbrev main_v24 : Ref sig .tc := ⟨.hbm, 38, rfl⟩
abbrev main_v25 : Ref sig .tc := ⟨.hbm, 39, rfl⟩
abbrev main_v26 : Ref sig .tc := ⟨.hbm, 40, rfl⟩
abbrev main_v27 : Ref sig .tc := ⟨.hbm, 41, rfl⟩
abbrev main_c_4 : Ref sig .tc := ⟨.hbm, 42, rfl⟩
abbrev main_v28 : Ref sig .tc := ⟨.hbm, 43, rfl⟩
abbrev main_v29 : Ref sig .tc := ⟨.hbm, 44, rfl⟩
abbrev main_c_5 : Ref sig .tc := ⟨.hbm, 45, rfl⟩
abbrev main_v30 : Ref sig .tc := ⟨.hbm, 46, rfl⟩
abbrev main_v31 : Ref sig .tc := ⟨.hbm, 47, rfl⟩
abbrev main_v32 : Ref sig .tc := ⟨.hbm, 48, rfl⟩
abbrev main_v33 : Ref sig .tc := ⟨.hbm, 49, rfl⟩
abbrev main_v34 : Ref sig .tc := ⟨.hbm, 50, rfl⟩
abbrev main_cst_6 : Ref sig .tc := ⟨.hbm, 51, rfl⟩
abbrev main_v35 : Ref sig .tc := ⟨.hbm, 52, rfl⟩
abbrev main_v36 : Ref sig .tc := ⟨.hbm, 53, rfl⟩
abbrev main_v37 : Ref sig .tc := ⟨.hbm, 54, rfl⟩
abbrev main_v38 : Ref sig .tc := ⟨.hbm, 55, rfl⟩
abbrev main_c_7 : Ref sig .tc := ⟨.hbm, 56, rfl⟩
abbrev main_v39 : Ref sig .tc := ⟨.hbm, 57, rfl⟩
abbrev main_v40 : Ref sig .tc := ⟨.hbm, 58, rfl⟩
abbrev main_c_8 : Ref sig .tc := ⟨.hbm, 59, rfl⟩
abbrev main_v41 : Ref sig .tc := ⟨.hbm, 60, rfl⟩
abbrev main_v42 : Ref sig .tc := ⟨.hbm, 61, rfl⟩
abbrev main_v43 : Ref sig .tc := ⟨.hbm, 62, rfl⟩
abbrev main_v44 : Ref sig .tc := ⟨.hbm, 63, rfl⟩
abbrev main_v45 : Ref sig .tc := ⟨.hbm, 64, rfl⟩
abbrev main_cst_9 : Ref sig .tc := ⟨.hbm, 65, rfl⟩
abbrev main_v46 : Ref sig .tc := ⟨.hbm, 66, rfl⟩
abbrev main_v47 : Ref sig .tc := ⟨.hbm, 67, rfl⟩
abbrev main_v48 : Ref sig .tc := ⟨.hbm, 68, rfl⟩
abbrev main_v49 : Ref sig .tc := ⟨.hbm, 69, rfl⟩
abbrev main_c_10 : Ref sig .tc := ⟨.hbm, 70, rfl⟩
abbrev main_v50 : Ref sig .tc := ⟨.hbm, 71, rfl⟩
abbrev main_v51 : Ref sig .tc := ⟨.hbm, 72, rfl⟩
abbrev main_c_11 : Ref sig .tc := ⟨.hbm, 73, rfl⟩
abbrev main_v52 : Ref sig .tc := ⟨.hbm, 74, rfl⟩
abbrev main_v53 : Ref sig .tc := ⟨.hbm, 75, rfl⟩
abbrev main_v54 : Ref sig .tc := ⟨.hbm, 76, rfl⟩
abbrev main_v55 : Ref sig .tc := ⟨.hbm, 77, rfl⟩
abbrev main_v56 : Ref sig .tc := ⟨.hbm, 78, rfl⟩
abbrev main_cst_12 : Ref sig .tc := ⟨.hbm, 79, rfl⟩
abbrev main_v57 : Ref sig .tc := ⟨.hbm, 80, rfl⟩
abbrev main_v58 : Ref sig .tc := ⟨.hbm, 81, rfl⟩
abbrev main_v59 : Ref sig .tc := ⟨.hbm, 82, rfl⟩
abbrev main_v60 : Ref sig .tc := ⟨.hbm, 83, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg5_1 : Ref sig .tc := ⟨.vmem, 8, rfl⟩
abbrev cc1_stg0_0 : Ref sig .tc := ⟨.vmem, 9, rfl⟩
abbrev cc1_stg0_1 : Ref sig .tc := ⟨.vmem, 10, rfl⟩
abbrev cc1_stg1_0 : Ref sig .tc := ⟨.vmem, 11, rfl⟩
abbrev cc1_stg1_1 : Ref sig .tc := ⟨.vmem, 12, rfl⟩
abbrev cc1_stg2_0 : Ref sig .tc := ⟨.vmem, 13, rfl⟩
abbrev cc1_stg3_0 : Ref sig .tc := ⟨.vmem, 14, rfl⟩
abbrev cc1_stg3_1 : Ref sig .tc := ⟨.vmem, 15, rfl⟩
abbrev cc2_stg0_0 : Ref sig .tc := ⟨.vmem, 16, rfl⟩
abbrev cc2_stg0_1 : Ref sig .tc := ⟨.vmem, 17, rfl⟩
abbrev cc2_stg1_0 : Ref sig .tc := ⟨.vmem, 18, rfl⟩
abbrev cc2_stg1_1 : Ref sig .tc := ⟨.vmem, 19, rfl⟩
abbrev cc2_stg2_0 : Ref sig .tc := ⟨.vmem, 20, rfl⟩
abbrev cc2_stg3_0 : Ref sig .tc := ⟨.vmem, 21, rfl⟩
abbrev cc2_stg3_1 : Ref sig .tc := ⟨.vmem, 22, rfl⟩
abbrev cc3_stg0_0 : Ref sig .tc := ⟨.vmem, 23, rfl⟩
abbrev cc3_stg0_1 : Ref sig .tc := ⟨.vmem, 24, rfl⟩
abbrev cc3_stg1_0 : Ref sig .tc := ⟨.vmem, 25, rfl⟩
abbrev cc3_stg1_1 : Ref sig .tc := ⟨.vmem, 26, rfl⟩
abbrev cc3_stg2_0 : Ref sig .tc := ⟨.vmem, 27, rfl⟩
abbrev cc3_stg3_0 : Ref sig .tc := ⟨.vmem, 28, rfl⟩
abbrev cc3_stg3_1 : Ref sig .tc := ⟨.vmem, 29, rfl⟩
abbrev cc4_stg0_0 : Ref sig .tc := ⟨.vmem, 30, rfl⟩
abbrev cc4_stg0_1 : Ref sig .tc := ⟨.vmem, 31, rfl⟩
abbrev cc4_stg1_0 : Ref sig .tc := ⟨.vmem, 32, rfl⟩
abbrev cc4_stg1_1 : Ref sig .tc := ⟨.vmem, 33, rfl⟩
abbrev cc4_stg2_0 : Ref sig .tc := ⟨.vmem, 34, rfl⟩
abbrev cc4_stg3_0 : Ref sig .tc := ⟨.vmem, 35, rfl⟩
abbrev cc4_stg3_1 : Ref sig .tc := ⟨.vmem, 36, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem5_1 : DmaSem sig := 8
abbrev cc1_sem0_0 : DmaSem sig := 9
abbrev cc1_sem0_1 : DmaSem sig := 10
abbrev cc1_sem1_0 : DmaSem sig := 11
abbrev cc1_sem1_1 : DmaSem sig := 12
abbrev cc1_sem2_0 : DmaSem sig := 13
abbrev cc1_sem3_0 : DmaSem sig := 14
abbrev cc1_sem3_1 : DmaSem sig := 15
abbrev cc2_sem0_0 : DmaSem sig := 16
abbrev cc2_sem0_1 : DmaSem sig := 17
abbrev cc2_sem1_0 : DmaSem sig := 18
abbrev cc2_sem1_1 : DmaSem sig := 19
abbrev cc2_sem2_0 : DmaSem sig := 20
abbrev cc2_sem3_0 : DmaSem sig := 21
abbrev cc2_sem3_1 : DmaSem sig := 22
abbrev cc3_sem0_0 : DmaSem sig := 23
abbrev cc3_sem0_1 : DmaSem sig := 24
abbrev cc3_sem1_0 : DmaSem sig := 25
abbrev cc3_sem1_1 : DmaSem sig := 26
abbrev cc3_sem2_0 : DmaSem sig := 27
abbrev cc3_sem3_0 : DmaSem sig := 28
abbrev cc3_sem3_1 : DmaSem sig := 29
abbrev cc4_sem0_0 : DmaSem sig := 30
abbrev cc4_sem0_1 : DmaSem sig := 31
abbrev cc4_sem1_0 : DmaSem sig := 32
abbrev cc4_sem1_1 : DmaSem sig := 33
abbrev cc4_sem2_0 : DmaSem sig := 34
abbrev cc4_sem3_0 : DmaSem sig := 35
abbrev cc4_sem3_1 : DmaSem sig := 36

abbrev nD : Nat := 1
abbrev τ : Topo := Topo.v7x

variable {F : FTy → Type} [FloatOps F]

abbrev grid0 : Pipeline.Grid := ⟨1, ![10], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S10000x64 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S10000x1 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S1x64 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S64x64 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S64x64 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S10000x64 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev grid1 : Pipeline.Grid := ⟨1, ![10], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S10000x64 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S10000x64 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 1 → Memref sig .tc .vmem S64x64 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 2 → Memref sig .tc .vmem S10000x64 .f32 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true]

abbrev grid2 : Pipeline.Grid := ⟨1, ![10], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_2 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_3 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S10000x64 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 2 → Memref sig .tc .vmem S10000x64 .f32 := fun | 0 => Memref.whole cc2_stg1_0 | 1 => Memref.whole cc2_stg1_1 | ⟨_ + 2, h⟩ => absurd h (Nat.not_lt.2 (Nat.le_add_left _ _))
abbrev sem2_1 : Fin 2 → DmaSem sig := fun | 0 => cc2_sem1_0 | 1 => cc2_sem1_1 | ⟨_ + 2, h⟩ => absurd h (Nat.not_lt.2 (Nat.le_add_left _ _))
abbrev reads2_1 : Fin grid2.rank → Bool := ![true]

abbrev stage2_2 : Fin 1 → Memref sig .tc .vmem S64x64 .f32 := fun | 0 => Memref.whole cc2_stg2_0 | ⟨_ + 1, h⟩ => absurd h (Nat.not_lt.2 (Nat.le_add_left _ _))
abbrev sem2_2 : Fin 1 → DmaSem sig := fun | 0 => cc2_sem2_0 | ⟨_ + 1, h⟩ => absurd h (Nat.not_lt.2 (Nat.le_add_left _ _))
abbrev reads2_2 : Fin grid2.rank → Bool := ![false]

abbrev stage2_3 : Fin 2 → Memref sig .tc .vmem S10000x64 .f32 := fun | 0 => Memref.whole cc2_stg3_0 | 1 => Memref.whole cc2_stg3_1 | ⟨_ + 2, h⟩ => absurd h (Nat.not_lt.2 (Nat.le_add_left _ _))
abbrev sem2_3 : Fin 2 → DmaSem sig := fun | 0 => cc2_sem3_0 | 1 => cc2_sem3_1 | ⟨_ + 2, h⟩ => absurd h (Nat.not_lt.2 (Nat.le_add_left _ _))
abbrev reads2_3 : Fin grid2.rank → Bool := ![true]

abbrev grid3 : Pipeline.Grid := ⟨1, ![10], ![false]⟩

def cc3_transform_0 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_1 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_2 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_3 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage3_0 : Fin 2 → Memref sig .tc .vmem S10000x64 .f32 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![true]

abbrev stage3_1 : Fin 2 → Memref sig .tc .vmem S10000x64 .f32 := fun | 0 => Memref.whole cc3_stg1_0 | 1 => Memref.whole cc3_stg1_1 | ⟨_ + 2, h⟩ => absurd h (Nat.not_lt.2 (Nat.le_add_left _ _))
abbrev sem3_1 : Fin 2 → DmaSem sig := fun | 0 => cc3_sem1_0 | 1 => cc3_sem1_1 | ⟨_ + 2, h⟩ => absurd h (Nat.not_lt.2 (Nat.le_add_left _ _))
abbrev reads3_1 : Fin grid3.rank → Bool := ![true]

abbrev stage3_2 : Fin 1 → Memref sig .tc .vmem S64x64 .f32 := fun | 0 => Memref.whole cc3_stg2_0 | ⟨_ + 1, h⟩ => absurd h (Nat.not_lt.2 (Nat.le_add_left _ _))
abbrev sem3_2 : Fin 1 → DmaSem sig := fun | 0 => cc3_sem2_0 | ⟨_ + 1, h⟩ => absurd h (Nat.not_lt.2 (Nat.le_add_left _ _))
abbrev reads3_2 : Fin grid3.rank → Bool := ![false]

abbrev stage3_3 : Fin 2 → Memref sig .tc .vmem S10000x64 .f32 := fun | 0 => Memref.whole cc3_stg3_0 | 1 => Memref.whole cc3_stg3_1 | ⟨_ + 2, h⟩ => absurd h (Nat.not_lt.2 (Nat.le_add_left _ _))
abbrev sem3_3 : Fin 2 → DmaSem sig := fun | 0 => cc3_sem3_0 | 1 => cc3_sem3_1 | ⟨_ + 2, h⟩ => absurd h (Nat.not_lt.2 (Nat.le_add_left _ _))
abbrev reads3_3 : Fin grid3.rank → Bool := ![true]

abbrev grid4 : Pipeline.Grid := ⟨1, ![10], ![false]⟩

def cc4_transform_0 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

def cc4_transform_1 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

def cc4_transform_2 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_3 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage4_0 : Fin 2 → Memref sig .tc .vmem S10000x64 .f32 := fun | 0 => Memref.whole cc4_stg0_0 | 1 => Memref.whole cc4_stg0_1 | ⟨_ + 2, h⟩ => absurd h (Nat.not_lt.2 (Nat.le_add_left _ _))
abbrev sem4_0 : Fin 2 → DmaSem sig := fun | 0 => cc4_sem0_0 | 1 => cc4_sem0_1 | ⟨_ + 2, h⟩ => absurd h (Nat.not_lt.2 (Nat.le_add_left _ _))
abbrev reads4_0 : Fin grid4.rank → Bool := ![true]

abbrev stage4_1 : Fin 2 → Memref sig .tc .vmem S10000x64 .f32 := fun | 0 => Memref.whole cc4_stg1_0 | 1 => Memref.whole cc4_stg1_1 | ⟨_ + 2, h⟩ => absurd h (Nat.not_lt.2 (Nat.le_add_left _ _))
abbrev sem4_1 : Fin 2 → DmaSem sig := fun | 0 => cc4_sem1_0 | 1 => cc4_sem1_1 | ⟨_ + 2, h⟩ => absurd h (Nat.not_lt.2 (Nat.le_add_left _ _))
abbrev reads4_1 : Fin grid4.rank → Bool := ![true]

abbrev stage4_2 : Fin 1 → Memref sig .tc .vmem S64x64 .f32 := fun | 0 => Memref.whole cc4_stg2_0 | ⟨_ + 1, h⟩ => absurd h (Nat.not_lt.2 (Nat.le_add_left _ _))
abbrev sem4_2 : Fin 1 → DmaSem sig := fun | 0 => cc4_sem2_0 | ⟨_ + 1, h⟩ => absurd h (Nat.not_lt.2 (Nat.le_add_left _ _))
abbrev reads4_2 : Fin grid4.rank → Bool := ![false]

abbrev stage4_3 : Fin 2 → Memref sig .tc .vmem S10000x64 .f32 := fun | 0 => Memref.whole cc4_stg3_0 | 1 => Memref.whole cc4_stg3_1 | ⟨_ + 2, h⟩ => absurd h (Nat.not_lt.2 (Nat.le_add_left _ _))
abbrev sem4_3 : Fin 2 → DmaSem sig := fun | 0 => cc4_sem3_0 | 1 => cc4_sem3_1 | ⟨_ + 2, h⟩ => absurd h (Nat.not_lt.2 (Nat.le_add_left _ _))
abbrev reads4_3 : Fin grid4.rank → Bool := ![true]

class Facts₀ : Prop where
  slices_S2x1600000_S1x1600000_0_0 : S2x1600000.Slices ![0, 0] S1x1600000
  shapeCasts_S1x1600000_S1600000 : S1x1600000.ShapeCasts S1600000
  slices_S2x1600000_S1x1600000_1_0 : S2x1600000.Slices ![1, 0] S1x1600000
  bcast_S_S1600000 : S_.BroadcastsInDim S1600000 (![] : Fin 0 → Fin S1600000.rank)
  bcast_S_S100000 : S_.BroadcastsInDim S100000 (![] : Fin 0 → Fin S100000.rank)
  bcast_S1600000_S1600000x1_0 : S1600000.BroadcastsInDim S1600000x1 (![0] : Fin 1 → Fin S1600000x1.rank)
  shapeCasts_S100000_S100000x1 : S100000.ShapeCasts S100000x1
  shapeCasts_S64x1_S64 : S64x1.ShapeCasts S64
  bcast_S_S64 : S_.BroadcastsInDim S64 (![] : Fin 0 → Fin S64.rank)
  shapeCasts_S64_S1x64 : S64.ShapeCasts S1x64
  transposes_S64x64_S64x64_1_0 : S64x64.Transposes [1, 0] S64x64
  inb_S10000x64_S10000x64_0_0 : ∀ a, (![0, 0] : Fin 2 → Nat) a + S10000x64.size a ≤ S10000x64.size a
  h_S10000x64 : 0 < S10000x64.numel
  bitsLt_bf16_f32 : FTy.bits .bf16 < FTy.bits .f32
  inb_S64x64_S64x64_0_0 : ∀ a, (![0, 0] : Fin 2 → Nat) a + S64x64.size a ≤ S64x64.size a
  h_S64x64 : 0 < S64x64.numel
  shapeCasts_S64x64_S64x64 : S64x64.ShapeCasts S64x64
  inb_S10000x1_S10000x1_0_0 : ∀ a, (![0, 0] : Fin 2 → Nat) a + S10000x1.size a ≤ S10000x1.size a
  h_S10000x1 : 0 < S10000x1.numel
  shapeCasts_S10000x1_S10000x1 : S10000x1.ShapeCasts S10000x1
  inb_S1x64_S1x64_0_0 : ∀ a, (![0, 0] : Fin 2 → Nat) a + S1x64.size a ≤ S1x64.size a
  h_S1x64 : 0 < S1x64.numel
  shapeCasts_S1x64_S1x64 : S1x64.ShapeCasts S1x64
  broadcasts_S10000x1_S10000x64 : S10000x1.Broadcasts S10000x64
  broadcasts_S1x64_S10000x64 : S1x64.Broadcasts S10000x64
  bcast_S_S100000x64 : S_.BroadcastsInDim S100000x64 (![] : Fin 0 → Fin S100000x64.rank)
  shapeCasts_S10000x64_S10000x64 : S10000x64.ShapeCasts S10000x64
  scatter_S100000_S1600000x1_S1600000_n_0_0_1_wf : ScatterDims.WF S100000 S1600000x1 S1600000 [] [0] [0] 1
  dot_S10000x64_S64x64_S10000x64_1_0_0_1_n_n_wf : DotDims.WF S10000x64 S64x64 S10000x64 [1] [0] [0] [1] [] []
  gather_S100000x64_S1600000x1_S1600000x64_1_0_n_n_0_1_164_wf : GatherDims.WF S100000x64 S1600000x1 S1600000x64 [1] [0] [] [0] [] 1 ![1, 64]
  scatter_S100000x64_S1600000x1_S1600000x64_1_0_0_1_wf : ScatterDims.WF S100000x64 S1600000x1 S1600000x64 [1] [0] [0] 1
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S10000x64.size a ≤ S100000x64.size a
  hwx0_0 : ∀ i : grid0.Coords, EltTy.bits .f32 = 32 ∨ (Rect.block (s := S100000x64) S10000x64.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S10000x1.size a ≤ S100000x1.size a
  hwx0_1 : ∀ i : grid0.Coords, EltTy.bits .f32 = 32 ∨ (Rect.block (s := S100000x1) S10000x1.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S1x64.size a ≤ S1x64.size a
  hwx0_2 : ∀ i : grid0.Coords, EltTy.bits .f32 = 32 ∨ (Rect.block (s := S1x64) S1x64.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S64x64.size a ≤ S64x64.size a
  hwx0_3 : ∀ i : grid0.Coords, EltTy.bits .f32 = 32 ∨ (Rect.block (s := S64x64) S64x64.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S64x64.size a ≤ S64x64.size a
  hwx0_4 : ∀ i : grid0.Coords, EltTy.bits .f32 = 32 ∨ (Rect.block (s := S64x64) S64x64.size (cc0_transform_4 i) (hinb0_4 i)).WholeWords (EltTy.packing .f32)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S10000x64.size a ≤ S100000x64.size a
  hwx0_5 : ∀ i : grid0.Coords, EltTy.bits .f32 = 32 ∨ (Rect.block (s := S100000x64) S10000x64.size (cc0_transform_5 i) (hinb0_5 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S10000x64.size a ≤ S100000x64.size a
  hwx1_0 : ∀ i : grid1.Coords, EltTy.bits .f32 = 32 ∨ (Rect.block (s := S100000x64) S10000x64.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S10000x64.size a ≤ S100000x64.size a
  hwx1_1 : ∀ i : grid1.Coords, EltTy.bits .f32 = 32 ∨ (Rect.block (s := S100000x64) S10000x64.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S64x64.size a ≤ S64x64.size a
  hwx1_2 : ∀ i : grid1.Coords, EltTy.bits .f32 = 32 ∨ (Rect.block (s := S64x64) S64x64.size (cc1_transform_2 i) (hinb1_2 i)).WholeWords (EltTy.packing .f32)
  hstage1_3 : ∀ j, (stage1_3 j).IsWhole
  nbuf1_3 : grid1.bufCount reads1_3 false = 2
  hreads1_3 : ∀ i i' : grid1.Coords, (∀ a, reads1_3 a = true → i a = i' a) → cc1_transform_3 i = cc1_transform_3 i'
  hinb1_3 : ∀ (i : grid1.Coords) a, (cc1_transform_3 i a + 1) * S10000x64.size a ≤ S100000x64.size a
  hwx1_3 : ∀ i : grid1.Coords, EltTy.bits .f32 = 32 ∨ (Rect.block (s := S100000x64) S10000x64.size (cc1_transform_3 i) (hinb1_3 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S10000x64.size a ≤ S100000x64.size a
  hwx2_0 : ∀ i : grid2.Coords, EltTy.bits .f32 = 32 ∨ (Rect.block (s := S100000x64) S10000x64.size (cc2_transform_0 i) (hinb2_0 i)).WholeWords (EltTy.packing .f32)
  hstage2_1 : ∀ j, (stage2_1 j).IsWhole
  nbuf2_1 : grid2.bufCount reads2_1 false = 2
  hreads2_1 : ∀ i i' : grid2.Coords, (∀ a, reads2_1 a = true → i a = i' a) → cc2_transform_1 i = cc2_transform_1 i'
  hinb2_1 : ∀ (i : grid2.Coords) a, (cc2_transform_1 i a + 1) * S10000x64.size a ≤ S100000x64.size a
  hwx2_1 : ∀ i : grid2.Coords, EltTy.bits .f32 = 32 ∨ (Rect.block (s := S100000x64) S10000x64.size (cc2_transform_1 i) (hinb2_1 i)).WholeWords (EltTy.packing .f32)
  hstage2_2 : ∀ j, (stage2_2 j).IsWhole
  nbuf2_2 : grid2.bufCount reads2_2 true = 1
  hreads2_2 : ∀ i i' : grid2.Coords, (∀ a, reads2_2 a = true → i a = i' a) → cc2_transform_2 i = cc2_transform_2 i'
  hinb2_2 : ∀ (i : grid2.Coords) a, (cc2_transform_2 i a + 1) * S64x64.size a ≤ S64x64.size a
  hwx2_2 : ∀ i : grid2.Coords, EltTy.bits .f32 = 32 ∨ (Rect.block (s := S64x64) S64x64.size (cc2_transform_2 i) (hinb2_2 i)).WholeWords (EltTy.packing .f32)
  hstage2_3 : ∀ j, (stage2_3 j).IsWhole
  nbuf2_3 : grid2.bufCount reads2_3 false = 2
  hreads2_3 : ∀ i i' : grid2.Coords, (∀ a, reads2_3 a = true → i a = i' a) → cc2_transform_3 i = cc2_transform_3 i'
  hinb2_3 : ∀ (i : grid2.Coords) a, (cc2_transform_3 i a + 1) * S10000x64.size a ≤ S100000x64.size a
  hwx2_3 : ∀ i : grid2.Coords, EltTy.bits .f32 = 32 ∨ (Rect.block (s := S100000x64) S10000x64.size (cc2_transform_3 i) (hinb2_3 i)).WholeWords (EltTy.packing .f32)
  hrank3 : 0 < grid3.rank
  hstage3_0 : ∀ j, (stage3_0 j).IsWhole
  nbuf3_0 : grid3.bufCount reads3_0 false = 2
  hreads3_0 : ∀ i i' : grid3.Coords, (∀ a, reads3_0 a = true → i a = i' a) → cc3_transform_0 i = cc3_transform_0 i'
  hinb3_0 : ∀ (i : grid3.Coords) a, (cc3_transform_0 i a + 1) * S10000x64.size a ≤ S100000x64.size a
  hwx3_0 : ∀ i : grid3.Coords, EltTy.bits .f32 = 32 ∨ (Rect.block (s := S100000x64) S10000x64.size (cc3_transform_0 i) (hinb3_0 i)).WholeWords (EltTy.packing .f32)
  hstage3_1 : ∀ j, (stage3_1 j).IsWhole
  nbuf3_1 : grid3.bufCount reads3_1 false = 2
  hreads3_1 : ∀ i i' : grid3.Coords, (∀ a, reads3_1 a = true → i a = i' a) → cc3_transform_1 i = cc3_transform_1 i'
  hinb3_1 : ∀ (i : grid3.Coords) a, (cc3_transform_1 i a + 1) * S10000x64.size a ≤ S100000x64.size a
  hwx3_1 : ∀ i : grid3.Coords, EltTy.bits .f32 = 32 ∨ (Rect.block (s := S100000x64) S10000x64.size (cc3_transform_1 i) (hinb3_1 i)).WholeWords (EltTy.packing .f32)
  hstage3_2 : ∀ j, (stage3_2 j).IsWhole
  nbuf3_2 : grid3.bufCount reads3_2 true = 1
  hreads3_2 : ∀ i i' : grid3.Coords, (∀ a, reads3_2 a = true → i a = i' a) → cc3_transform_2 i = cc3_transform_2 i'
  hinb3_2 : ∀ (i : grid3.Coords) a, (cc3_transform_2 i a + 1) * S64x64.size a ≤ S64x64.size a
  hwx3_2 : ∀ i : grid3.Coords, EltTy.bits .f32 = 32 ∨ (Rect.block (s := S64x64) S64x64.size (cc3_transform_2 i) (hinb3_2 i)).WholeWords (EltTy.packing .f32)
  hstage3_3 : ∀ j, (stage3_3 j).IsWhole
  nbuf3_3 : grid3.bufCount reads3_3 false = 2
  hreads3_3 : ∀ i i' : grid3.Coords, (∀ a, reads3_3 a = true → i a = i' a) → cc3_transform_3 i = cc3_transform_3 i'
  hinb3_3 : ∀ (i : grid3.Coords) a, (cc3_transform_3 i a + 1) * S10000x64.size a ≤ S100000x64.size a
  hwx3_3 : ∀ i : grid3.Coords, EltTy.bits .f32 = 32 ∨ (Rect.block (s := S100000x64) S10000x64.size (cc3_transform_3 i) (hinb3_3 i)).WholeWords (EltTy.packing .f32)
  hrank4 : 0 < grid4.rank
  hstage4_0 : ∀ j, (stage4_0 j).IsWhole
  nbuf4_0 : grid4.bufCount reads4_0 false = 2
  hreads4_0 : ∀ i i' : grid4.Coords, (∀ a, reads4_0 a = true → i a = i' a) → cc4_transform_0 i = cc4_transform_0 i'
  hinb4_0 : ∀ (i : grid4.Coords) a, (cc4_transform_0 i a + 1) * S10000x64.size a ≤ S100000x64.size a
  hwx4_0 : ∀ i : grid4.Coords, EltTy.bits .f32 = 32 ∨ (Rect.block (s := S100000x64) S10000x64.size (cc4_transform_0 i) (hinb4_0 i)).WholeWords (EltTy.packing .f32)
  hstage4_1 : ∀ j, (stage4_1 j).IsWhole
  nbuf4_1 : grid4.bufCount reads4_1 false = 2
  hreads4_1 : ∀ i i' : grid4.Coords, (∀ a, reads4_1 a = true → i a = i' a) → cc4_transform_1 i = cc4_transform_1 i'
  hinb4_1 : ∀ (i : grid4.Coords) a, (cc4_transform_1 i a + 1) * S10000x64.size a ≤ S100000x64.size a
  hwx4_1 : ∀ i : grid4.Coords, EltTy.bits .f32 = 32 ∨ (Rect.block (s := S100000x64) S10000x64.size (cc4_transform_1 i) (hinb4_1 i)).WholeWords (EltTy.packing .f32)
  hstage4_2 : ∀ j, (stage4_2 j).IsWhole
  nbuf4_2 : grid4.bufCount reads4_2 true = 1
  hreads4_2 : ∀ i i' : grid4.Coords, (∀ a, reads4_2 a = true → i a = i' a) → cc4_transform_2 i = cc4_transform_2 i'
  hinb4_2 : ∀ (i : grid4.Coords) a, (cc4_transform_2 i a + 1) * S64x64.size a ≤ S64x64.size a
  hwx4_2 : ∀ i : grid4.Coords, EltTy.bits .f32 = 32 ∨ (Rect.block (s := S64x64) S64x64.size (cc4_transform_2 i) (hinb4_2 i)).WholeWords (EltTy.packing .f32)
  hstage4_3 : ∀ j, (stage4_3 j).IsWhole
  nbuf4_3 : grid4.bufCount reads4_3 false = 2
  hreads4_3 : ∀ i i' : grid4.Coords, (∀ a, reads4_3 a = true → i a = i' a) → cc4_transform_3 i = cc4_transform_3 i'
  hinb4_3 : ∀ (i : grid4.Coords) a, (cc4_transform_3 i a + 1) * S10000x64.size a ≤ S100000x64.size a
  hwx4_3 : ∀ i : grid4.Coords, EltTy.bits .f32 = 32 ∨ (Rect.block (s := S100000x64) S10000x64.size (cc4_transform_3 i) (hinb4_3 i)).WholeWords (EltTy.packing .f32)

variable [Facts₀]

def scatter_S100000_S1600000x1_S1600000_n_0_0_1 : ScatterDims S100000 S1600000x1 S1600000 where
  updateWindowDims := []
  insertedWindowDims := [0]
  scatterDimsToOperandDims := [0]
  indexVectorDim := 1
  wf := scatter_S100000_S1600000x1_S1600000_n_0_0_1_wf
def dot_S10000x64_S64x64_S10000x64_1_0_0_1_n_n : DotDims S10000x64 S64x64 S10000x64 where
  lhsContracting := [1]
  rhsContracting := [0]
  lhsNonContracting := [0]
  rhsNonContracting := [1]
  lhsBatch := []
  rhsBatch := []
  wf := dot_S10000x64_S64x64_S10000x64_1_0_0_1_n_n_wf
def gather_S100000x64_S1600000x1_S1600000x64_1_0_n_n_0_1_164 : GatherDims S100000x64 S1600000x1 S1600000x64 where
  offsetDims := [1]
  collapsedSliceDims := [0]
  operandBatchingDims := []
  startIndicesBatchingDims := []
  startIndexMap := [0]
  indexVectorDim := 1
  sliceSizes := ![1, 64]
  wf := gather_S100000x64_S1600000x1_S1600000x64_1_0_n_n_0_1_164_wf
def scatter_S100000x64_S1600000x1_S1600000x64_1_0_0_1 : ScatterDims S100000x64 S1600000x1 S1600000x64 where
  updateWindowDims := [1]
  insertedWindowDims := [0]
  scatterDimsToOperandDims := [0]
  indexVectorDim := 1
  wf := scatter_S100000x64_S1600000x1_S1600000x64_1_0_0_1_wf

abbrev win0_0 : Pipeline.Window sig grid0 :=
  Pipeline.Window.ofSpec (Memref.whole main_arg0) S10000x64.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v8) S10000x1.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v11) S1x64.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v12) S64x64.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v14) S64x64.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v15) S10000x64.size cc0_transform_5 reads0_5 true false 2 stage0_5 sem0_5
    hrank0 hreads0_5 hinb0_5 nbuf0_5 (Memref.isWhole_whole _) hwx0_5 hstage0_5

abbrev win0 : Fin 6 → Pipeline.Window sig grid0 := fun | 0 => win0_0 | 1 => win0_1 | 2 => win0_2 | 3 => win0_3 | 4 => win0_4 | 5 => win0_5 | ⟨_ + 6, h⟩ => absurd h (Nat.not_lt.2 (Nat.le_add_left _ _))
abbrev spec0 : Fin 6 → Pipeline.WinSpec sig grid0.rank := fun w => (win0 w).toWinSpec

abbrev win1_0 : Pipeline.Window sig grid1 :=
  Pipeline.Window.ofSpec (Memref.whole main_v15) S10000x64.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v26) S10000x64.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v13) S64x64.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_v27) S10000x64.size cc1_transform_3 reads1_3 true false 2 stage1_3 sem1_3
    hrank1 hreads1_3 hinb1_3 nbuf1_3 (Memref.isWhole_whole _) hwx1_3 hstage1_3

abbrev win1 : Fin 4 → Pipeline.Window sig grid1 := fun | 0 => win1_0 | 1 => win1_1 | 2 => win1_2 | 3 => win1_3 | ⟨_ + 4, h⟩ => absurd h (Nat.not_lt.2 (Nat.le_add_left _ _))
abbrev spec1 : Fin 4 → Pipeline.WinSpec sig grid1.rank := fun w => (win1 w).toWinSpec

abbrev win2_0 : Pipeline.Window sig grid2 :=
  Pipeline.Window.ofSpec (Memref.whole main_v15) S10000x64.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_v37) S10000x64.size cc2_transform_1 reads2_1 false false 2 stage2_1 sem2_1
    hrank2 hreads2_1 hinb2_1 nbuf2_1 (Memref.isWhole_whole _) hwx2_1 hstage2_1

abbrev win2_2 : Pipeline.Window sig grid2 :=
  Pipeline.Window.ofSpec (Memref.whole main_v13) S64x64.size cc2_transform_2 reads2_2 false true 1 stage2_2 sem2_2
    hrank2 hreads2_2 hinb2_2 nbuf2_2 (Memref.isWhole_whole _) hwx2_2 hstage2_2

abbrev win2_3 : Pipeline.Window sig grid2 :=
  Pipeline.Window.ofSpec (Memref.whole main_v38) S10000x64.size cc2_transform_3 reads2_3 true false 2 stage2_3 sem2_3
    hrank2 hreads2_3 hinb2_3 nbuf2_3 (Memref.isWhole_whole _) hwx2_3 hstage2_3

abbrev win2 : Fin 4 → Pipeline.Window sig grid2 := fun | 0 => win2_0 | 1 => win2_1 | 2 => win2_2 | 3 => win2_3 | ⟨_ + 4, h⟩ => absurd h (Nat.not_lt.2 (Nat.le_add_left _ _))
abbrev spec2 : Fin 4 → Pipeline.WinSpec sig grid2.rank := fun w => (win2 w).toWinSpec

abbrev win3_0 : Pipeline.Window sig grid3 :=
  Pipeline.Window.ofSpec (Memref.whole main_v15) S10000x64.size cc3_transform_0 reads3_0 false false 2 stage3_0 sem3_0
    hrank3 hreads3_0 hinb3_0 nbuf3_0 (Memref.isWhole_whole _) hwx3_0 hstage3_0

abbrev win3_1 : Pipeline.Window sig grid3 :=
  Pipeline.Window.ofSpec (Memref.whole main_v48) S10000x64.size cc3_transform_1 reads3_1 false false 2 stage3_1 sem3_1
    hrank3 hreads3_1 hinb3_1 nbuf3_1 (Memref.isWhole_whole _) hwx3_1 hstage3_1

abbrev win3_2 : Pipeline.Window sig grid3 :=
  Pipeline.Window.ofSpec (Memref.whole main_v13) S64x64.size cc3_transform_2 reads3_2 false true 1 stage3_2 sem3_2
    hrank3 hreads3_2 hinb3_2 nbuf3_2 (Memref.isWhole_whole _) hwx3_2 hstage3_2

abbrev win3_3 : Pipeline.Window sig grid3 :=
  Pipeline.Window.ofSpec (Memref.whole main_v49) S10000x64.size cc3_transform_3 reads3_3 true false 2 stage3_3 sem3_3
    hrank3 hreads3_3 hinb3_3 nbuf3_3 (Memref.isWhole_whole _) hwx3_3 hstage3_3

abbrev win3 : Fin 4 → Pipeline.Window sig grid3 := fun | 0 => win3_0 | 1 => win3_1 | 2 => win3_2 | 3 => win3_3 | ⟨_ + 4, h⟩ => absurd h (Nat.not_lt.2 (Nat.le_add_left _ _))
abbrev spec3 : Fin 4 → Pipeline.WinSpec sig grid3.rank := fun w => (win3 w).toWinSpec

abbrev win4_0 : Pipeline.Window sig grid4 :=
  Pipeline.Window.ofSpec (Memref.whole main_v15) S10000x64.size cc4_transform_0 reads4_0 false false 2 stage4_0 sem4_0
    hrank4 hreads4_0 hinb4_0 nbuf4_0 (Memref.isWhole_whole _) hwx4_0 hstage4_0

abbrev win4_1 : Pipeline.Window sig grid4 :=
  Pipeline.Window.ofSpec (Memref.whole main_v59) S10000x64.size cc4_transform_1 reads4_1 false false 2 stage4_1 sem4_1
    hrank4 hreads4_1 hinb4_1 nbuf4_1 (Memref.isWhole_whole _) hwx4_1 hstage4_1

abbrev win4_2 : Pipeline.Window sig grid4 :=
  Pipeline.Window.ofSpec (Memref.whole main_v13) S64x64.size cc4_transform_2 reads4_2 false true 1 stage4_2 sem4_2
    hrank4 hreads4_2 hinb4_2 nbuf4_2 (Memref.isWhole_whole _) hwx4_2 hstage4_2

abbrev win4_3 : Pipeline.Window sig grid4 :=
  Pipeline.Window.ofSpec (Memref.whole main_v60) S10000x64.size cc4_transform_3 reads4_3 true false 2 stage4_3 sem4_3
    hrank4 hreads4_3 hinb4_3 nbuf4_3 (Memref.isWhole_whole _) hwx4_3 hstage4_3

abbrev win4 : Fin 4 → Pipeline.Window sig grid4 := fun | 0 => win4_0 | 1 => win4_1 | 2 => win4_2 | 3 => win4_3 | ⟨_ + 4, h⟩ => absurd h (Nat.not_lt.2 (Nat.le_add_left _ _))
abbrev spec4 : Fin 4 → Pipeline.WinSpec sig grid4.rank := fun w => (win4 w).toWinSpec

class Facts : Prop extends Facts₀ where

variable [Facts]
-- ==== ReferenceIdeal.lean ====
abbrev S100000x64 : Shape := ⟨2, ![100000, 64]⟩
abbrev S2x1600000 : Shape := ⟨2, ![2, 1600000]⟩
abbrev S64x64 : Shape := ⟨2, ![64, 64]⟩
abbrev S64x1 : Shape := ⟨2, ![64, 1]⟩
abbrev S1x1600000 : Shape := ⟨2, ![1, 1600000]⟩
abbrev S1600000 : Shape := ⟨1, ![1600000]⟩
abbrev S_ : Shape := ⟨0, ![]⟩
abbrev S100000 : Shape := ⟨1, ![100000]⟩
abbrev S1600000x1 : Shape := ⟨2, ![1600000, 1]⟩
abbrev S64 : Shape := ⟨1, ![64]⟩
abbrev S100000x1 : Shape := ⟨2, ![100000, 1]⟩
abbrev S1x64 : Shape := ⟨2, ![1, 64]⟩
abbrev S1600000x64 : Shape := ⟨2, ![1600000, 64]⟩

abbrev nBuf : Space → Nat
  | .hbm => 108
  | .vmem => 0
  | .smem => 0
  | _ => 0

abbrev bufTy : (tb : Table) → Fin (tcTables nBuf tb) → BufTy
  | .hbm, ⟨0, _⟩ => ⟨S100000x64, .f32⟩
  | .hbm, ⟨1, _⟩ => ⟨S2x1600000, .i32⟩
  | .hbm, ⟨2, _⟩ => ⟨S64x64, .f32⟩
  | .hbm, ⟨3, _⟩ => ⟨S64x64, .f32⟩
  | .hbm, ⟨4, _⟩ => ⟨S64x64, .f32⟩
  | .hbm, ⟨5, _⟩ => ⟨S64x1, .f32⟩
  | .hbm, ⟨6, _⟩ => ⟨S1x1600000, .i32⟩
  | .hbm, ⟨7, _⟩ => ⟨S1600000, .i32⟩
  | .hbm, ⟨8, _⟩ => ⟨S1x1600000, .i32⟩
  | .hbm, ⟨9, _⟩ => ⟨S1600000, .i32⟩
  | .hbm, ⟨10, _⟩ => ⟨S_, .f32⟩
  | .hbm, ⟨11, _⟩ => ⟨S1600000, .f32⟩
  | .hbm, ⟨12, _⟩ => ⟨S_, .f32⟩
  | .hbm, ⟨13, _⟩ => ⟨S100000, .f32⟩
  | .hbm, ⟨14, _⟩ => ⟨S1600000x1, .i32⟩
  | .hbm, ⟨15, _⟩ => ⟨S100000, .f32⟩
  | .hbm, ⟨16, _⟩ => ⟨S64, .f32⟩
  | .hbm, ⟨17, _⟩ => ⟨S100000x1, .f32⟩
  | .hbm, ⟨18, _⟩ => ⟨S_, .f32⟩
  | .hbm, ⟨19, _⟩ => ⟨S64, .f32⟩
  | .hbm, ⟨20, _⟩ => ⟨S64, .f32⟩
  | .hbm, ⟨21, _⟩ => ⟨S1x64, .f32⟩
  | .hbm, ⟨22, _⟩ => ⟨S100000x64, .f32⟩
  | .hbm, ⟨23, _⟩ => ⟨S100000x64, .f32⟩
  | .hbm, ⟨24, _⟩ => ⟨S100000x64, .f32⟩
  | .hbm, ⟨25, _⟩ => ⟨S64x64, .f32⟩
  | .hbm, ⟨26, _⟩ => ⟨S100000x64, .f32⟩
  | .hbm, ⟨27, _⟩ => ⟨S64x64, .f32⟩
  | .hbm, ⟨28, _⟩ => ⟨S100000x64, .f32⟩
  | .hbm, ⟨29, _⟩ => ⟨S100000x64, .f32⟩
  | .hbm, ⟨30, _⟩ => ⟨S_, .f32⟩
  | .hbm, ⟨31, _⟩ => ⟨S100000x64, .f32⟩
  | .hbm, ⟨32, _⟩ => ⟨S_, .i32⟩
  | .hbm, ⟨33, _⟩ => ⟨S1600000, .i32⟩
  | .hbm, ⟨34, _⟩ => ⟨S1600000, .i1⟩
  | .hbm, ⟨35, _⟩ => ⟨S_, .i32⟩
  | .hbm, ⟨36, _⟩ => ⟨S1600000, .i32⟩
  | .hbm, ⟨37, _⟩ => ⟨S1600000, .i32⟩
  | .hbm, ⟨38, _⟩ => ⟨S1600000, .i32⟩
  | .hbm, ⟨39, _⟩ => ⟨S1600000x1, .i32⟩
  | .hbm, ⟨40, _⟩ => ⟨S1600000x64, .f32⟩
  | .hbm, ⟨41, _⟩ => ⟨S_, .f32⟩
  | .hbm, ⟨42, _⟩ => ⟨S100000x64, .f32⟩
  | .hbm, ⟨43, _⟩ => ⟨S1600000x1, .i32⟩
  | .hbm, ⟨44, _⟩ => ⟨S100000x64, .f32⟩
  | .hbm, ⟨45, _⟩ => ⟨S64x64, .f32⟩
  | .hbm, ⟨46, _⟩ => ⟨S100000x64, .f32⟩
  | .hbm, ⟨47, _⟩ => ⟨S100000x64, .f32⟩
  | .hbm, ⟨48, _⟩ => ⟨S_, .f32⟩
  | .hbm, ⟨49, _⟩ => ⟨S100000x64, .f32⟩
  | .hbm, ⟨50, _⟩ => ⟨S100000x64, .f32⟩
  | .hbm, ⟨51, _⟩ => ⟨S_, .i32⟩
  | .hbm, ⟨52, _⟩ => ⟨S1600000, .i32⟩
  | .hbm, ⟨53, _⟩ => ⟨S1600000, .i1⟩
  | .hbm, ⟨54, _⟩ => ⟨S_, .i32⟩
  | .hbm, ⟨55, _⟩ => ⟨S1600000, .i32⟩
  | .hbm, ⟨56, _⟩ => ⟨S1600000, .i32⟩
  | .hbm, ⟨57, _⟩ => ⟨S1600000, .i32⟩
  | .hbm, ⟨58, _⟩ => ⟨S1600000x1, .i32⟩
  | .hbm, ⟨59, _⟩ => ⟨S1600000x64, .f32⟩
  | .hbm, ⟨60, _⟩ => ⟨S_, .f32⟩
  | .hbm, ⟨61, _⟩ => ⟨S100000x64, .f32⟩
  | .hbm, ⟨62, _⟩ => ⟨S1600000x1, .i32⟩
  | .hbm, ⟨63, _⟩ => ⟨S100000x64, .f32⟩
  | .hbm, ⟨64, _⟩ => ⟨S64x64, .f32⟩
  | .hbm, ⟨65, _⟩ => ⟨S100000x64, .f32⟩
  | .hbm, ⟨66, _⟩ => ⟨S100000x64, .f32⟩
  | .hbm, ⟨67, _⟩ => ⟨S_, .f32⟩
  | .hbm, ⟨68, _⟩ => ⟨S100000x64, .f32⟩
  | .hbm, ⟨69, _⟩ => ⟨S100000x64, .f32⟩
  | .hbm, ⟨70, _⟩ => ⟨S_, .i32⟩
  | .hbm, ⟨71, _⟩ => ⟨S1600000, .i32⟩
  | .hbm, ⟨72, _⟩ => ⟨S1600000, .i1⟩
  | .hbm, ⟨73, _⟩ => ⟨S_, .i32⟩
  | .hbm, ⟨74, _⟩ => ⟨S1600000, .i32⟩
  | .hbm, ⟨75, _⟩ => ⟨S1600000, .i32⟩
  | .hbm, ⟨76, _⟩ => ⟨S1600000, .i32⟩
  | .hbm, ⟨77, _⟩ => ⟨S1600000x1, .i32⟩
  | .hbm, ⟨78, _⟩ => ⟨S1600000x64, .f32⟩
  | .hbm, ⟨79, _⟩ => ⟨S_, .f32⟩
  | .hbm, ⟨80, _⟩ => ⟨S100000x64, .f32⟩
  | .hbm, ⟨81, _⟩ => ⟨S1600000x1, .i32⟩
  | .hbm, ⟨82, _⟩ => ⟨S100000x64, .f32⟩
  | .hbm, ⟨83, _⟩ => ⟨S64x64, .f32⟩
  | .hbm, ⟨84, _⟩ => ⟨S100000x64, .f32⟩
  | .hbm, ⟨85, _⟩ => ⟨S100000x64, .f32⟩
  | .hbm, ⟨86, _⟩ => ⟨S_, .f32⟩
  | .hbm, ⟨87, _⟩ => ⟨S100000x64, .f32⟩
  | .hbm, ⟨88, _⟩ => ⟨S100000x64, .f32⟩
  | .hbm, ⟨89, _⟩ => ⟨S_, .i32⟩
  | .hbm, ⟨90, _⟩ => ⟨S1600000, .i32⟩
  | .hbm, ⟨91, _⟩ => ⟨S1600000, .i1⟩
  | .hbm, ⟨92, _⟩ => ⟨S_, .i32⟩
  | .hbm, ⟨93, _⟩ => ⟨S1600000, .i32⟩
  | .hbm, ⟨94, _⟩ => ⟨S1600000, .i32⟩
  | .hbm, ⟨95, _⟩ => ⟨S1600000, .i32⟩
  | .hbm, ⟨96, _⟩ => ⟨S1600000x1, .i32⟩
  | .hbm, ⟨97, _⟩ => ⟨S1600000x64, .f32⟩
  | .hbm, ⟨98, _⟩ => ⟨S_, .f32⟩
  | .hbm, ⟨99, _⟩ => ⟨S100000x64, .f32⟩
  | .hbm, ⟨100, _⟩ => ⟨S1600000x1, .i32⟩
  | .hbm, ⟨101, _⟩ => ⟨S100000x64, .f32⟩
  | .hbm, ⟨102, _⟩ => ⟨S64x64, .f32⟩
  | .hbm, ⟨103, _⟩ => ⟨S100000x64, .f32⟩
  | .hbm, ⟨104, _⟩ => ⟨S100000x64, .f32⟩
  | .hbm, ⟨105, _⟩ => ⟨S_, .f32⟩
  | .hbm, ⟨106, _⟩ => ⟨S100000x64, .f32⟩
  | .hbm, ⟨107, _⟩ => ⟨S100000x64, .f32⟩
  | _, _ => ⟨S100000x64, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_cst : Ref sig .tc := ⟨.hbm, 10, rfl⟩
abbrev main_v4 : Ref sig .tc := ⟨.hbm, 11, rfl⟩
abbrev main_cst_0 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_call0_cst : Ref sig .tc := ⟨.hbm, 18, rfl⟩
abbrev main_call0_v0 : Ref sig .tc := ⟨.hbm, 19, rfl⟩
abbrev main_v10 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩
abbrev main_v19 : Ref sig .tc := ⟨.hbm, 29, rfl⟩
abbrev main_cst_1 : Ref sig .tc := ⟨.hbm, 30, rfl⟩
abbrev main_v20 : Ref sig .tc := ⟨.hbm, 31, rfl⟩
abbrev main_c : Ref sig .tc := ⟨.hbm, 32, rfl⟩
abbrev main_v21 : Ref sig .tc := ⟨.hbm, 33, rfl⟩
abbrev main_v22 : Ref sig .tc := ⟨.hbm, 34, rfl⟩
abbrev main_c_2 : Ref sig .tc := ⟨.hbm, 35, rfl⟩
abbrev main_v23 : Ref sig .tc := ⟨.hbm, 36, rfl⟩
abbrev main_v24 : Ref sig .tc := ⟨.hbm, 37, rfl⟩
abbrev main_v25 : Ref sig .tc := ⟨.hbm, 38, rfl⟩
abbrev main_v26 : Ref sig .tc := ⟨.hbm, 39, rfl⟩
abbrev main_v27 : Ref sig .tc := ⟨.hbm, 40, rfl⟩
abbrev main_cst_3 : Ref sig .tc := ⟨.hbm, 41, rfl⟩
abbrev main_v28 : Ref sig .tc := ⟨.hbm, 42, rfl⟩
abbrev main_v29 : Ref sig .tc := ⟨.hbm, 43, rfl⟩
abbrev main_v30 : Ref sig .tc := ⟨.hbm, 44, rfl⟩
abbrev main_v31 : Ref sig .tc := ⟨.hbm, 45, rfl⟩
abbrev main_v32 : Ref sig .tc := ⟨.hbm, 46, rfl⟩
abbrev main_v33 : Ref sig .tc := ⟨.hbm, 47, rfl⟩
abbrev main_call1_cst : Ref sig .tc := ⟨.hbm, 48, rfl⟩
abbrev main_call1_v0 : Ref sig .tc := ⟨.hbm, 49, rfl⟩
abbrev main_v34 : Ref sig .tc := ⟨.hbm, 50, rfl⟩
abbrev main_c_4 : Ref sig .tc := ⟨.hbm, 51, rfl⟩
abbrev main_v35 : Ref sig .tc := ⟨.hbm, 52, rfl⟩
abbrev main_v36 : Ref sig .tc := ⟨.hbm, 53, rfl⟩
abbrev main_c_5 : Ref sig .tc := ⟨.hbm, 54, rfl⟩
abbrev main_v37 : Ref sig .tc := ⟨.hbm, 55, rfl⟩
abbrev main_v38 : Ref sig .tc := ⟨.hbm, 56, rfl⟩
abbrev main_v39 : Ref sig .tc := ⟨.hbm, 57, rfl⟩
abbrev main_v40 : Ref sig .tc := ⟨.hbm, 58, rfl⟩
abbrev main_v41 : Ref sig .tc := ⟨.hbm, 59, rfl⟩
abbrev main_cst_6 : Ref sig .tc := ⟨.hbm, 60, rfl⟩
abbrev main_v42 : Ref sig .tc := ⟨.hbm, 61, rfl⟩
abbrev main_v43 : Ref sig .tc := ⟨.hbm, 62, rfl⟩
abbrev main_v44 : Ref sig .tc := ⟨.hbm, 63, rfl⟩
abbrev main_v45 : Ref sig .tc := ⟨.hbm, 64, rfl⟩
abbrev main_v46 : Ref sig .tc := ⟨.hbm, 65, rfl⟩
abbrev main_v47 : Ref sig .tc := ⟨.hbm, 66, rfl⟩
abbrev main_call2_cst : Ref sig .tc := ⟨.hbm, 67, rfl⟩
abbrev main_call2_v0 : Ref sig .tc := ⟨.hbm, 68, rfl⟩
abbrev main_v48 : Ref sig .tc := ⟨.hbm, 69, rfl⟩
abbrev main_c_7 : Ref sig .tc := ⟨.hbm, 70, rfl⟩
abbrev main_v49 : Ref sig .tc := ⟨.hbm, 71, rfl⟩
abbrev main_v50 : Ref sig .tc := ⟨.hbm, 72, rfl⟩
abbrev main_c_8 : Ref sig .tc := ⟨.hbm, 73, rfl⟩
abbrev main_v51 : Ref sig .tc := ⟨.hbm, 74, rfl⟩
abbrev main_v52 : Ref sig .tc := ⟨.hbm, 75, rfl⟩
abbrev main_v53 : Ref sig .tc := ⟨.hbm, 76, rfl⟩
abbrev main_v54 : Ref sig .tc := ⟨.hbm, 77, rfl⟩
abbrev main_v55 : Ref sig .tc := ⟨.hbm, 78, rfl⟩
abbrev main_cst_9 : Ref sig .tc := ⟨.hbm, 79, rfl⟩
abbrev main_v56 : Ref sig .tc := ⟨.hbm, 80, rfl⟩
abbrev main_v57 : Ref sig .tc := ⟨.hbm, 81, rfl⟩
abbrev main_v58 : Ref sig .tc := ⟨.hbm, 82, rfl⟩
abbrev main_v59 : Ref sig .tc := ⟨.hbm, 83, rfl⟩
abbrev main_v60 : Ref sig .tc := ⟨.hbm, 84, rfl⟩
abbrev main_v61 : Ref sig .tc := ⟨.hbm, 85, rfl⟩
abbrev main_call3_cst : Ref sig .tc := ⟨.hbm, 86, rfl⟩
abbrev main_call3_v0 : Ref sig .tc := ⟨.hbm, 87, rfl⟩
abbrev main_v62 : Ref sig .tc := ⟨.hbm, 88, rfl⟩
abbrev main_c_10 : Ref sig .tc := ⟨.hbm, 89, rfl⟩
abbrev main_v63 : Ref sig .tc := ⟨.hbm, 90, rfl⟩
abbrev main_v64 : Ref sig .tc := ⟨.hbm, 91, rfl⟩
abbrev main_c_11 : Ref sig .tc := ⟨.hbm, 92, rfl⟩
abbrev main_v65 : Ref sig .tc := ⟨.hbm, 93, rfl⟩
abbrev main_v66 : Ref sig .tc := ⟨.hbm, 94, rfl⟩
abbrev main_v67 : Ref sig .tc := ⟨.hbm, 95, rfl⟩
abbrev main_v68 : Ref sig .tc := ⟨.hbm, 96, rfl⟩
abbrev main_v69 : Ref sig .tc := ⟨.hbm, 97, rfl⟩
abbrev main_cst_12 : Ref sig .tc := ⟨.hbm, 98, rfl⟩
abbrev main_v70 : Ref sig .tc := ⟨.hbm, 99, rfl⟩
abbrev main_v71 : Ref sig .tc := ⟨.hbm, 100, rfl⟩
abbrev main_v72 : Ref sig .tc := ⟨.hbm, 101, rfl⟩
abbrev main_v73 : Ref sig .tc := ⟨.hbm, 102, rfl⟩
abbrev main_v74 : Ref sig .tc := ⟨.hbm, 103, rfl⟩
abbrev main_v75 : Ref sig .tc := ⟨.hbm, 104, rfl⟩
abbrev main_call4_cst : Ref sig .tc := ⟨.hbm, 105, rfl⟩
abbrev main_call4_v0 : Ref sig .tc := ⟨.hbm, 106, rfl⟩
abbrev main_v76 : Ref sig .tc := ⟨.hbm, 107, rfl⟩

abbrev nD : Nat := 1
abbrev τ : Topo := Topo.v7x

variable {F : FTy → Type} [FloatOps F]

class Facts₀ : Prop where
  slices_S2x1600000_S1x1600000_0_0 : S2x1600000.Slices ![0, 0] S1x1600000
  shapeCasts_S1x1600000_S1600000 : S1x1600000.ShapeCasts S1600000
  slices_S2x1600000_S1x1600000_1_0 : S2x1600000.Slices ![1, 0] S1x1600000
  bcast_S_S1600000 : S_.BroadcastsInDim S1600000 (![] : Fin 0 → Fin S1600000.rank)
  bcast_S_S100000 : S_.BroadcastsInDim S100000 (![] : Fin 0 → Fin S100000.rank)
  bcast_S1600000_S1600000x1_0 : S1600000.BroadcastsInDim S1600000x1 (![0] : Fin 1 → Fin S1600000x1.rank)
  shapeCasts_S64x1_S64 : S64x1.ShapeCasts S64
  bcast_S100000_S100000x1_0 : S100000.BroadcastsInDim S100000x1 (![0] : Fin 1 → Fin S100000x1.rank)
  bcast_S_S64 : S_.BroadcastsInDim S64 (![] : Fin 0 → Fin S64.rank)
  bcast_S64_S1x64_1 : S64.BroadcastsInDim S1x64 (![1] : Fin 1 → Fin S1x64.rank)
  bcast_S100000x1_S100000x64_0_1 : S100000x1.BroadcastsInDim S100000x64 (![0, 1] : Fin 2 → Fin S100000x64.rank)
  bcast_S1x64_S100000x64_0_1 : S1x64.BroadcastsInDim S100000x64 (![0, 1] : Fin 2 → Fin S100000x64.rank)
  transposes_S64x64_S64x64_1_0 : S64x64.Transposes [1, 0] S64x64
  bcast_S_S100000x64 : S_.BroadcastsInDim S100000x64 (![] : Fin 0 → Fin S100000x64.rank)
  scatter_S100000_S1600000x1_S1600000_n_0_0_1_wf : ScatterDims.WF S100000 S1600000x1 S1600000 [] [0] [0] 1
  dot_S100000x64_S64x64_S100000x64_1_0_0_1_n_n_wf : DotDims.WF S100000x64 S64x64 S100000x64 [1] [0] [0] [1] [] []
  gather_S100000x64_S1600000x1_S1600000x64_1_0_n_n_0_1_164_wf : GatherDims.WF S100000x64 S1600000x1 S1600000x64 [1] [0] [] [0] [] 1 ![1, 64]
  scatter_S100000x64_S1600000x1_S1600000x64_1_0_0_1_wf : ScatterDims.WF S100000x64 S1600000x1 S1600000x64 [1] [0] [0] 1

variable [Facts₀]

def scatter_S100000_S1600000x1_S1600000_n_0_0_1 : ScatterDims S100000 S1600000x1 S1600000 where
  updateWindowDims := []
  insertedWindowDims := [0]
  scatterDimsToOperandDims := [0]
  indexVectorDim := 1
  wf := scatter_S100000_S1600000x1_S1600000_n_0_0_1_wf
def dot_S100000x64_S64x64_S100000x64_1_0_0_1_n_n : DotDims S100000x64 S64x64 S100000x64 where
  lhsContracting := [1]
  rhsContracting := [0]
  lhsNonContracting := [0]
  rhsNonContracting := [1]
  lhsBatch := []
  rhsBatch := []
  wf := dot_S100000x64_S64x64_S100000x64_1_0_0_1_n_n_wf
def gather_S100000x64_S1600000x1_S1600000x64_1_0_n_n_0_1_164 : GatherDims S100000x64 S1600000x1 S1600000x64 where
  offsetDims := [1]
  collapsedSliceDims := [0]
  operandBatchingDims := []
  startIndicesBatchingDims := []
  startIndexMap := [0]
  indexVectorDim := 1
  sliceSizes := ![1, 64]
  wf := gather_S100000x64_S1600000x1_S1600000x64_1_0_n_n_0_1_164_wf
def scatter_S100000x64_S1600000x1_S1600000x64_1_0_0_1 : ScatterDims S100000x64 S1600000x1 S1600000x64 where
  updateWindowDims := [1]
  insertedWindowDims := [0]
  scatterDimsToOperandDims := [0]
  indexVectorDim := 1
  wf := scatter_S100000x64_S1600000x1_S1600000x64_1_0_0_1_wf

class Facts : Prop extends Facts₀ where

variable [Facts]
-- ==== Proof.KernelRun.lean ====
/-
  The idealized kernel's run with its result kept.

  @main of the kernel is five launches among stretches of host operations. Its run is the chain of segments
  the generated frame module assembles; the memory every terminating execution ends in is, at every buffer that
  outlives a launch, the contents `W12` of the last boundary of that chain. Read at the result buffer and at the six
  arguments this says: the result ends at `W12` of its buffer, and the arguments end as launched.
-/
import proofs.«108278_j89567247991232_1_alg».proof.Proof.Gen.KernelIdeal.Frame

set_option maxRecDepth 16384

noncomputable section

namespace Cert.KernelIdeal.RunValue

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- Every weakly fair execution of the kernel's @main terminates without a fault; the result buffer then holds the last
    boundary's contents and the six arguments hold what they were launched with. -/
theorem run_last : θ_run defs (onTc (τ := τ) (main (F := F))) ⟨m, fun _ => 0, ρ⟩ (fun r => ∀ c : Dev nD,
      r.2.mem ((c.tc : Thread nD τ).loc main_v60) = W12 m ρ c (Proc.devRef .tc main_v60)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W12 m ρ c b)
    (hfin := fun c s' => by
      iintro ⟨⟨Hh, -⟩, HSI⟩
      unfold StableHlo.held
      imodintro
      iapply (pointsTo_read_all (Pipeline.ucRefs τ sig) (fun b => (((c : Thread nD τ)).1, b)) (W12 m ρ c) s')
      isplitl [Hh] <;> iassumption)
    (hQ := fun s h c =>
      ⟨h c _ (mem_uc main_v60 (by decide)),
       (h c _ (mem_uc main_arg0 (by decide))).trans (W12_main_arg0 m ρ c),
       (h c _ (mem_uc main_arg1 (by decide))).trans (W12_main_arg1 m ρ c),
       (h c _ (mem_uc main_arg2 (by decide))).trans (W12_main_arg2 m ρ c),
       (h c _ (mem_uc main_arg3 (by decide))).trans (W12_main_arg3 m ρ c),
       (h c _ (mem_uc main_arg4 (by decide))).trans (W12_main_arg4 m ρ c),
       (h c _ (mem_uc main_arg5 (by decide))).trans (W12_main_arg5 m ρ c)⟩)

end Cert.KernelIdeal.RunValue

end
-- ==== Proof.Spec.lean ====
/-
  What the graph layer computes, entry by entry.

  The node features `X` are a 100000 × 64 array; `d` is the column of node degrees, `r` the row of clipped
  weights; `A`, `B`, `C` are 64 × 64 matrices (the three weight matrices, already transposed).

  * The loop-invariant part: entry (p, q) is  Σ_k X(p,k)·A(k,q)  +  Σ_k (d(p)·r(k))·C(k,q).
  * One step: from the invariant part `base` and the aggregated neighbours `nb`, entry (p, q) is
    max(base(p,q) + Σ_k nb(p,k)·B(k,q), 0).
  * The layer: four steps from the zero embedding, each aggregating the previous embedding over the graph's edges
    by a function `agg` that both programs spell with the same host operations (it is a parameter here).

  All sums and products are those of the extended reals; nothing here needs the entries to be finite.
-/
import Idealize.ShloMosaic.PureOps.Ideal.Laws
import Idealize.ShloMosaic.Lib.ValueIdx

noncomputable section

namespace Cert.Spec

open Idealize.ShloMosaic Idealize.ShloMosaic.ValueIdx
open scoped BigOperators

/-- The shapes: node arrays, square weight matrices, the degree column and the weight row. -/
abbrev Nodes : Shape := ⟨2, ![100000, 64]⟩
abbrev Sq : Shape := ⟨2, ![64, 64]⟩
abbrev DegCol : Shape := ⟨2, ![100000, 1]⟩
abbrev WRow : Shape := ⟨2, ![1, 64]⟩

/-- The zero word of f32 read on the extended reals. -/
abbrev zeroE : EReal := Ideal.ofBits .f32 0x00000000#32

/-- Entry (p, q) of the loop-invariant part. -/
def baseAt (X : Nodes.Idx → EReal) (d : DegCol.Idx → EReal) (r : WRow.Idx → EReal) (A C : Sq.Idx → EReal)
    (p : Fin 100000) (q : Fin 64) : EReal :=
  (∑ k : Fin 64, X (ix2 p k) * A (ix2 k q)) + ∑ k : Fin 64, (d (ix2 p (0 : Fin 1)) * r (ix2 (0 : Fin 1) k)) * C (ix2 k q)

/-- The loop-invariant part as an array. -/
def base (X : Nodes.Idx → EReal) (d : DegCol.Idx → EReal) (r : WRow.Idx → EReal) (A C : Sq.Idx → EReal) :
    Nodes.Idx → EReal := fun i => baseAt X d r A C (i 0) (i 1)

/-- Entry (p, q) of one step. -/
def combineAt (bs nb : Nodes.Idx → EReal) (B : Sq.Idx → EReal) (p : Fin 100000) (q : Fin 64) : EReal :=
  max (bs (ix2 p q) + ∑ k : Fin 64, nb (ix2 p k) * B (ix2 k q)) zeroE

/-- One step as an array. -/
def combine (bs nb : Nodes.Idx → EReal) (B : Sq.Idx → EReal) : Nodes.Idx → EReal :=
  fun i => combineAt bs nb B (i 0) (i 1)

/-- The zero embedding. -/
def zeros : Nodes.Idx → EReal := fun _ => zeroE

/-- The layer: four steps from the zero embedding. -/
def layer (agg : (Nodes.Idx → EReal) → (Nodes.Idx → EReal)) (bs : Nodes.Idx → EReal) (B : Sq.Idx → EReal) :
    Nodes.Idx → EReal :=
  combine bs (agg (combine bs (agg (combine bs (agg (combine bs (agg zeros) B)) B)) B)) B

end Cert.Spec

end
-- ==== Proof.LibMatDot.lean ====
/-
  A plain matrix product read at an index.

  The dimension numbers of `[a, K] × [K, b] → [a, b]` — contract the left operand's axis 1 with the right operand's axis 0, no
  batch axis — are those of the product `l · r`. On the extended reals the product, read at `(p, q)`, is the sum over `k` of
  `l (p, k) · r (k, q)`: row `p` of the left operand against column `q` of the right one.
-/
import Idealize.ShloMosaic.PureOps.Ideal.Laws
import Idealize.ShloMosaic.Lib.ValueIdx

noncomputable section

namespace Cert.Lib

open Idealize.ShloMosaic Idealize.ShloMosaic.ValueIdx
open scoped BigOperators

variable {a K b : ℕ}

/-- The dimension numbers of the product of rows with columns `[a, K] × [K, b] → [a, b]`, over any witness of their
    well-formedness. -/
abbrev matDot (wf : DotDims.WF ⟨2, ![a, K]⟩ ⟨2, ![K, b]⟩ ⟨2, ![a, b]⟩ [1] [0] [0] [1] [] []) :
    DotDims ⟨2, ![a, K]⟩ ⟨2, ![K, b]⟩ ⟨2, ![a, b]⟩ where
  lhsContracting := [1]
  rhsContracting := [0]
  lhsNonContracting := [0]
  rhsNonContracting := [1]
  lhsBatch := []
  rhsBatch := []
  wf := wf

variable (wf : DotDims.WF ⟨2, ![a, K]⟩ ⟨2, ![K, b]⟩ ⟨2, ![a, b]⟩ [1] [0] [0] [1] [] [])

/-- Off the contracted axis the left operand is read at the result's row, -/
theorem matDot_lhs_row (i : (⟨2, ![a, b]⟩ : Shape).Idx) (κ : (matDot wf).contr.Idx) :
    ((matDot wf).lhsIdx i κ 0).val = (i 0).val := by
  unfold DotDims.lhsIdx
  rw [dif_neg (show ¬(0 : Fin (Shape.rank ⟨2, ![a, K]⟩)) ∈ (matDot wf).lhsBatch from List.not_mem_nil),
    dif_pos (show (0 : Fin (Shape.rank ⟨2, ![a, K]⟩)) ∈ (matDot wf).lhsNonContracting from List.mem_singleton.mpr rfl)]
  rfl

/-- and the right operand at the result's column. -/
theorem matDot_rhs_col (i : (⟨2, ![a, b]⟩ : Shape).Idx) (κ : (matDot wf).contr.Idx) :
    ((matDot wf).rhsIdx i κ 1).val = (i 1).val := by
  unfold DotDims.rhsIdx
  rw [dif_neg (show ¬(1 : Fin (Shape.rank ⟨2, ![K, b]⟩)) ∈ (matDot wf).rhsBatch from List.not_mem_nil),
    dif_pos (show (1 : Fin (Shape.rank ⟨2, ![K, b]⟩)) ∈ (matDot wf).rhsNonContracting from List.mem_singleton.mpr rfl)]
  rfl

/-- At result index `(p, q)` and contraction position `k` the left operand is read at `(p, k)`. -/
theorem matDot_lhsIdx (p : Fin a) (q : Fin b) (k : Fin K) :
    (matDot wf).lhsIdx (ix2 p q) ((contrEquiv1 (matDot wf) K rfl rfl).symm k) = ix2 p k :=
  funext fun ax => Fin.ext (by
    match ax with
    | ⟨0, _⟩ => exact matDot_lhs_row wf _ _
    | ⟨1, _⟩ =>
      exact ((matDot wf).lhsIdx_val_of_single rfl _ _).trans (contrEquiv1_symm_val (matDot wf) K rfl rfl k))

/-- … and the right operand at `(k, q)`. -/
theorem matDot_rhsIdx (p : Fin a) (q : Fin b) (k : Fin K) :
    (matDot wf).rhsIdx (ix2 p q) ((contrEquiv1 (matDot wf) K rfl rfl).symm k) = ix2 k q :=
  funext fun ax => Fin.ext (by
    match ax with
    | ⟨0, _⟩ =>
      exact ((matDot wf).rhsIdx_val_of_single rfl _ _).trans (contrEquiv1_symm_val (matDot wf) K rfl rfl k)
    | ⟨1, _⟩ => exact matDot_rhs_col wf _ _)

/-- The contraction of a product of rows with columns at `(p, q)`, re-indexed by the contracted coordinate. -/
theorem matDot_sum {φ₁ φ₂ : FTy} (l : FVec Ideal ⟨2, ![a, K]⟩ φ₁) (r : FVec Ideal ⟨2, ![K, b]⟩ φ₂) (p : Fin a) (q : Fin b) :
    (∑ k : (matDot wf).contr.Idx, l ((matDot wf).lhsIdx (ix2 p q) k) * r ((matDot wf).rhsIdx (ix2 p q) k))
      = ∑ k : Fin K, l (ix2 p k) * r (ix2 k q) := by
  rw [← Equiv.sum_comp (contrEquiv1 (matDot wf) K rfl rfl).symm]
  refine Finset.sum_congr rfl fun k _ => ?_
  rw [matDot_lhsIdx, matDot_rhsIdx]

/-- A `tpu.matmul` of rows with columns at `(p, q)`: the accumulator's entry plus the row-by-column sum. -/
theorem matmul_plain_apply {φ₁ φ₂ : FTy} (prec : Option ContractPrecision) (l : FVec Ideal ⟨2, ![a, K]⟩ φ₁)
    (r : FVec Ideal ⟨2, ![K, b]⟩ φ₂) (acc : FVec Ideal ⟨2, ![a, b]⟩ .f32) (p : Fin a) (q : Fin b) :
    FloatOps.matmul (matDot wf) prec l r acc (ix2 p q) = acc (ix2 p q) + ∑ k : Fin K, l (ix2 p k) * r (ix2 k q) := by
  rw [Ideal.matmul_apply, matDot_sum]

/-- Into the zero accumulator: the row-by-column sum alone. -/
theorem matmul_plain_zero_apply {φ₁ φ₂ : FTy} (prec : Option ContractPrecision) (l : FVec Ideal ⟨2, ![a, K]⟩ φ₁)
    (r : FVec Ideal ⟨2, ![K, b]⟩ φ₂) (p : Fin a) (q : Fin b) :
    FloatOps.matmul (matDot wf) prec l r (constant ⟨2, ![a, b]⟩ .f32 0x00000000#32) (ix2 p q)
      = ∑ k : Fin K, l (ix2 p k) * r (ix2 k q) := by
  rw [Ideal.matmul_constant_zero_apply, matDot_sum]

/-- The host's `dot_general` of rows with columns at `(p, q)`: the same sum. -/
theorem dotGeneral_plain_apply {φ₁ φ₂ : FTy} (prec : Option ContractPrecision) (sched : HostSchedule)
    (l : FVec Ideal ⟨2, ![a, K]⟩ φ₁) (r : FVec Ideal ⟨2, ![K, b]⟩ φ₂) (p : Fin a) (q : Fin b) :
    FloatOps.dotGeneral (matDot wf) prec sched l r (ix2 p q) = ∑ k : Fin K, l (ix2 p k) * r (ix2 k q) := by
  rw [Ideal.dotGeneral_apply, matDot_sum]

end Cert.Lib

end
-- ==== Proof.LibColumn.lean ====
/-
  A column vector's layout operations read at an index.

  A vector of `a` entries reshaped to a column `[a, 1]` reads, at `(i, 0)`, the vector's entry `i`; a column `[a, 1]`
  broadcast along its unit axis to `[a, b]` reads, at `(p, c)`, the column's entry `p`, whatever the column `c`. These
  are the column counterparts of the library's row forms (a vector as one row, one row broadcast over many).
-/
import Idealize.ShloMosaic.Lib.ValueIdx
import Idealize.ShloMosaic.Lib.Pipeline.Value

noncomputable section

namespace Cert.Lib

open Idealize.ShloMosaic Idealize.ShloMosaic.ValueIdx

variable {α : Type}

/-- An `[a]` array cast to a column `[a, 1]` reads, at `(i, u)`, the operand at `i`, whatever the unit coordinate `u`. -/
theorem shapeCast_a_a1_apply {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- A column `[a, 1]` broadcast to `[a, b]` reads, at `(p, c)`, the column's entry `p`. -/
theorem broadcastTo_a1_ab_apply {a b : ℕ} (v : (⟨2, ![a, 1]⟩ : Shape).Idx → α)
    (h : (⟨2, ![a, 1]⟩ : Shape).Broadcasts ⟨2, ![a, b]⟩) (p : Fin a) (c : Fin b) :
    broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

end Cert.Lib

end
-- ==== Proof.Base.lean ====
/-
  Launch 0, the loop-invariant part: what its result array holds.

  The launch runs over ten blocks of 10000 rows. At block `t` the body loads rows [10000·t, 10000·t + 10000) of the node
  features and of the degree column, the whole weight row and the two whole 64 × 64 matrices; it stores, at row p' and
  column q of the block,  Σ_k X(p',k)·A(k,q)  +  Σ_k (d(p')·r(k))·C(k,q): the degree column and the weight row are spread
  over the block (entry (p', k) of the spread column is d(p'), of the spread row is r(k)), multiplied entry by entry, and
  taken against C; both products go into the zero accumulator, and a change of float format is the identity on the
  extended reals. The ten blocks tile the array.
-/
import proofs.«108278_j89567247991232_1_alg».proof.Proof.Gen.KernelIdeal.Frame
import proofs.«108278_j89567247991232_1_alg».proof.Proof.Spec
import proofs.«108278_j89567247991232_1_alg».proof.Proof.LibMatDot
import proofs.«108278_j89567247991232_1_alg».proof.Proof.LibColumn
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

namespace Cert.KernelIdeal.Base

open Cert.KernelIdeal Cert.KernelIdeal.Gen
open Idealize.ShloMosaic Idealize.ShloMosaic.TcCoe Idealize.ShloMosaic.ValueIdx Idealize.SL.Sem
open scoped BigOperators

theorem zero_off : (![0, 0] : Fin 2 → Nat) = fun _ => 0 := funext fun a => by fin_cases a <;> rfl

/-- The body's arithmetic at row p, column q of a block. -/
theorem payload_apply (xv : Vec Ideal S10000x64 .f32) (a : Vec Ideal S64x64 .f32) (d : Vec Ideal S10000x1 .f32)
    (r : Vec Ideal S1x64 .f32) (cm : Vec Ideal S64x64 .f32) (p : Fin 10000) (q : Fin 64) :
    k0_pay1 (F := Ideal) xv a d r cm (ix2 p q)
      = (∑ k : Fin 64, xv (ix2 p k) * a (ix2 k q))
        + ∑ k : Fin 64, (d (ix2 p (0 : Fin 1)) * r (ix2 (0 : Fin 1) k)) * cm (ix2 k q) := by
  unfold k0_pay1
  simp only [shapeCast_self]
  show FloatOps.matmul (F := Ideal) (Cert.Lib.matDot Cert.KernelIdeal.Gen.dot_S10000x64_S64x64_S10000x64_1_0_0_1_n_n_wf) none
        (truncf (F := Ideal) .bf16 (φ := .f32) xv bitsLt_bf16_f32) (truncf (F := Ideal) .bf16 (φ := .f32) a bitsLt_bf16_f32)
        (constant (F := Ideal) ⟨2, ![10000, 64]⟩ .f32 0x00000000#32) (ix2 p q)
      + FloatOps.matmul (F := Ideal) (Cert.Lib.matDot Cert.KernelIdeal.Gen.dot_S10000x64_S64x64_S10000x64_1_0_0_1_n_n_wf) none
        (truncf (F := Ideal) .bf16 (φ := .f32)
          (mulf (F := Ideal) (broadcastTo ⟨2, ![10000, 64]⟩ d broadcasts_S10000x1_S10000x64) (broadcastTo ⟨2, ![10000, 64]⟩ r broadcasts_S1x64_S10000x64))
          bitsLt_bf16_f32)
        (truncf (F := Ideal) .bf16 (φ := .f32) cm bitsLt_bf16_f32)
        (constant (F := Ideal) ⟨2, ![10000, 64]⟩ .f32 0x00000000#32) (ix2 p q) = _
  rw [Cert.Lib.matmul_plain_zero_apply, Cert.Lib.matmul_plain_zero_apply]
  refine congrArg₂ (· + ·) rfl (Finset.sum_congr rfl fun k _ => ?_)
  show (broadcastTo ⟨2, ![10000, 64]⟩ d broadcasts_S10000x1_S10000x64 (ix2 p k)
      * broadcastTo ⟨2, ![10000, 64]⟩ r broadcasts_S1x64_S10000x64 (ix2 p k)) * cm (ix2 k q) = _
  rw [Cert.Lib.broadcastTo_a1_ab_apply, broadcastTo_1b_ab_apply]

/-- The same at any index of the block. -/
theorem payload_at (xv : Vec Ideal S10000x64 .f32) (a : Vec Ideal S64x64 .f32) (d : Vec Ideal S10000x1 .f32)
    (r : Vec Ideal S1x64 .f32) (cm : Vec Ideal S64x64 .f32) (y : S10000x64.Idx) :
    k0_pay1 (F := Ideal) xv a d r cm y
      = (∑ k : Fin 64, xv (ix2 (y 0) k) * a (ix2 k (y 1)))
        + ∑ k : Fin 64, (d (ix2 (y 0) (0 : Fin 1)) * r (ix2 (0 : Fin 1) k)) * cm (ix2 k (y 1)) := by
  obtain ⟨p, q, rfl⟩ : ∃ (p : Fin 10000) (q : Fin 64), y = ix2 p q := ⟨y 0, y 1, eq_ix2 y⟩
  exact payload_apply xv a d r cm p q

/-- The printed index maps over the ten points: the two row-blocked inputs sit at the output's row block, every column
    block is the first, and the weight row and the two matrices are one block each. -/
theorem idx_facts : ∀ t : Fin cfg0.N,
    win0_0.index t (0 : Fin 2) = win0_5.index t (0 : Fin 2) ∧ win0_0.index t (1 : Fin 2) = 0
    ∧ win0_1.index t (0 : Fin 2) = win0_5.index t (0 : Fin 2) ∧ win0_1.index t (1 : Fin 2) = 0
    ∧ win0_2.index t (0 : Fin 2) = 0 ∧ win0_2.index t (1 : Fin 2) = 0
    ∧ win0_3.index t (0 : Fin 2) = 0 ∧ win0_3.index t (1 : Fin 2) = 0
    ∧ win0_4.index t (0 : Fin 2) = 0 ∧ win0_4.index t (1 : Fin 2) = 0
    ∧ win0_5.index t (1 : Fin 2) = 0 ∧ win0_5.index t (0 : Fin 2) ≤ 9 :=
  (by decide +kernel : ∀ t : Fin grid0.N, _)

/-- Every row block is some point's. -/
theorem idx_onto : ∀ q0 : Fin 10, ∃ t : Fin cfg0.N, win0_5.index t = ![q0.val, 0] :=
  (by decide +kernel : ∀ q0 : Fin 10, ∃ t : Fin grid0.N, win0_5.index t = ![q0.val, 0])

/-- Block `t` of the launch, computed from blocks `t` of the five arrays, is block `t` of the invariant part taken of the
    whole arrays. -/
theorem block_eq (X : S100000x64.Idx → EReal) (D : S100000x1.Idx → EReal) (R : S1x64.Idx → EReal)
    (A C : S64x64.Idx → EReal) (t : Fin cfg0.N) :
    (cfg0.win 5).cut (grid0.coords t)
        (out0_5 (F := Ideal) (((cfg0.win 0).blk t).view.read (Elt Ideal) X) (((cfg0.win 1).blk t).view.read (Elt Ideal) D)
          (((cfg0.win 2).blk t).view.read (Elt Ideal) R) (((cfg0.win 3).blk t).view.read (Elt Ideal) A)
          (((cfg0.win 4).blk t).view.read (Elt Ideal) C))
      = ((cfg0.win 5).blk t).view.read (Elt Ideal) (Cert.Spec.base X D R A C) := by
  unfold out0_5
  rw [View.canon_unit_zero zero_off]
  simp only [View.ld_unit_zero (S := S10000x64) zero_off, View.ld_unit_zero (S := S64x64) zero_off,
    View.ld_unit_zero (S := S10000x1) zero_off, View.ld_unit_zero (S := S1x64) zero_off]
  obtain ⟨e0, e1, e2, e3, e4, e5, e6, e7, e8, e9, e10, e11⟩ := idx_facts t
  funext j
  refine (payload_at _ _ _ _ _ j).trans ?_
  show (∑ k : Fin 64, X (((cfg0.win 0).blk t).view.emb (ix2 (j 0) k)) * A (((cfg0.win 3).blk t).view.emb (ix2 k (j 1))))
      + ∑ k : Fin 64, (D (((cfg0.win 1).blk t).view.emb (ix2 (j 0) (0 : Fin 1))) * R (((cfg0.win 2).blk t).view.emb (ix2 (0 : Fin 1) k)))
          * C (((cfg0.win 4).blk t).view.emb (ix2 k (j 1)))
    = (∑ k : Fin 64, X (ix2 ((((cfg0.win 5).blk t).view.emb j) 0) k) * A (ix2 k ((((cfg0.win 5).blk t).view.emb j) 1)))
      + ∑ k : Fin 64, (D (ix2 ((((cfg0.win 5).blk t).view.emb j) 0) (0 : Fin 1)) * R (ix2 (0 : Fin 1) k))
          * C (ix2 k ((((cfg0.win 5).blk t).view.emb j) 1))
  have g0 : ∀ k : Fin 64, ((cfg0.win 0).blk t).view.emb (ix2 (j 0) k) = ix2 ((((cfg0.win 5).blk t).view.emb j) 0) k := by
    intro k; funext a; apply Fin.ext
    match a with
    | ⟨0, _⟩ => show win0_0.index t (0 : Fin 2) * 10000 + 1 * (j 0).val = win0_5.index t (0 : Fin 2) * 10000 + 1 * (j 0).val; omega
    | ⟨1, _⟩ => show win0_0.index t (1 : Fin 2) * 64 + 1 * k.val = k.val; omega
  have g1 : ((cfg0.win 1).blk t).view.emb (ix2 (j 0) (0 : Fin 1)) = ix2 ((((cfg0.win 5).blk t).view.emb j) 0) (0 : Fin 1) := by
    funext a; apply Fin.ext
    match a with
    | ⟨0, _⟩ => show win0_1.index t (0 : Fin 2) * 10000 + 1 * (j 0).val = win0_5.index t (0 : Fin 2) * 10000 + 1 * (j 0).val; omega
    | ⟨1, _⟩ => show win0_1.index t (1 : Fin 2) * 1 + 1 * 0 = 0; omega
  have g2 : ∀ k : Fin 64, ((cfg0.win 2).blk t).view.emb (ix2 (0 : Fin 1) k) = ix2 (0 : Fin 1) k := by
    intro k; funext a; apply Fin.ext
    match a with
    | ⟨0, _⟩ => show win0_2.index t (0 : Fin 2) * 1 + 1 * 0 = 0; omega
    | ⟨1, _⟩ => show win0_2.index t (1 : Fin 2) * 64 + 1 * k.val = k.val; omega
  have g3 : ∀ k : Fin 64, ((cfg0.win 3).blk t).view.emb (ix2 k (j 1)) = ix2 k ((((cfg0.win 5).blk t).view.emb j) 1) := by
    intro k; funext a; apply Fin.ext
    match a with
    | ⟨0, _⟩ => show win0_3.index t (0 : Fin 2) * 64 + 1 * k.val = k.val; omega
    | ⟨1, _⟩ => show win0_3.index t (1 : Fin 2) * 64 + 1 * (j 1).val = win0_5.index t (1 : Fin 2) * 64 + 1 * (j 1).val; omega
  have g4 : ∀ k : Fin 64, ((cfg0.win 4).blk t).view.emb (ix2 k (j 1)) = ix2 k ((((cfg0.win 5).blk t).view.emb j) 1) := by
    intro k; funext a; apply Fin.ext
    match a with
    | ⟨0, _⟩ => show win0_4.index t (0 : Fin 2) * 64 + 1 * k.val = k.val; omega
    | ⟨1, _⟩ => show win0_4.index t (1 : Fin 2) * 64 + 1 * (j 1).val = win0_5.index t (1 : Fin 2) * 64 + 1 * (j 1).val; omega
  exact congrArg₂ (· + ·)
    (Finset.sum_congr rfl fun k _ => congrArg₂ (· * ·) (congrArg X (g0 k)) (congrArg A (g3 k)))
    (Finset.sum_congr rfl fun k _ => congrArg₂ (· * ·)
      (congrArg₂ (· * ·) (congrArg D g1) (congrArg R (g2 k))) (congrArg C (g4 k)))

variable (V : (c : Dev nD) → (b : Ref sig .tc) → Buf (Elt Ideal) ((c : Thread nD τ).loc b))

/-- What point `t` writes back is block `t` of the invariant part, taken of the arrays the launch finds. -/
theorem flushed_eq (c : Dev nD) (t : Fin cfg0.N) :
    (dat0 V c).flushed 5 t = ((cfg0.win 5).blk t).view.read (Elt Ideal)
      (Cert.Spec.base (V c main_arg0) (V c main_v8) (V c main_v11) (V c main_v12) (V c main_v14)) := by
  show (cfg0.win 5).cut (grid0.coords t) ((dat0 V c).after 5 t) = _
  rw [after0_5]
  exact block_eq (V c main_arg0) (V c main_v8) (V c main_v11) (V c main_v12) (V c main_v14) t

/-- An index of the array is in point `t`'s block iff each coordinate is in the block's range on its axis. -/
theorem mem_blk (t : Fin cfg0.N) (i : S100000x64.Idx) :
    i ∈ ((cfg0.win 5).blk t).view.set ↔ ∀ a : Fin 2, win0_5.index t a * S10000x64.size a ≤ (i a).val ∧ (i a).val < win0_5.index t a * S10000x64.size a + S10000x64.size a := by
  show i ∈ ((View.whole main_v15).slice (win0_5.rect t)).set ↔ _
  rw [View.set_slice_whole, Rect.mem_set_unit]
  exact Iff.rfl

/-- The ten blocks tile the array: row r is in block r / 10000. -/
theorem cover (i : S100000x64.Idx) :
    ∃ t : Fin cfg0.N, (cfg0.win 5).flush t = true ∧ i ∈ ((cfg0.win 5).blk t).view.set := by
  have hi0 : (i 0).val < 100000 := (i 0).isLt
  have hi1 : (i 1).val < 64 := (i 1).isLt
  obtain ⟨t, ht⟩ := idx_onto ⟨(i 0).val / 10000, by omega⟩
  have q0 : win0_5.index t (0 : Fin 2) = (i 0).val / 10000 := congrFun ht 0
  have q1 : win0_5.index t (1 : Fin 2) = 0 := congrFun ht 1
  refine ⟨t, flush0_5 t, ?_⟩
  rw [mem_blk]
  intro a
  match a with
  | ⟨0, _⟩ => show win0_5.index t (0 : Fin 2) * 10000 ≤ (i 0).val ∧ (i 0).val < win0_5.index t (0 : Fin 2) * 10000 + 10000; omega
  | ⟨1, _⟩ => show win0_5.index t (1 : Fin 2) * 64 ≤ (i 1).val ∧ (i 1).val < win0_5.index t (1 : Fin 2) * 64 + 64; omega

/-- After the launch the result array is the invariant part, taken of the arrays the launch found. -/
theorem arr_eq (c : Dev nD) :
    (dat0 V c).arrAt 5 cfg0.N
      = Cert.Spec.base (V c main_arg0) (V c main_v8) (V c main_v11) (V c main_v12) (V c main_v14) :=
  (dat0 V c).arrAt_eq_of_cover 5 _ (fun t _ => flushed_eq V c t) cover

end Cert.KernelIdeal.Base

end
-- ==== Proof.Step1.lean ====
/-
  Launch 1 of the combine kernel: what its result array holds.

  The launch runs over ten blocks of 10000 rows. At block `t` the body loads rows [10000·t, 10000·t + 10000) of the
  invariant part and of the aggregated neighbours, and the whole 64 × 64 matrix; it stores, at row p' and column q of
  the block, max(base + Σ_k nb(p',k)·B(k,q), 0) — the product's rows are the block's own rows, so entry (p', q) of block
  `t` is entry (10000·t + p', q) of one step of the layer. The ten blocks tile the array.
-/
import proofs.«108278_j89567247991232_1_alg».proof.Proof.Gen.KernelIdeal.Frame
import proofs.«108278_j89567247991232_1_alg».proof.Proof.Spec
import proofs.«108278_j89567247991232_1_alg».proof.Proof.LibMatDot
import Idealize.ShloMosaic.Lib.Pipeline.Value
import Idealize.ShloMosaic.Lib.ValueIdx
import Idealize.ShloMosaic.PureOps.Ideal.Laws

set_option maxRecDepth 16384

noncomputable section

namespace Cert.KernelIdeal.Step1

open Cert.KernelIdeal Cert.KernelIdeal.Gen
open Idealize.ShloMosaic Idealize.ShloMosaic.TcCoe Idealize.ShloMosaic.ValueIdx Idealize.SL.Sem
open scoped BigOperators

theorem zero_off : (![0, 0] : Fin 2 → Nat) = fun _ => 0 := funext fun a => by fin_cases a <;> rfl

/-- The body's arithmetic at row `y 0`, column `y 1` of a block: the invariant part's entry plus the block's row of
    neighbours against the matrix's column, clipped below at zero (a change of float format is the identity on the
    extended reals, and the product is taken into the zero accumulator). -/
theorem payload_apply (nb : Vec Ideal S10000x64 .f32) (w : Vec Ideal S64x64 .f32) (bs : Vec Ideal S10000x64 .f32)
    (p : Fin 10000) (q : Fin 64) :
    k1_pay1 (F := Ideal) nb w bs (ix2 p q)
      = max (bs (ix2 p q) + ∑ k : Fin 64, nb (ix2 p k) * w (ix2 k q)) Cert.Spec.zeroE := by
  unfold k1_pay1
  simp only [shapeCast_self]
  show max (bs (ix2 p q) + FloatOps.matmul (F := Ideal) (Cert.Lib.matDot Cert.KernelIdeal.Gen.dot_S10000x64_S64x64_S10000x64_1_0_0_1_n_n_wf) none
      (truncf (F := Ideal) .bf16 (φ := .f32) nb bitsLt_bf16_f32) (truncf (F := Ideal) .bf16 (φ := .f32) w bitsLt_bf16_f32) (constant (F := Ideal) ⟨2, ![10000, 64]⟩ .f32 0x00000000#32) (ix2 p q))
    Cert.Spec.zeroE = _
  rw [Cert.Lib.matmul_plain_zero_apply]
  rfl

/-- The same at any index of the block. -/
theorem payload_at (nb : Vec Ideal S10000x64 .f32) (w : Vec Ideal S64x64 .f32) (bs : Vec Ideal S10000x64 .f32)
    (y : S10000x64.Idx) :
    k1_pay1 (F := Ideal) nb w bs y
      = max (bs y + ∑ k : Fin 64, nb (ix2 (y 0) k) * w (ix2 k (y 1))) Cert.Spec.zeroE := by
  obtain ⟨p, q, rfl⟩ : ∃ (p : Fin 10000) (q : Fin 64), y = ix2 p q := ⟨y 0, y 1, eq_ix2 y⟩
  exact payload_apply nb w bs p q

/-- The printed index maps over the ten points: the two row-blocked inputs sit at the output's row block, every column
    block is the first, and the matrix's one block is the whole matrix. -/
theorem idx_facts : ∀ t : Fin cfg1.N,
    win1_0.index t (0 : Fin 2) = win1_3.index t (0 : Fin 2) ∧ win1_0.index t (1 : Fin 2) = 0
    ∧ win1_1.index t (0 : Fin 2) = win1_3.index t (0 : Fin 2) ∧ win1_1.index t (1 : Fin 2) = 0
    ∧ win1_2.index t (0 : Fin 2) = 0 ∧ win1_2.index t (1 : Fin 2) = 0
    ∧ win1_3.index t (1 : Fin 2) = 0 ∧ win1_3.index t (0 : Fin 2) ≤ 9 :=
  (by decide +kernel : ∀ t : Fin grid1.N, _)

/-- Every row block is some point's. -/
theorem idx_onto : ∀ q0 : Fin 10, ∃ t : Fin cfg1.N, win1_3.index t = ![q0.val, 0] :=
  (by decide +kernel : ∀ q0 : Fin 10, ∃ t : Fin grid1.N, win1_3.index t = ![q0.val, 0])

set_option maxHeartbeats 2000000 in
/-- Block `t` of the launch, computed from blocks `t` of three arrays `B`, `N`, `W`, is block `t` of one step of the
    layer taken of the whole arrays. -/
theorem block_eq (B N : S100000x64.Idx → EReal) (W : S64x64.Idx → EReal) (t : Fin cfg1.N) :
    (cfg1.win 3).cut (grid1.coords t)
        (out1_3 (F := Ideal) (((cfg1.win 0).blk t).view.read (Elt Ideal) B) (((cfg1.win 1).blk t).view.read (Elt Ideal) N)
          (((cfg1.win 2).blk t).view.read (Elt Ideal) W))
      = ((cfg1.win 3).blk t).view.read (Elt Ideal) (Cert.Spec.combine B N W) := by
  unfold out1_3
  rw [View.canon_unit_zero zero_off]
  simp only [View.ld_unit_zero (S := S10000x64) zero_off, View.ld_unit_zero (S := S64x64) zero_off]
  obtain ⟨e0, e1, e2, e3, e4, e5, e6, e7⟩ := idx_facts t
  funext j
  refine (payload_at _ _ _ j).trans ?_
  show max (B (((cfg1.win 0).blk t).view.emb j)
        + ∑ k : Fin 64, N (((cfg1.win 1).blk t).view.emb (ix2 (j 0) k))
            * W (((cfg1.win 2).blk t).view.emb (ix2 k (j 1)))) Cert.Spec.zeroE
      = max (B (ix2 ((((cfg1.win 3).blk t).view.emb j) 0) ((((cfg1.win 3).blk t).view.emb j) 1))
        + ∑ k : Fin 64, N (ix2 ((((cfg1.win 3).blk t).view.emb j) 0) k)
            * W (ix2 k ((((cfg1.win 3).blk t).view.emb j) 1))) Cert.Spec.zeroE
  have h0 : ((cfg1.win 0).blk t).view.emb j
      = ix2 ((((cfg1.win 3).blk t).view.emb j) 0) ((((cfg1.win 3).blk t).view.emb j) 1) := by
    funext a; apply Fin.ext
    match a with
    | ⟨0, _⟩ => show win1_0.index t (0 : Fin 2) * 10000 + 1 * (j 0).val = win1_3.index t (0 : Fin 2) * 10000 + 1 * (j 0).val; omega
    | ⟨1, _⟩ => show win1_0.index t (1 : Fin 2) * 64 + 1 * (j 1).val = win1_3.index t (1 : Fin 2) * 64 + 1 * (j 1).val; omega
  have h1 : ∀ k : Fin 64, ((cfg1.win 1).blk t).view.emb (ix2 (j 0) k) = ix2 ((((cfg1.win 3).blk t).view.emb j) 0) k := by
    intro k; funext a; apply Fin.ext
    match a with
    | ⟨0, _⟩ => show win1_1.index t (0 : Fin 2) * 10000 + 1 * (j 0).val = win1_3.index t (0 : Fin 2) * 10000 + 1 * (j 0).val; omega
    | ⟨1, _⟩ => show win1_1.index t (1 : Fin 2) * 64 + 1 * k.val = k.val; omega
  have h2 : ∀ k : Fin 64, ((cfg1.win 2).blk t).view.emb (ix2 k (j 1)) = ix2 k ((((cfg1.win 3).blk t).view.emb j) 1) := by
    intro k; funext a; apply Fin.ext
    match a with
    | ⟨0, _⟩ => show win1_2.index t (0 : Fin 2) * 64 + 1 * k.val = k.val; omega
    | ⟨1, _⟩ => show win1_2.index t (1 : Fin 2) * 64 + 1 * (j 1).val = win1_3.index t (1 : Fin 2) * 64 + 1 * (j 1).val; omega
  rw [h0]
  exact congrArg (fun s => max (_ + s) Cert.Spec.zeroE) (Finset.sum_congr rfl fun k _ => congrArg₂ (· * ·) (congrArg N (h1 k)) (congrArg W (h2 k)))

variable (V : (c : Dev nD) → (b : Ref sig .tc) → Buf (Elt Ideal) ((c : Thread nD τ).loc b))

/-- What point `t` writes back is block `t` of one step of the layer, taken of the arrays the launch finds. -/
theorem flushed_eq (c : Dev nD) (t : Fin cfg1.N) :
    (dat1 V c).flushed 3 t = ((cfg1.win 3).blk t).view.read (Elt Ideal)
      (Cert.Spec.combine (V c main_v15) (V c main_v26) (V c main_v13)) := by
  show (cfg1.win 3).cut (grid1.coords t) ((dat1 V c).after 3 t) = _
  rw [after1_3]
  exact block_eq (V c main_v15) (V c main_v26) (V c main_v13) t

/-- An index of the array is in point `t`'s block iff each coordinate is in the block's range on its axis. -/
theorem mem_blk (t : Fin cfg1.N) (i : S100000x64.Idx) :
    i ∈ ((cfg1.win 3).blk t).view.set ↔ ∀ a : Fin 2, win1_3.index t a * S10000x64.size a ≤ (i a).val ∧ (i a).val < win1_3.index t a * S10000x64.size a + S10000x64.size a := by
  show i ∈ ((View.whole main_v27).slice (win1_3.rect t)).set ↔ _
  rw [View.set_slice_whole, Rect.mem_set_unit]
  exact Iff.rfl

/-- The ten blocks tile the array: row r is in block r / 10000. -/
theorem cover (i : S100000x64.Idx) :
    ∃ t : Fin cfg1.N, (cfg1.win 3).flush t = true ∧ i ∈ ((cfg1.win 3).blk t).view.set := by
  have hi0 : (i 0).val < 100000 := (i 0).isLt
  have hi1 : (i 1).val < 64 := (i 1).isLt
  obtain ⟨t, ht⟩ := idx_onto ⟨(i 0).val / 10000, by omega⟩
  have q0 : win1_3.index t (0 : Fin 2) = (i 0).val / 10000 := congrFun ht 0
  have q1 : win1_3.index t (1 : Fin 2) = 0 := congrFun ht 1
  refine ⟨t, flush1_3 t, ?_⟩
  rw [mem_blk]
  intro a
  match a with
  | ⟨0, _⟩ => show win1_3.index t (0 : Fin 2) * 10000 ≤ (i 0).val ∧ (i 0).val < win1_3.index t (0 : Fin 2) * 10000 + 10000; omega
  | ⟨1, _⟩ => show win1_3.index t (1 : Fin 2) * 64 ≤ (i 1).val ∧ (i 1).val < win1_3.index t (1 : Fin 2) * 64 + 64; omega

/-- After the launch the result array is one step of the layer, taken of the arrays the launch found. -/
theorem arr_eq (c : Dev nD) :
    (dat1 V c).arrAt 3 cfg1.N = Cert.Spec.combine (V c main_v15) (V c main_v26) (V c main_v13) :=
  (dat1 V c).arrAt_eq_of_cover 3 _ (fun t _ => flushed_eq V c t) cover

end Cert.KernelIdeal.Step1

end
-- ==== Proof.Step2.lean ====
/-
  Launch 2 of the combine kernel: what its result array holds.

  The launch runs over ten blocks of 10000 rows. At block `t` the body loads rows [10000·t, 10000·t + 10000) of the
  invariant part and of the aggregated neighbours, and the whole 64 × 64 matrix; it stores, at row p' and column q of
  the block, max(base + Σ_k nb(p',k)·B(k,q), 0) — the product's rows are the block's own rows, so entry (p', q) of block
  `t` is entry (10000·t + p', q) of one step of the layer. The ten blocks tile the array.
-/
import proofs.«108278_j89567247991232_1_alg».proof.Proof.Gen.KernelIdeal.Frame
import proofs.«108278_j89567247991232_1_alg».proof.Proof.Spec
import proofs.«108278_j89567247991232_1_alg».proof.Proof.LibMatDot
import Idealize.ShloMosaic.Lib.Pipeline.Value
import Idealize.ShloMosaic.Lib.ValueIdx
import Idealize.ShloMosaic.PureOps.Ideal.Laws

set_option maxRecDepth 16384

noncomputable section

namespace Cert.KernelIdeal.Step2

open Cert.KernelIdeal Cert.KernelIdeal.Gen
open Idealize.ShloMosaic Idealize.ShloMosaic.TcCoe Idealize.ShloMosaic.ValueIdx Idealize.SL.Sem
open scoped BigOperators

theorem zero_off : (![0, 0] : Fin 2 → Nat) = fun _ => 0 := funext fun a => by fin_cases a <;> rfl

/-- The body's arithmetic at row `y 0`, column `y 1` of a block: the invariant part's entry plus the block's row of
    neighbours against the matrix's column, clipped below at zero (a change of float format is the identity on the
    extended reals, and the product is taken into the zero accumulator). -/
theorem payload_apply (nb : Vec Ideal S10000x64 .f32) (w : Vec Ideal S64x64 .f32) (bs : Vec Ideal S10000x64 .f32)
    (p : Fin 10000) (q : Fin 64) :
    k2_pay1 (F := Ideal) nb w bs (ix2 p q)
      = max (bs (ix2 p q) + ∑ k : Fin 64, nb (ix2 p k) * w (ix2 k q)) Cert.Spec.zeroE := by
  unfold k2_pay1
  simp only [shapeCast_self]
  show max (bs (ix2 p q) + FloatOps.matmul (F := Ideal) (Cert.Lib.matDot Cert.KernelIdeal.Gen.dot_S10000x64_S64x64_S10000x64_1_0_0_1_n_n_wf) none
      (truncf (F := Ideal) .bf16 (φ := .f32) nb bitsLt_bf16_f32) (truncf (F := Ideal) .bf16 (φ := .f32) w bitsLt_bf16_f32) (constant (F := Ideal) ⟨2, ![10000, 64]⟩ .f32 0x00000000#32) (ix2 p q))
    Cert.Spec.zeroE = _
  rw [Cert.Lib.matmul_plain_zero_apply]
  rfl

/-- The same at any index of the block. -/
theorem payload_at (nb : Vec Ideal S10000x64 .f32) (w : Vec Ideal S64x64 .f32) (bs : Vec Ideal S10000x64 .f32)
    (y : S10000x64.Idx) :
    k2_pay1 (F := Ideal) nb w bs y
      = max (bs y + ∑ k : Fin 64, nb (ix2 (y 0) k) * w (ix2 k (y 1))) Cert.Spec.zeroE := by
  obtain ⟨p, q, rfl⟩ : ∃ (p : Fin 10000) (q : Fin 64), y = ix2 p q := ⟨y 0, y 1, eq_ix2 y⟩
  exact payload_apply nb w bs p q

/-- The printed index maps over the ten points: the two row-blocked inputs sit at the output's row block, every column
    block is the first, and the matrix's one block is the whole matrix. -/
theorem idx_facts : ∀ t : Fin cfg2.N,
    win2_0.index t (0 : Fin 2) = win2_3.index t (0 : Fin 2) ∧ win2_0.index t (1 : Fin 2) = 0
    ∧ win2_1.index t (0 : Fin 2) = win2_3.index t (0 : Fin 2) ∧ win2_1.index t (1 : Fin 2) = 0
    ∧ win2_2.index t (0 : Fin 2) = 0 ∧ win2_2.index t (1 : Fin 2) = 0
    ∧ win2_3.index t (1 : Fin 2) = 0 ∧ win2_3.index t (0 : Fin 2) ≤ 9 :=
  (by decide +kernel : ∀ t : Fin grid2.N, _)

/-- Every row block is some point's. -/
theorem idx_onto : ∀ q0 : Fin 10, ∃ t : Fin cfg2.N, win2_3.index t = ![q0.val, 0] :=
  (by decide +kernel : ∀ q0 : Fin 10, ∃ t : Fin grid2.N, win2_3.index t = ![q0.val, 0])

set_option maxHeartbeats 2000000 in
/-- Block `t` of the launch, computed from blocks `t` of three arrays `B`, `N`, `W`, is block `t` of one step of the
    layer taken of the whole arrays. -/
theorem block_eq (B N : S100000x64.Idx → EReal) (W : S64x64.Idx → EReal) (t : Fin cfg2.N) :
    (cfg2.win 3).cut (grid2.coords t)
        (out2_3 (F := Ideal) (((cfg2.win 0).blk t).view.read (Elt Ideal) B) (((cfg2.win 1).blk t).view.read (Elt Ideal) N)
          (((cfg2.win 2).blk t).view.read (Elt Ideal) W))
      = ((cfg2.win 3).blk t).view.read (Elt Ideal) (Cert.Spec.combine B N W) := by
  unfold out2_3
  rw [View.canon_unit_zero zero_off]
  simp only [View.ld_unit_zero (S := S10000x64) zero_off, View.ld_unit_zero (S := S64x64) zero_off]
  obtain ⟨e0, e1, e2, e3, e4, e5, e6, e7⟩ := idx_facts t
  funext j
  refine (payload_at _ _ _ j).trans ?_
  show max (B (((cfg2.win 0).blk t).view.emb j)
        + ∑ k : Fin 64, N (((cfg2.win 1).blk t).view.emb (ix2 (j 0) k))
            * W (((cfg2.win 2).blk t).view.emb (ix2 k (j 1)))) Cert.Spec.zeroE
      = max (B (ix2 ((((cfg2.win 3).blk t).view.emb j) 0) ((((cfg2.win 3).blk t).view.emb j) 1))
        + ∑ k : Fin 64, N (ix2 ((((cfg2.win 3).blk t).view.emb j) 0) k)
            * W (ix2 k ((((cfg2.win 3).blk t).view.emb j) 1))) Cert.Spec.zeroE
  have h0 : ((cfg2.win 0).blk t).view.emb j
      = ix2 ((((cfg2.win 3).blk t).view.emb j) 0) ((((cfg2.win 3).blk t).view.emb j) 1) := by
    funext a; apply Fin.ext
    match a with
    | ⟨0, _⟩ => show win2_0.index t (0 : Fin 2) * 10000 + 1 * (j 0).val = win2_3.index t (0 : Fin 2) * 10000 + 1 * (j 0).val; omega
    | ⟨1, _⟩ => show win2_0.index t (1 : Fin 2) * 64 + 1 * (j 1).val = win2_3.index t (1 : Fin 2) * 64 + 1 * (j 1).val; omega
  have h1 : ∀ k : Fin 64, ((cfg2.win 1).blk t).view.emb (ix2 (j 0) k) = ix2 ((((cfg2.win 3).blk t).view.emb j) 0) k := by
    intro k; funext a; apply Fin.ext
    match a with
    | ⟨0, _⟩ => show win2_1.index t (0 : Fin 2) * 10000 + 1 * (j 0).val = win2_3.index t (0 : Fin 2) * 10000 + 1 * (j 0).val; omega
    | ⟨1, _⟩ => show win2_1.index t (1 : Fin 2) * 64 + 1 * k.val = k.val; omega
  have h2 : ∀ k : Fin 64, ((cfg2.win 2).blk t).view.emb (ix2 k (j 1)) = ix2 k ((((cfg2.win 3).blk t).view.emb j) 1) := by
    intro k; funext a; apply Fin.ext
    match a with
    | ⟨0, _⟩ => show win2_2.index t (0 : Fin 2) * 64 + 1 * k.val = k.val; omega
    | ⟨1, _⟩ => show win2_2.index t (1 : Fin 2) * 64 + 1 * (j 1).val = win2_3.index t (1 : Fin 2) * 64 + 1 * (j 1).val; omega
  rw [h0]
  exact congrArg (fun s => max (_ + s) Cert.Spec.zeroE) (Finset.sum_congr rfl fun k _ => congrArg₂ (· * ·) (congrArg N (h1 k)) (congrArg W (h2 k)))

variable (V : (c : Dev nD) → (b : Ref sig .tc) → Buf (Elt Ideal) ((c : Thread nD τ).loc b))

/-- What point `t` writes back is block `t` of one step of the layer, taken of the arrays the launch finds. -/
theorem flushed_eq (c : Dev nD) (t : Fin cfg2.N) :
    (dat2 V c).flushed 3 t = ((cfg2.win 3).blk t).view.read (Elt Ideal)
      (Cert.Spec.combine (V c main_v15) (V c main_v37) (V c main_v13)) := by
  show (cfg2.win 3).cut (grid2.coords t) ((dat2 V c).after 3 t) = _
  rw [after2_3]
  exact block_eq (V c main_v15) (V c main_v37) (V c main_v13) t

/-- An index of the array is in point `t`'s block iff each coordinate is in the block's range on its axis. -/
theorem mem_blk (t : Fin cfg2.N) (i : S100000x64.Idx) :
    i ∈ ((cfg2.win 3).blk t).view.set ↔ ∀ a : Fin 2, win2_3.index t a * S10000x64.size a ≤ (i a).val ∧ (i a).val < win2_3.index t a * S10000x64.size a + S10000x64.size a := by
  show i ∈ ((View.whole main_v38).slice (win2_3.rect t)).set ↔ _
  rw [View.set_slice_whole, Rect.mem_set_unit]
  exact Iff.rfl

/-- The ten blocks tile the array: row r is in block r / 10000. -/
theorem cover (i : S100000x64.Idx) :
    ∃ t : Fin cfg2.N, (cfg2.win 3).flush t = true ∧ i ∈ ((cfg2.win 3).blk t).view.set := by
  have hi0 : (i 0).val < 100000 := (i 0).isLt
  have hi1 : (i 1).val < 64 := (i 1).isLt
  obtain ⟨t, ht⟩ := idx_onto ⟨(i 0).val / 10000, by omega⟩
  have q0 : win2_3.index t (0 : Fin 2) = (i 0).val / 10000 := congrFun ht 0
  have q1 : win2_3.index t (1 : Fin 2) = 0 := congrFun ht 1
  refine ⟨t, flush2_3 t, ?_⟩
  rw [mem_blk]
  intro a
  match a with
  | ⟨0, _⟩ => show win2_3.index t (0 : Fin 2) * 10000 ≤ (i 0).val ∧ (i 0).val < win2_3.index t (0 : Fin 2) * 10000 + 10000; omega
  | ⟨1, _⟩ => show win2_3.index t (1 : Fin 2) * 64 ≤ (i 1).val ∧ (i 1).val < win2_3.index t (1 : Fin 2) * 64 + 64; omega

/-- After the launch the result array is one step of the layer, taken of the arrays the launch found. -/
theorem arr_eq (c : Dev nD) :
    (dat2 V c).arrAt 3 cfg2.N = Cert.Spec.combine (V c main_v15) (V c main_v37) (V c main_v13) :=
  (dat2 V c).arrAt_eq_of_cover 3 _ (fun t _ => flushed_eq V c t) cover

end Cert.KernelIdeal.Step2

end
-- ==== Proof.Step3.lean ====
/-
  Launch 3 of the combine kernel: what its result array holds.

  The launch runs over ten blocks of 10000 rows. At block `t` the body loads rows [10000·t, 10000·t + 10000) of the
  invariant part and of the aggregated neighbours, and the whole 64 × 64 matrix; it stores, at row p' and column q of
  the block, max(base + Σ_k nb(p',k)·B(k,q), 0) — the product's rows are the block's own rows, so entry (p', q) of block
  `t` is entry (10000·t + p', q) of one step of the layer. The ten blocks tile the array.
-/
import proofs.«108278_j89567247991232_1_alg».proof.Proof.Gen.KernelIdeal.Frame
import proofs.«108278_j89567247991232_1_alg».proof.Proof.Spec
import proofs.«108278_j89567247991232_1_alg».proof.Proof.LibMatDot
import Idealize.ShloMosaic.Lib.Pipeline.Value
import Idealize.ShloMosaic.Lib.ValueIdx
import Idealize.ShloMosaic.PureOps.Ideal.Laws

set_option maxRecDepth 16384

noncomputable section

namespace Cert.KernelIdeal.Step3

open Cert.KernelIdeal Cert.KernelIdeal.Gen
open Idealize.ShloMosaic Idealize.ShloMosaic.TcCoe Idealize.ShloMosaic.ValueIdx Idealize.SL.Sem
open scoped BigOperators

theorem zero_off : (![0, 0] : Fin 2 → Nat) = fun _ => 0 := funext fun a => by fin_cases a <;> rfl

/-- The body's arithmetic at row `y 0`, column `y 1` of a block: the invariant part's entry plus the block's row of
    neighbours against the matrix's column, clipped below at zero (a change of float format is the identity on the
    extended reals, and the product is taken into the zero accumulator). -/
theorem payload_apply (nb : Vec Ideal S10000x64 .f32) (w : Vec Ideal S64x64 .f32) (bs : Vec Ideal S10000x64 .f32)
    (p : Fin 10000) (q : Fin 64) :
    k3_pay1 (F := Ideal) nb w bs (ix2 p q)
      = max (bs (ix2 p q) + ∑ k : Fin 64, nb (ix2 p k) * w (ix2 k q)) Cert.Spec.zeroE := by
  unfold k3_pay1
  simp only [shapeCast_self]
  show max (bs (ix2 p q) + FloatOps.matmul (F := Ideal) (Cert.Lib.matDot Cert.KernelIdeal.Gen.dot_S10000x64_S64x64_S10000x64_1_0_0_1_n_n_wf) none
      (truncf (F := Ideal) .bf16 (φ := .f32) nb bitsLt_bf16_f32) (truncf (F := Ideal) .bf16 (φ := .f32) w bitsLt_bf16_f32) (constant (F := Ideal) ⟨2, ![10000, 64]⟩ .f32 0x00000000#32) (ix2 p q))
    Cert.Spec.zeroE = _
  rw [Cert.Lib.matmul_plain_zero_apply]
  rfl

/-- The same at any index of the block. -/
theorem payload_at (nb : Vec Ideal S10000x64 .f32) (w : Vec Ideal S64x64 .f32) (bs : Vec Ideal S10000x64 .f32)
    (y : S10000x64.Idx) :
    k3_pay1 (F := Ideal) nb w bs y
      = max (bs y + ∑ k : Fin 64, nb (ix2 (y 0) k) * w (ix2 k (y 1))) Cert.Spec.zeroE := by
  obtain ⟨p, q, rfl⟩ : ∃ (p : Fin 10000) (q : Fin 64), y = ix2 p q := ⟨y 0, y 1, eq_ix2 y⟩
  exact payload_apply nb w bs p q

/-- The printed index maps over the ten points: the two row-blocked inputs sit at the output's row block, every column
    block is the first, and the matrix's one block is the whole matrix. -/
theorem idx_facts : ∀ t : Fin cfg3.N,
    win3_0.index t (0 : Fin 2) = win3_3.index t (0 : Fin 2) ∧ win3_0.index t (1 : Fin 2) = 0
    ∧ win3_1.index t (0 : Fin 2) = win3_3.index t (0 : Fin 2) ∧ win3_1.index t (1 : Fin 2) = 0
    ∧ win3_2.index t (0 : Fin 2) = 0 ∧ win3_2.index t (1 : Fin 2) = 0
    ∧ win3_3.index t (1 : Fin 2) = 0 ∧ win3_3.index t (0 : Fin 2) ≤ 9 :=
  (by decide +kernel : ∀ t : Fin grid3.N, _)

/-- Every row block is some point's. -/
theorem idx_onto : ∀ q0 : Fin 10, ∃ t : Fin cfg3.N, win3_3.index t = ![q0.val, 0] :=
  (by decide +kernel : ∀ q0 : Fin 10, ∃ t : Fin grid3.N, win3_3.index t = ![q0.val, 0])

set_option maxHeartbeats 2000000 in
/-- Block `t` of the launch, computed from blocks `t` of three arrays `B`, `N`, `W`, is block `t` of one step of the
    layer taken of the whole arrays. -/
theorem block_eq (B N : S100000x64.Idx → EReal) (W : S64x64.Idx → EReal) (t : Fin cfg3.N) :
    (cfg3.win 3).cut (grid3.coords t)
        (out3_3 (F := Ideal) (((cfg3.win 0).blk t).view.read (Elt Ideal) B) (((cfg3.win 1).blk t).view.read (Elt Ideal) N)
          (((cfg3.win 2).blk t).view.read (Elt Ideal) W))
      = ((cfg3.win 3).blk t).view.read (Elt Ideal) (Cert.Spec.combine B N W) := by
  unfold out3_3
  rw [View.canon_unit_zero zero_off]
  simp only [View.ld_unit_zero (S := S10000x64) zero_off, View.ld_unit_zero (S := S64x64) zero_off]
  obtain ⟨e0, e1, e2, e3, e4, e5, e6, e7⟩ := idx_facts t
  funext j
  refine (payload_at _ _ _ j).trans ?_
  show max (B (((cfg3.win 0).blk t).view.emb j)
        + ∑ k : Fin 64, N (((cfg3.win 1).blk t).view.emb (ix2 (j 0) k))
            * W (((cfg3.win 2).blk t).view.emb (ix2 k (j 1)))) Cert.Spec.zeroE
      = max (B (ix2 ((((cfg3.win 3).blk t).view.emb j) 0) ((((cfg3.win 3).blk t).view.emb j) 1))
        + ∑ k : Fin 64, N (ix2 ((((cfg3.win 3).blk t).view.emb j) 0) k)
            * W (ix2 k ((((cfg3.win 3).blk t).view.emb j) 1))) Cert.Spec.zeroE
  have h0 : ((cfg3.win 0).blk t).view.emb j
      = ix2 ((((cfg3.win 3).blk t).view.emb j) 0) ((((cfg3.win 3).blk t).view.emb j) 1) := by
    funext a; apply Fin.ext
    match a with
    | ⟨0, _⟩ => show win3_0.index t (0 : Fin 2) * 10000 + 1 * (j 0).val = win3_3.index t (0 : Fin 2) * 10000 + 1 * (j 0).val; omega
    | ⟨1, _⟩ => show win3_0.index t (1 : Fin 2) * 64 + 1 * (j 1).val = win3_3.index t (1 : Fin 2) * 64 + 1 * (j 1).val; omega
  have h1 : ∀ k : Fin 64, ((cfg3.win 1).blk t).view.emb (ix2 (j 0) k) = ix2 ((((cfg3.win 3).blk t).view.emb j) 0) k := by
    intro k; funext a; apply Fin.ext
    match a with
    | ⟨0, _⟩ => show win3_1.index t (0 : Fin 2) * 10000 + 1 * (j 0).val = win3_3.index t (0 : Fin 2) * 10000 + 1 * (j 0).val; omega
    | ⟨1, _⟩ => show win3_1.index t (1 : Fin 2) * 64 + 1 * k.val = k.val; omega
  have h2 : ∀ k : Fin 64, ((cfg3.win 2).blk t).view.emb (ix2 k (j 1)) = ix2 k ((((cfg3.win 3).blk t).view.emb j) 1) := by
    intro k; funext a; apply Fin.ext
    match a with
    | ⟨0, _⟩ => show win3_2.index t (0 : Fin 2) * 64 + 1 * k.val = k.val; omega
    | ⟨1, _⟩ => show win3_2.index t (1 : Fin 2) * 64 + 1 * (j 1).val = win3_3.index t (1 : Fin 2) * 64 + 1 * (j 1).val; omega
  rw [h0]
  exact congrArg (fun s => max (_ + s) Cert.Spec.zeroE) (Finset.sum_congr rfl fun k _ => congrArg₂ (· * ·) (congrArg N (h1 k)) (congrArg W (h2 k)))

variable (V : (c : Dev nD) → (b : Ref sig .tc) → Buf (Elt Ideal) ((c : Thread nD τ).loc b))

/-- What point `t` writes back is block `t` of one step of the layer, taken of the arrays the launch finds. -/
theorem flushed_eq (c : Dev nD) (t : Fin cfg3.N) :
    (dat3 V c).flushed 3 t = ((cfg3.win 3).blk t).view.read (Elt Ideal)
      (Cert.Spec.combine (V c main_v15) (V c main_v48) (V c main_v13)) := by
  show (cfg3.win 3).cut (grid3.coords t) ((dat3 V c).after 3 t) = _
  rw [after3_3]
  exact block_eq (V c main_v15) (V c main_v48) (V c main_v13) t

/-- An index of the array is in point `t`'s block iff each coordinate is in the block's range on its axis. -/
theorem mem_blk (t : Fin cfg3.N) (i : S100000x64.Idx) :
    i ∈ ((cfg3.win 3).blk t).view.set ↔ ∀ a : Fin 2, win3_3.index t a * S10000x64.size a ≤ (i a).val ∧ (i a).val < win3_3.index t a * S10000x64.size a + S10000x64.size a := by
  show i ∈ ((View.whole main_v49).slice (win3_3.rect t)).set ↔ _
  rw [View.set_slice_whole, Rect.mem_set_unit]
  exact Iff.rfl

/-- The ten blocks tile the array: row r is in block r / 10000. -/
theorem cover (i : S100000x64.Idx) :
    ∃ t : Fin cfg3.N, (cfg3.win 3).flush t = true ∧ i ∈ ((cfg3.win 3).blk t).view.set := by
  have hi0 : (i 0).val < 100000 := (i 0).isLt
  have hi1 : (i 1).val < 64 := (i 1).isLt
  obtain ⟨t, ht⟩ := idx_onto ⟨(i 0).val / 10000, by omega⟩
  have q0 : win3_3.index t (0 : Fin 2) = (i 0).val / 10000 := congrFun ht 0
  have q1 : win3_3.index t (1 : Fin 2) = 0 := congrFun ht 1
  refine ⟨t, flush3_3 t, ?_⟩
  rw [mem_blk]
  intro a
  match a with
  | ⟨0, _⟩ => show win3_3.index t (0 : Fin 2) * 10000 ≤ (i 0).val ∧ (i 0).val < win3_3.index t (0 : Fin 2) * 10000 + 10000; omega
  | ⟨1, _⟩ => show win3_3.index t (1 : Fin 2) * 64 ≤ (i 1).val ∧ (i 1).val < win3_3.index t (1 : Fin 2) * 64 + 64; omega

/-- After the launch the result array is one step of the layer, taken of the arrays the launch found. -/
theorem arr_eq (c : Dev nD) :
    (dat3 V c).arrAt 3 cfg3.N = Cert.Spec.combine (V c main_v15) (V c main_v48) (V c main_v13) :=
  (dat3 V c).arrAt_eq_of_cover 3 _ (fun t _ => flushed_eq V c t) cover

end Cert.KernelIdeal.Step3

end
-- ==== Proof.Step4.lean ====
/-
  Launch 4 of the combine kernel: what its result array holds.

  The launch runs over ten blocks of 10000 rows. At block `t` the body loads rows [10000·t, 10000·t + 10000) of the
  invariant part and of the aggregated neighbours, and the whole 64 × 64 matrix; it stores, at row p' and column q of
  the block, max(base + Σ_k nb(p',k)·B(k,q), 0) — the product's rows are the block's own rows, so entry (p', q) of block
  `t` is entry (10000·t + p', q) of one step of the layer. The ten blocks tile the array.
-/
import proofs.«108278_j89567247991232_1_alg».proof.Proof.Gen.KernelIdeal.Frame
import proofs.«108278_j89567247991232_1_alg».proof.Proof.Spec
import proofs.«108278_j89567247991232_1_alg».proof.Proof.LibMatDot
import Idealize.ShloMosaic.Lib.Pipeline.Value
import Idealize.ShloMosaic.Lib.ValueIdx
import Idealize.ShloMosaic.PureOps.Ideal.Laws

set_option maxRecDepth 16384

noncomputable section

namespace Cert.KernelIdeal.Step4

open Cert.KernelIdeal Cert.KernelIdeal.Gen
open Idealize.ShloMosaic Idealize.ShloMosaic.TcCoe Idealize.ShloMosaic.ValueIdx Idealize.SL.Sem
open scoped BigOperators

theorem zero_off : (![0, 0] : Fin 2 → Nat) = fun _ => 0 := funext fun a => by fin_cases a <;> rfl

/-- The body's arithmetic at row `y 0`, column `y 1` of a block: the invariant part's entry plus the block's row of
    neighbours against the matrix's column, clipped below at zero (a change of float format is the identity on the
    extended reals, and the product is taken into the zero accumulator). -/
theorem payload_apply (nb : Vec Ideal S10000x64 .f32) (w : Vec Ideal S64x64 .f32) (bs : Vec Ideal S10000x64 .f32)
    (p : Fin 10000) (q : Fin 64) :
    k4_pay1 (F := Ideal) nb w bs (ix2 p q)
      = max (bs (ix2 p q) + ∑ k : Fin 64, nb (ix2 p k) * w (ix2 k q)) Cert.Spec.zeroE := by
  unfold k4_pay1
  simp only [shapeCast_self]
  show max (bs (ix2 p q) + FloatOps.matmul (F := Ideal) (Cert.Lib.matDot Cert.KernelIdeal.Gen.dot_S10000x64_S64x64_S10000x64_1_0_0_1_n_n_wf) none
      (truncf (F := Ideal) .bf16 (φ := .f32) nb bitsLt_bf16_f32) (truncf (F := Ideal) .bf16 (φ := .f32) w bitsLt_bf16_f32) (constant (F := Ideal) ⟨2, ![10000, 64]⟩ .f32 0x00000000#32) (ix2 p q))
    Cert.Spec.zeroE = _
  rw [Cert.Lib.matmul_plain_zero_apply]
  rfl

/-- The same at any index of the block. -/
theorem payload_at (nb : Vec Ideal S10000x64 .f32) (w : Vec Ideal S64x64 .f32) (bs : Vec Ideal S10000x64 .f32)
    (y : S10000x64.Idx) :
    k4_pay1 (F := Ideal) nb w bs y
      = max (bs y + ∑ k : Fin 64, nb (ix2 (y 0) k) * w (ix2 k (y 1))) Cert.Spec.zeroE := by
  obtain ⟨p, q, rfl⟩ : ∃ (p : Fin 10000) (q : Fin 64), y = ix2 p q := ⟨y 0, y 1, eq_ix2 y⟩
  exact payload_apply nb w bs p q

/-- The printed index maps over the ten points: the two row-blocked inputs sit at the output's row block, every column
    block is the first, and the matrix's one block is the whole matrix. -/
theorem idx_facts : ∀ t : Fin cfg4.N,
    win4_0.index t (0 : Fin 2) = win4_3.index t (0 : Fin 2) ∧ win4_0.index t (1 : Fin 2) = 0
    ∧ win4_1.index t (0 : Fin 2) = win4_3.index t (0 : Fin 2) ∧ win4_1.index t (1 : Fin 2) = 0
    ∧ win4_2.index t (0 : Fin 2) = 0 ∧ win4_2.index t (1 : Fin 2) = 0
    ∧ win4_3.index t (1 : Fin 2) = 0 ∧ win4_3.index t (0 : Fin 2) ≤ 9 :=
  (by decide +kernel : ∀ t : Fin grid4.N, _)

/-- Every row block is some point's. -/
theorem idx_onto : ∀ q0 : Fin 10, ∃ t : Fin cfg4.N, win4_3.index t = ![q0.val, 0] :=
  (by decide +kernel : ∀ q0 : Fin 10, ∃ t : Fin grid4.N, win4_3.index t = ![q0.val, 0])

set_option maxHeartbeats 2000000 in
/-- Block `t` of the launch, computed from blocks `t` of three arrays `B`, `N`, `W`, is block `t` of one step of the
    layer taken of the whole arrays. -/
theorem block_eq (B N : S100000x64.Idx → EReal) (W : S64x64.Idx → EReal) (t : Fin cfg4.N) :
    (cfg4.win 3).cut (grid4.coords t)
        (out4_3 (F := Ideal) (((cfg4.win 0).blk t).view.read (Elt Ideal) B) (((cfg4.win 1).blk t).view.read (Elt Ideal) N)
          (((cfg4.win 2).blk t).view.read (Elt Ideal) W))
      = ((cfg4.win 3).blk t).view.read (Elt Ideal) (Cert.Spec.combine B N W) := by
  unfold out4_3
  rw [View.canon_unit_zero zero_off]
  simp only [View.ld_unit_zero (S := S10000x64) zero_off, View.ld_unit_zero (S := S64x64) zero_off]
  obtain ⟨e0, e1, e2, e3, e4, e5, e6, e7⟩ := idx_facts t
  funext j
  refine (payload_at _ _ _ j).trans ?_
  show max (B (((cfg4.win 0).blk t).view.emb j)
        + ∑ k : Fin 64, N (((cfg4.win 1).blk t).view.emb (ix2 (j 0) k))
            * W (((cfg4.win 2).blk t).view.emb (ix2 k (j 1)))) Cert.Spec.zeroE
      = max (B (ix2 ((((cfg4.win 3).blk t).view.emb j) 0) ((((cfg4.win 3).blk t).view.emb j) 1))
        + ∑ k : Fin 64, N (ix2 ((((cfg4.win 3).blk t).view.emb j) 0) k)
            * W (ix2 k ((((cfg4.win 3).blk t).view.emb j) 1))) Cert.Spec.zeroE
  have h0 : ((cfg4.win 0).blk t).view.emb j
      = ix2 ((((cfg4.win 3).blk t).view.emb j) 0) ((((cfg4.win 3).blk t).view.emb j) 1) := by
    funext a; apply Fin.ext
    match a with
    | ⟨0, _⟩ => show win4_0.index t (0 : Fin 2) * 10000 + 1 * (j 0).val = win4_3.index t (0 : Fin 2) * 10000 + 1 * (j 0).val; omega
    | ⟨1, _⟩ => show win4_0.index t (1 : Fin 2) * 64 + 1 * (j 1).val = win4_3.index t (1 : Fin 2) * 64 + 1 * (j 1).val; omega
  have h1 : ∀ k : Fin 64, ((cfg4.win 1).blk t).view.emb (ix2 (j 0) k) = ix2 ((((cfg4.win 3).blk t).view.emb j) 0) k := by
    intro k; funext a; apply Fin.ext
    match a with
    | ⟨0, _⟩ => show win4_1.index t (0 : Fin 2) * 10000 + 1 * (j 0).val = win4_3.index t (0 : Fin 2) * 10000 + 1 * (j 0).val; omega
    | ⟨1, _⟩ => show win4_1.index t (1 : Fin 2) * 64 + 1 * k.val = k.val; omega
  have h2 : ∀ k : Fin 64, ((cfg4.win 2).blk t).view.emb (ix2 k (j 1)) = ix2 k ((((cfg4.win 3).blk t).view.emb j) 1) := by
    intro k; funext a; apply Fin.ext
    match a with
    | ⟨0, _⟩ => show win4_2.index t (0 : Fin 2) * 64 + 1 * k.val = k.val; omega
    | ⟨1, _⟩ => show win4_2.index t (1 : Fin 2) * 64 + 1 * (j 1).val = win4_3.index t (1 : Fin 2) * 64 + 1 * (j 1).val; omega
  rw [h0]
  exact congrArg (fun s => max (_ + s) Cert.Spec.zeroE) (Finset.sum_congr rfl fun k _ => congrArg₂ (· * ·) (congrArg N (h1 k)) (congrArg W (h2 k)))

variable (V : (c : Dev nD) → (b : Ref sig .tc) → Buf (Elt Ideal) ((c : Thread nD τ).loc b))

/-- What point `t` writes back is block `t` of one step of the layer, taken of the arrays the launch finds. -/
theorem flushed_eq (c : Dev nD) (t : Fin cfg4.N) :
    (dat4 V c).flushed 3 t = ((cfg4.win 3).blk t).view.read (Elt Ideal)
      (Cert.Spec.combine (V c main_v15) (V c main_v59) (V c main_v13)) := by
  show (cfg4.win 3).cut (grid4.coords t) ((dat4 V c).after 3 t) = _
  rw [after4_3]
  exact block_eq (V c main_v15) (V c main_v59) (V c main_v13) t

/-- An index of the array is in point `t`'s block iff each coordinate is in the block's range on its axis. -/
theorem mem_blk (t : Fin cfg4.N) (i : S100000x64.Idx) :
    i ∈ ((cfg4.win 3).blk t).view.set ↔ ∀ a : Fin 2, win4_3.index t a * S10000x64.size a ≤ (i a).val ∧ (i a).val < win4_3.index t a * S10000x64.size a + S10000x64.size a := by
  show i ∈ ((View.whole main_v60).slice (win4_3.rect t)).set ↔ _
  rw [View.set_slice_whole, Rect.mem_set_unit]
  exact Iff.rfl

/-- The ten blocks tile the array: row r is in block r / 10000. -/
theorem cover (i : S100000x64.Idx) :
    ∃ t : Fin cfg4.N, (cfg4.win 3).flush t = true ∧ i ∈ ((cfg4.win 3).blk t).view.set := by
  have hi0 : (i 0).val < 100000 := (i 0).isLt
  have hi1 : (i 1).val < 64 := (i 1).isLt
  obtain ⟨t, ht⟩ := idx_onto ⟨(i 0).val / 10000, by omega⟩
  have q0 : win4_3.index t (0 : Fin 2) = (i 0).val / 10000 := congrFun ht 0
  have q1 : win4_3.index t (1 : Fin 2) = 0 := congrFun ht 1
  refine ⟨t, flush4_3 t, ?_⟩
  rw [mem_blk]
  intro a
  match a with
  | ⟨0, _⟩ => show win4_3.index t (0 : Fin 2) * 10000 ≤ (i 0).val ∧ (i 0).val < win4_3.index t (0 : Fin 2) * 10000 + 10000; omega
  | ⟨1, _⟩ => show win4_3.index t (1 : Fin 2) * 64 ≤ (i 1).val ∧ (i 1).val < win4_3.index t (1 : Fin 2) * 64 + 64; omega

/-- After the launch the result array is one step of the layer, taken of the arrays the launch found. -/
theorem arr_eq (c : Dev nD) :
    (dat4 V c).arrAt 3 cfg4.N = Cert.Spec.combine (V c main_v15) (V c main_v59) (V c main_v13) :=
  (dat4 V c).arrAt_eq_of_cover 3 _ (fun t _ => flushed_eq V c t) cover

end Cert.KernelIdeal.Step4

end
-- ==== Proof.LibSlabs.lean ====
/-
  Slabs, unit axes and row broadcasts, read at an index.

  Layout operations that stacked arrays meet on both sides of a kernel and its reference. On the host: a one-row array
  broadcast down `R` rows; an array given a new leading unit axis by a broadcast; slab `l` of an array stacked along its first
  axis, cut out by a slice and its unit axis dropped (rank 3 to a matrix, rank 2 to a vector); a matrix given a unit axis
  between its two axes by a reshape. In a kernel: the unit-stride rectangle that is slab `l` of a rank-3 buffer, its own
  index `(0, p, k)` placed at `(l, p, k)`, and a load through it. Each is stated over any element type and over literal
  coordinates, so that it fires on indices built by `ix1`, `ix2`, `ix3`.
-/
import Idealize.ShloMosaic.Lib.ValueIdx
import Idealize.ShloMosaic.Lib.Pipeline.Value
import Idealize.ShloMosaic.Lib.ValueLayout

noncomputable section

namespace Cert.Lib

open Idealize.ShloMosaic Idealize.ShloMosaic.ValueIdx

variable {α : Type}

/-! ## Host broadcasts -/

/-- A one-row array broadcast to `R` rows (axes kept in place) reads, at `(r, n)`, the row's entry `n`. -/
theorem rows_of_oneRow {R N : ℕ} (hb2 : (⟨2, ![1, N]⟩ : Shape).BroadcastsInDim ⟨2, ![R, N]⟩ (![0, 1] : Fin 2 → Fin 2))
    (v : (⟨2, ![1, N]⟩ : Shape).Idx → α) (r : Fin R) (n : Fin N) :
    broadcastInDim ⟨2, ![R, N]⟩ ![0, 1] hb2 v (ix2 r n) = v (ix2 (0 : Fin 1) n) :=
  broadcastInDim_apply _ hb2 v (ix2 r n) (ix2 (0 : Fin 1) n) (fun a => match a with
    | ⟨0, _⟩ => by
      show (0 : ℕ) = if (1 : ℕ) = 1 then 0 else r.val
      rw [if_pos rfl]
    | ⟨1, _⟩ => by
      show n.val = if N = 1 then 0 else n.val
      have h1 : n.val < N := n.isLt
      split
      · omega
      · rfl)

/-- A matrix broadcast under a new leading unit axis reads, at `(0, p, k)`, the matrix's `(p, k)`. -/
theorem addUnit_bcast_at {a b : ℕ} (hb : (⟨2, ![a, b]⟩ : Shape).BroadcastsInDim ⟨3, ![1, a, b]⟩ (![1, 2] : Fin 2 → Fin 3))
    (v : (⟨2, ![a, b]⟩ : Shape).Idx → α) (u : Fin 1) (p : Fin a) (k : Fin b) :
    broadcastInDim ⟨3, ![1, a, b]⟩ ![1, 2] hb v (ix3 u p k) = v (ix2 p k) :=
  broadcastInDim_apply _ hb v (ix3 u p k) (ix2 p k) (fun ax => match ax with
    | ⟨0, _⟩ => by
      show p.val = if a = 1 then 0 else p.val
      have h1 : p.val < a := p.isLt
      split
      · omega
      · rfl
    | ⟨1, _⟩ => by
      show k.val = if b = 1 then 0 else k.val
      have h1 : k.val < b := k.isLt
      split
      · omega
      · rfl)

/-! ## A layer's slab of a stacked host array -/

/-- Slab `l` of an array stacked along its first axis, its unit axis dropped: entry `(p, k)` is the array's `(l, p, k)`. -/
theorem hostSlab3 {n0 a b l : ℕ} (hl : l < n0) (X : (⟨3, ![n0, a, b]⟩ : Shape).Idx → α)
    (hs : (⟨3, ![n0, a, b]⟩ : Shape).Slices ![l, 0, 0] ⟨3, ![1, a, b]⟩)
    (hc : (⟨3, ![1, a, b]⟩ : Shape).ShapeCasts ⟨2, ![a, b]⟩) (p : Fin a) (k : Fin b) :
    shapeCast ⟨2, ![a, b]⟩ (extractStridedSlice ⟨3, ![1, a, b]⟩ ![l, 0, 0] X hs) hc (ix2 p k) = X (ix3 (⟨l, hl⟩ : Fin n0) p k) := by
  rw [shapeCast_1ab_ab_apply]
  exact extractStridedSlice_apply _ X hs _ _ (fun ax => match ax with
    | ⟨0, _⟩ => (Nat.add_zero l).symm
    | ⟨1, _⟩ => (Nat.zero_add _).symm
    | ⟨2, _⟩ => (Nat.zero_add _).symm)

/-- Row `l` of a matrix as a vector: entry `n` is the matrix's `(l, n)`. -/
theorem hostSlab2 {n0 a l : ℕ} (hl : l < n0) (X : (⟨2, ![n0, a]⟩ : Shape).Idx → α)
    (hs : (⟨2, ![n0, a]⟩ : Shape).Slices ![l, 0] ⟨2, ![1, a]⟩)
    (hc : (⟨2, ![1, a]⟩ : Shape).ShapeCasts ⟨1, ![a]⟩) (n : Fin a) :
    shapeCast ⟨1, ![a]⟩ (extractStridedSlice ⟨2, ![1, a]⟩ ![l, 0] X hs) hc (ix1 n) = X (ix2 (⟨l, hl⟩ : Fin n0) n) := by
  rw [shapeCast_1a_a_apply]
  exact slice2_axis0_apply l X hs (0 : Fin 1) n ⟨l, hl⟩ (Nat.add_zero l).symm

/-- A matrix with a unit axis put between its two axes: entry `(l, 0, n)` is the matrix's `(l, n)`. -/
theorem midUnit_at {a b : ℕ} (X : (⟨2, ![a, b]⟩ : Shape).Idx → α)
    (h : (⟨2, ![a, b]⟩ : Shape).ShapeCasts ⟨3, ![a, 1, b]⟩) (l : Fin a) (u : Fin 1) (n : Fin b) :
    shapeCast ⟨3, ![a, 1, b]⟩ X h (ix3 l u n) = X (ix2 l n) :=
  shapeCast_apply X h _ _ (by
    have hu : u.val = 0 := by omega
    rw [Shape.rowMajor_val_three, Shape.rowMajor_val_two]
    show l.val * b + n.val = (l.val * 1 + u.val) * b + n.val
    rw [hu, Nat.mul_one, Nat.add_zero])

/-! ## A layer's slab of a stacked buffer in a kernel -/

/-- Slab `l` of a buffer stacked along its first axis: its own index `(0, p, k)` sits at `(l, p, k)`. -/
theorem slab_emb {n0 a b l : ℕ} {off : Fin 3 → ℕ} (ho : off = ![l, 0, 0])
    (inb : ∀ ax, off ax + (![1, a, b] : Fin 3 → ℕ) ax ≤ (⟨3, ![n0, a, b]⟩ : Shape).size ax) (hl : l < n0)
    (x : (⟨3, ![1, a, b]⟩ : Shape).Idx) :
    (Rect.unit (s := ⟨3, ![n0, a, b]⟩) off ![1, a, b] inb).emb x = ix3 (⟨l, hl⟩ : Fin n0) (x 1) (x 2) := by
  subst ho
  funext ax
  match ax with
  | ⟨0, _⟩ =>
    have h0 : (x 0).val < 1 := (x 0).isLt
    exact Fin.ext (show l + 1 * (x 0).val = l by omega)
  | ⟨1, _⟩ => exact Fin.ext (show 0 + 1 * (x 1).val = (x 1).val by omega)
  | ⟨2, _⟩ => exact Fin.ext (show 0 + 1 * (x 2).val = (x 2).val by omega)

/-- What a load of slab `l` reads at `(0, p, k)` — the buffer's contents at the slab's embedded index — is the contents
    at `(l, p, k)`. -/
theorem ld_slab {n0 a b l : ℕ} {off : Fin 3 → ℕ} (ho : off = ![l, 0, 0])
    (inb : ∀ ax, off ax + (![1, a, b] : Fin 3 → ℕ) ax ≤ (⟨3, ![n0, a, b]⟩ : Shape).size ax) (hl : l < n0)
    (X : (⟨3, ![n0, a, b]⟩ : Shape).Idx → α) (u : Fin 1) (p : Fin a) (k : Fin b) :
    X ((Rect.unit (s := ⟨3, ![n0, a, b]⟩) off ![1, a, b] inb).emb (ix3 u p k)) = X (ix3 (⟨l, hl⟩ : Fin n0) p k) :=
  congrArg X (slab_emb ho inb hl (ix3 u p k))

end Cert.Lib

end
-- ==== Proof.LibColumnForms.lean ====
/-
  A column vector on the host: its two spellings, and its spread over a matrix.

  A vector of `a` entries becomes the column `[a, 1]` either by a reshape or by a broadcast that sends the vector's axis to
  the column's first axis: the two are one array, entry (i, 0) being the vector's entry i. A column `[R, 1]` broadcast to
  `[R, N]` with its axes kept in place reads, at (r, n), the column's entry r.
-/
import Idealize.ShloMosaic.Lib.ValueIdx
import Idealize.ShloMosaic.Lib.Pipeline.Value
import proofs.«108278_j89567247991232_1_alg».proof.Proof.LibColumn

noncomputable section

namespace Cert.Lib

open Idealize.ShloMosaic Idealize.ShloMosaic.ValueIdx

variable {α : Type}

/-- A column `[R, 1]` broadcast to `[R, N]` (axes kept in place) reads, at `(r, n)`, the column's entry `r`. -/
theorem cols_of_oneCol {R N : ℕ} (hb : (⟨2, ![R, 1]⟩ : Shape).BroadcastsInDim ⟨2, ![R, N]⟩ (![0, 1] : Fin 2 → Fin 2))
    (v : (⟨2, ![R, 1]⟩ : Shape).Idx → α) (r : Fin R) (n : Fin N) :
    broadcastInDim ⟨2, ![R, N]⟩ ![0, 1] hb v (ix2 r n) = v (ix2 r (0 : Fin 1)) :=
  broadcastInDim_apply _ hb v (ix2 r n) (ix2 r (0 : Fin 1)) (fun a => match a with
    | ⟨0, _⟩ => by
      show r.val = if R = 1 then 0 else r.val
      have h1 : r.val < R := r.isLt
      split
      · omega
      · rfl
    | ⟨1, _⟩ => by
      show (0 : ℕ) = if (1 : ℕ) = 1 then 0 else n.val
      rw [if_pos rfl])

/-- A vector reshaped to a column and the same vector broadcast into the column along the first axis are one array. -/
theorem shapeCast_eq_broadcastInDim_col {a : ℕ} (v : (⟨1, ![a]⟩ : Shape).Idx → α)
    (h : (⟨1, ![a]⟩ : Shape).ShapeCasts ⟨2, ![a, 1]⟩)
    (hb : (⟨1, ![a]⟩ : Shape).BroadcastsInDim ⟨2, ![a, 1]⟩ (![0] : Fin 1 → Fin 2)) :
    shapeCast ⟨2, ![a, 1]⟩ v h = broadcastInDim ⟨2, ![a, 1]⟩ ![0] hb v := by
  funext i
  refine ((congrArg (shapeCast ⟨2, ![a, 1]⟩ v h) (eq_ix2 i)).trans (shapeCast_a_a1_apply v h (i 0) (i 1))).trans ?_
  exact (broadcastInDim_apply _ hb v i (ix1 (i 0)) (fun ax => match ax with
    | ⟨0, _⟩ => by
      show (i 0).val = if a = 1 then 0 else (i 0).val
      have h1 : (i 0).val < a := (i 0).isLt
      split
      · omega
      · rfl)).symm

end Cert.Lib

end
-- ==== Proof.RefValue.lean ====
/-
  The reference, read as the layer of the specification.

  The reference computes, on the host: the degrees by a scatter-add of ones at the edges' targets; the clipped weight
  row; the loop-invariant part  X·W1ᵀ + (deg ⊗ relu w4)·W3ᵀ  (the degree column and the weight row each spread over a
  100000 × 64 array and multiplied entry by entry); and four times  emb ← max(base + (A emb)·W2ᵀ, 0)  from the zero
  embedding, where  A emb  gathers the rows of `emb` at the edges' sources and scatter-adds them at the edges' targets.
  Read entry by entry the two matrix products are row-by-column sums, so the invariant part and each step are the
  specification's `base` and `combine`; the gather / scatter-add pair stays whole, as the function `agg`.
-/
import proofs.«108278_j89567247991232_1_alg».proof.Proof.Gen.ReferenceIdeal.Read
import proofs.«108278_j89567247991232_1_alg».proof.Proof.Spec
import proofs.«108278_j89567247991232_1_alg».proof.Proof.LibMatDot
import proofs.«108278_j89567247991232_1_alg».proof.Proof.LibSlabs
import proofs.«108278_j89567247991232_1_alg».proof.Proof.LibColumnForms

set_option maxRecDepth 16384

noncomputable section

namespace Cert.ReferenceIdeal.RefValue

open Cert.ReferenceIdeal Cert.ReferenceIdeal.Gen Cert.ReferenceIdeal.Read
open Idealize.ShloMosaic Idealize.ShloMosaic.ValueIdx
open scoped BigOperators

/-- The edge list, the node features, the weights. -/
abbrev Edges : Type := (⟨S2x1600000, .i32⟩ : BufTy).Contents (Elt Ideal)
abbrev NodeArr : Type := FVec Ideal S100000x64 .f32
abbrev SqArr : Type := FVec Ideal S64x64 .f32
abbrev ColW : Type := FVec Ideal S64x1 .f32

/-- Aggregation over the edges: the rows of `emb` at the edges' sources (a negative source wrapped by the node count),
    scatter-added into a zero array at the edges' targets. -/
def agg (x1 : Edges) (emb : NodeArr) : NodeArr :=
  Host.scatterAdd scatter_S100000x64_S1600000x1_S1600000x64_1_0_0_1 (val_main_v28 (F := Ideal)) (val_main_v29 (F := Ideal) x1)
    (Host.gather gather_S100000x64_S1600000x1_S1600000x64_1_0_n_n_0_1_164 emb (val_main_v26 (F := Ideal) x1))

/-- One step on the host — add the product with the matrix, clip below at zero — is the specification's step. -/
theorem step_eq (b n : NodeArr) (w : SqArr) :
    maximumf (F := Ideal) (addf (F := Ideal) b (Host.dotGeneral (F := Ideal) dot_S100000x64_S64x64_S100000x64_1_0_0_1_n_n none n w))
        (broadcastInDim S100000x64 ![] bcast_S_S100000x64 (constant (F := Ideal) S_ .f32 0x00000000#32))
      = Cert.Spec.combine b n w := by
  funext i
  obtain ⟨p, q, rfl⟩ : ∃ (p : Fin 100000) (q : Fin 64), i = ix2 p q := ⟨i 0, i 1, eq_ix2 i⟩
  show max (b (ix2 p q) + FloatOps.dotGeneral (F := Ideal) (Cert.Lib.matDot Cert.ReferenceIdeal.Gen.dot_S100000x64_S64x64_S100000x64_1_0_0_1_n_n_wf)
      none .single n w (ix2 p q)) Cert.Spec.zeroE = _
  rw [Cert.Lib.dotGeneral_plain_apply]
  rfl

/-- The invariant part on the host is the specification's. -/
theorem base_eq (x0 : NodeArr) (d : FVec Ideal S100000x1 .f32)
    (r : FVec Ideal S1x64 .f32) (a cm : SqArr) :
    addf (F := Ideal) (Host.dotGeneral (F := Ideal) dot_S100000x64_S64x64_S100000x64_1_0_0_1_n_n none x0 a)
        (Host.dotGeneral (F := Ideal) dot_S100000x64_S64x64_S100000x64_1_0_0_1_n_n none
          (mulf (F := Ideal) (broadcastInDim S100000x64 ![0, 1] bcast_S100000x1_S100000x64_0_1 d)
            (broadcastInDim S100000x64 ![0, 1] bcast_S1x64_S100000x64_0_1 r)) cm)
      = Cert.Spec.base x0 d r a cm := by
  funext i
  obtain ⟨p, q, rfl⟩ : ∃ (p : Fin 100000) (q : Fin 64), i = ix2 p q := ⟨i 0, i 1, eq_ix2 i⟩
  show FloatOps.dotGeneral (F := Ideal) (Cert.Lib.matDot Cert.ReferenceIdeal.Gen.dot_S100000x64_S64x64_S100000x64_1_0_0_1_n_n_wf)
        none .single x0 a (ix2 p q)
      + FloatOps.dotGeneral (F := Ideal) (Cert.Lib.matDot Cert.ReferenceIdeal.Gen.dot_S100000x64_S64x64_S100000x64_1_0_0_1_n_n_wf)
        none .single (mulf (F := Ideal) (broadcastInDim ⟨2, ![100000, 64]⟩ ![0, 1] bcast_S100000x1_S100000x64_0_1 d)
            (broadcastInDim ⟨2, ![100000, 64]⟩ ![0, 1] bcast_S1x64_S100000x64_0_1 r)) cm (ix2 p q)
      = Cert.Spec.baseAt x0 d r a cm p q
  rw [Cert.Lib.dotGeneral_plain_apply, Cert.Lib.dotGeneral_plain_apply]
  refine congrArg₂ (· + ·) rfl (Finset.sum_congr rfl fun k _ => ?_)
  show (broadcastInDim ⟨2, ![100000, 64]⟩ ![0, 1] bcast_S100000x1_S100000x64_0_1 d (ix2 p k)
      * broadcastInDim ⟨2, ![100000, 64]⟩ ![0, 1] bcast_S1x64_S100000x64_0_1 r (ix2 p k)) * cm (ix2 k q) = _
  rw [Cert.Lib.cols_of_oneCol, Cert.Lib.rows_of_oneRow]

variable (x0 : NodeArr) (x1 : Edges) (x2 x3 x4 : SqArr) (x5 : ColW)

/-- The reference's invariant part, of its arguments. -/
abbrev baseR : NodeArr :=
  Cert.Spec.base x0 (val_main_v9 (F := Ideal) x1) (val_main_v11 (F := Ideal) x5) (val_main_v17 (F := Ideal) x2) (val_main_v15 (F := Ideal) x4)

theorem v19_eq : val_main_v19 (F := Ideal) x0 x1 x2 x4 x5 = baseR x0 x1 x2 x4 x5 := by
  unfold val_main_v19 val_main_v18 val_main_v16 val_main_v14 val_main_v12 val_main_v13
  exact base_eq _ _ _ _ _

/-- The zero array, the targets as a column and the wrapped sources as a column are printed once per step: the same
    arrays each time. -/
theorem zeros_eq : val_main_v20 (F := Ideal) = Cert.Spec.zeros := rfl
theorem z42 : val_main_v42 (F := Ideal) = val_main_v28 (F := Ideal) := rfl
theorem z56 : val_main_v56 (F := Ideal) = val_main_v28 (F := Ideal) := rfl
theorem z70 : val_main_v70 (F := Ideal) = val_main_v28 (F := Ideal) := rfl
theorem t43 : val_main_v43 (F := Ideal) x1 = val_main_v29 (F := Ideal) x1 := rfl
theorem t57 : val_main_v57 (F := Ideal) x1 = val_main_v29 (F := Ideal) x1 := rfl
theorem t71 : val_main_v71 (F := Ideal) x1 = val_main_v29 (F := Ideal) x1 := rfl
theorem s40 : val_main_v40 (F := Ideal) x1 = val_main_v26 (F := Ideal) x1 := rfl
theorem s54 : val_main_v54 (F := Ideal) x1 = val_main_v26 (F := Ideal) x1 := rfl
theorem s68 : val_main_v68 (F := Ideal) x1 = val_main_v26 (F := Ideal) x1 := rfl

/-- The four aggregations: each is `agg` of the embedding before it. -/
theorem v30_eq : val_main_v30 (F := Ideal) x1 = agg x1 Cert.Spec.zeros := by
  unfold val_main_v30 val_main_v27 agg
  rw [zeros_eq]
theorem v44_eq : val_main_v44 (F := Ideal) x0 x1 x2 x3 x4 x5 = agg x1 (val_main_v34 (F := Ideal) x0 x1 x2 x3 x4 x5) := by
  unfold val_main_v44 val_main_v41 agg
  rw [z42, t43, s40]
theorem v58_eq : val_main_v58 (F := Ideal) x0 x1 x2 x3 x4 x5 = agg x1 (val_main_v48 (F := Ideal) x0 x1 x2 x3 x4 x5) := by
  unfold val_main_v58 val_main_v55 agg
  rw [z56, t57, s54]
theorem v72_eq : val_main_v72 (F := Ideal) x0 x1 x2 x3 x4 x5 = agg x1 (val_main_v62 (F := Ideal) x0 x1 x2 x3 x4 x5) := by
  unfold val_main_v72 val_main_v69 agg
  rw [z70, t71, s68]

/-- The transposed second matrix is printed once per step: the same array each time. -/
theorem w45 : val_main_v45 (F := Ideal) x3 = val_main_v31 (F := Ideal) x3 := rfl
theorem w59 : val_main_v59 (F := Ideal) x3 = val_main_v31 (F := Ideal) x3 := rfl
theorem w73 : val_main_v73 (F := Ideal) x3 = val_main_v31 (F := Ideal) x3 := rfl

/-- The four steps. -/
theorem v34_eq : val_main_v34 (F := Ideal) x0 x1 x2 x3 x4 x5
    = Cert.Spec.combine (val_main_v19 (F := Ideal) x0 x1 x2 x4 x5) (val_main_v30 (F := Ideal) x1) (val_main_v31 (F := Ideal) x3) := by
  unfold val_main_v34 val_main_v33 val_main_v32 val_main_call1_v0 val_main_call1_cst
  exact step_eq _ _ _
theorem v48_eq : val_main_v48 (F := Ideal) x0 x1 x2 x3 x4 x5
    = Cert.Spec.combine (val_main_v19 (F := Ideal) x0 x1 x2 x4 x5) (val_main_v44 (F := Ideal) x0 x1 x2 x3 x4 x5) (val_main_v31 (F := Ideal) x3) := by
  unfold val_main_v48 val_main_v47 val_main_v46 val_main_call2_v0 val_main_call2_cst
  rw [w45]
  exact step_eq _ _ _
theorem v62_eq : val_main_v62 (F := Ideal) x0 x1 x2 x3 x4 x5
    = Cert.Spec.combine (val_main_v19 (F := Ideal) x0 x1 x2 x4 x5) (val_main_v58 (F := Ideal) x0 x1 x2 x3 x4 x5) (val_main_v31 (F := Ideal) x3) := by
  unfold val_main_v62 val_main_v61 val_main_v60 val_main_call3_v0 val_main_call3_cst
  rw [w59]
  exact step_eq _ _ _
theorem v76_eq : val_main_v76 (F := Ideal) x0 x1 x2 x3 x4 x5
    = Cert.Spec.combine (val_main_v19 (F := Ideal) x0 x1 x2 x4 x5) (val_main_v72 (F := Ideal) x0 x1 x2 x3 x4 x5) (val_main_v31 (F := Ideal) x3) := by
  unfold val_main_v76 val_main_v75 val_main_v74 val_main_call4_v0 val_main_call4_cst
  rw [w73]
  exact step_eq _ _ _

/-- The reference's result is the layer of the specification: four steps from the zero embedding over its own invariant
    part, its own transposed matrix and its own aggregation. -/
theorem result_eq : val_main_v76 (F := Ideal) x0 x1 x2 x3 x4 x5
    = Cert.Spec.layer (agg x1) (baseR x0 x1 x2 x4 x5) (val_main_v31 (F := Ideal) x3) := by
  rw [v76_eq, v72_eq, v62_eq, v58_eq, v48_eq, v44_eq, v34_eq, v30_eq, v19_eq]
  rfl

end Cert.ReferenceIdeal.RefValue

end
-- ==== Proof.LibAsRow.lean ====
/-
  A vector as one row.

  A vector of `n` entries laid out as a `[1, n]` array reads, at `(u, k)`, the vector's entry `k`. Two layout operations
  produce that array: a reshape `[n] → [1, n]`, and a broadcast of `[n]` into `[1, n]` that sends the vector's axis to
  the array's second axis. Both are the same function of the vector.
-/
import Idealize.ShloMosaic.Lib.ValueIdx
import Idealize.ShloMosaic.Lib.Pipeline.Value
import Idealize.ShloMosaic.Lib.ValueLayout

noncomputable section

namespace Cert.Lib

open Idealize.ShloMosaic Idealize.ShloMosaic.ValueIdx

variable {α : Type} {n : ℕ}

/-- The `[1, n]` array whose one row is the vector `v`. -/
def asRow (v : (⟨1, ![n]⟩ : Shape).Idx → α) : (⟨2, ![1, n]⟩ : Shape).Idx → α := fun i => v (ix1 (i 1))

theorem asRow_apply (v : (⟨1, ![n]⟩ : Shape).Idx → α) (u : Fin 1) (k : Fin n) : asRow v (ix2 u k) = v (ix1 k) := rfl

/-- A vector reshaped to `[1, n]` is the vector as one row. -/
theorem shapeCast_eq_asRow (v : (⟨1, ![n]⟩ : Shape).Idx → α) (h : (⟨1, ![n]⟩ : Shape).ShapeCasts ⟨2, ![1, n]⟩) :
    shapeCast ⟨2, ![1, n]⟩ v h = asRow v :=
  funext fun i => (congrArg (shapeCast ⟨2, ![1, n]⟩ v h) (eq_ix2 i)).trans (shapeCast_a_1a_apply v h (i 0) (i 1))

/-- A vector broadcast into `[1, n]` along the second axis is the vector as one row. -/
theorem broadcastInDim_eq_asRow (v : (⟨1, ![n]⟩ : Shape).Idx → α)
    (h : (⟨1, ![n]⟩ : Shape).BroadcastsInDim ⟨2, ![1, n]⟩ (![1] : Fin 1 → Fin 2)) :
    broadcastInDim ⟨2, ![1, n]⟩ ![1] h v = asRow v :=
  funext fun i => broadcastInDim_apply _ h v i (ix1 (i 1)) (fun a => match a with
    | ⟨0, _⟩ => by
      show (i 1).val = if n = 1 then 0 else (i 1).val
      have h1 : (i 1).val < n := (i 1).isLt
      split
      · omega
      · rfl)

end Cert.Lib

end
-- ==== Proof.Chain.lean ====
/-
  The kernel's buffers at the boundaries of its run.

  Before the first launch the host computes, from the arguments: the edges' targets and sources (the two rows of the
  edge list), the degree column (ones scatter-added at the targets, reshaped to a column), the clipped weight row, and
  the three transposed weight matrices. Each is the same function of the arguments as the reference's stage of the same
  name, the degree column and the weight row up to how a vector is laid out as a column or as a row.
  Launch 0 leaves the loop-invariant part. Then four times: the host aggregates the current embedding over the edges
  (from the zero array the first time), and a launch leaves one step of the layer. No host stretch and no launch
  writes the targets, the sources, the transposed second matrix or the invariant part, so every later launch finds
  them as they were. The last launch's result is the layer of the specification.
-/
import proofs.«108278_j89567247991232_1_alg».proof.Proof.Gen.KernelIdeal.Frame
import proofs.«108278_j89567247991232_1_alg».proof.Proof.KernelRun
import proofs.«108278_j89567247991232_1_alg».proof.Proof.Base
import proofs.«108278_j89567247991232_1_alg».proof.Proof.Step1
import proofs.«108278_j89567247991232_1_alg».proof.Proof.Step2
import proofs.«108278_j89567247991232_1_alg».proof.Proof.Step3
import proofs.«108278_j89567247991232_1_alg».proof.Proof.Step4
import proofs.«108278_j89567247991232_1_alg».proof.Proof.RefValue
import proofs.«108278_j89567247991232_1_alg».proof.Proof.LibAsRow
import proofs.«108278_j89567247991232_1_alg».proof.Proof.LibColumnForms
import Idealize.ShloMosaic.Lib.StableHlo.Run

set_option maxRecDepth 16384

noncomputable section

namespace Cert.KernelIdeal.Chain

open Cert.KernelIdeal Cert.KernelIdeal.Gen
open Cert.ReferenceIdeal.Read Cert.ReferenceIdeal.RefValue
open Idealize.ShloMosaic Idealize.ShloMosaic.TcCoe Idealize.ShloMosaic.StableHlo Idealize.SL.Sem

variable (m : (ℓ : Loc nD τ sig) → Buf (Elt Ideal) ℓ) (ρ : Dev nD → PrngReg) (c : Dev nD)

/-! ## Before the first launch -/

theorem w3_arg0 : W3 m ρ c (Proc.devRef .tc main_arg0) = (m ((c : Thread nD τ).loc main_arg0)) := by
  dsimp only [W3, W2, W1, hostOps0_2, hostOps0_1, hostOps0]
  after_results

theorem w3_row : W3 m ρ c (Proc.devRef .tc main_v1) = (val_main_v1 (F := Ideal) (m ((c : Thread nD τ).loc main_arg1))) := by
  dsimp only [W3, W2, W1, hostOps0_2, hostOps0_1, hostOps0]
  after_results
  rfl

theorem w3_col : W3 m ρ c (Proc.devRef .tc main_v3) = (val_main_v3 (F := Ideal) (m ((c : Thread nD τ).loc main_arg1))) := by
  dsimp only [W3, W2, W1, hostOps0_2, hostOps0_1, hostOps0]
  after_results
  rfl

/-- The degree column: the kernel reshapes the degrees to a column, the reference broadcasts them into one. -/
theorem w3_deg : W3 m ρ c (Proc.devRef .tc main_v8) = val_main_v9 (F := Ideal) (m ((c : Thread nD τ).loc main_arg1)) := by
  dsimp only [W3, W2, W1, hostOps0_2, hostOps0_1, hostOps0]
  after_results
  exact Cert.Lib.shapeCast_eq_broadcastInDim_col _ _ _

/-- The clipped weight row: the kernel reshapes the clipped vector to one row, the reference broadcasts it into one. -/
theorem w3_rw : W3 m ρ c (Proc.devRef .tc main_v11) = val_main_v11 (F := Ideal) (m ((c : Thread nD τ).loc main_arg5)) := by
  dsimp only [W3, W2, W1, hostOps0_2, hostOps0_1, hostOps0]
  after_results
  exact (Cert.Lib.shapeCast_eq_asRow _ _).trans (Cert.Lib.broadcastInDim_eq_asRow _ _).symm

theorem w3_w1t : W3 m ρ c (Proc.devRef .tc main_v12) = val_main_v17 (F := Ideal) (m ((c : Thread nD τ).loc main_arg2)) := by
  dsimp only [W3, W2, W1, hostOps0_2, hostOps0_1, hostOps0]
  after_results
  rfl

theorem w3_w2t : W3 m ρ c (Proc.devRef .tc main_v13) = (val_main_v31 (F := Ideal) (m ((c : Thread nD τ).loc main_arg3))) := by
  dsimp only [W3, W2, W1, hostOps0_2, hostOps0_1, hostOps0]
  after_results
  rfl

theorem w3_w3t : W3 m ρ c (Proc.devRef .tc main_v14) = val_main_v15 (F := Ideal) (m ((c : Thread nD τ).loc main_arg4)) := by
  dsimp only [W3, W2, W1, hostOps0_2, hostOps0_1, hostOps0]
  after_results
  rfl

/-! ## Launch 0 -/

theorem base_congr {X X' : Cert.Spec.Nodes.Idx → EReal} {d d' : Cert.Spec.DegCol.Idx → EReal} {r r' : Cert.Spec.WRow.Idx → EReal}
    {A A' C C' : Cert.Spec.Sq.Idx → EReal} (h0 : X = X') (h1 : d = d') (h2 : r = r') (h3 : A = A') (h4 : C = C') :
    Cert.Spec.base X d r A C = Cert.Spec.base X' d' r' A' C' := by rw [h0, h1, h2, h3, h4]

theorem combine_congr {b b' n n' : Cert.Spec.Nodes.Idx → EReal} {w w' : Cert.Spec.Sq.Idx → EReal}
    (h0 : b = b') (h1 : n = n') (h2 : w = w') : Cert.Spec.combine b n w = Cert.Spec.combine b' n' w' := by rw [h0, h1, h2]

/-- After launch 0 its result buffer holds the invariant part, as the reference states it. -/
theorem w4_base : W4 m ρ c (Proc.devRef .tc main_v15) = (baseR (m ((c : Thread nD τ).loc main_arg0)) (m ((c : Thread nD τ).loc main_arg1)) (m ((c : Thread nD τ).loc main_arg2)) (m ((c : Thread nD τ).loc main_arg4)) (m ((c : Thread nD τ).loc main_arg5))) :=
  (W4_arr m ρ c 5).trans ((Cert.KernelIdeal.Base.arr_eq (V3 m ρ) c).trans
    (base_congr (w3_arg0 m ρ c) (w3_deg m ρ c) (w3_rw m ρ c) (w3_w1t m ρ c) (w3_w3t m ρ c)))

/-! ## What every later launch finds as it was -/

/-- The targets, the sources, the transposed second matrix and the invariant part, at a boundary's contents `W`. -/
structure Keeps (W : Valuation τ sig (Elt Ideal)) : Prop where
  row : W (Proc.devRef .tc main_v1) = (val_main_v1 (F := Ideal) (m ((c : Thread nD τ).loc main_arg1)))
  col : W (Proc.devRef .tc main_v3) = (val_main_v3 (F := Ideal) (m ((c : Thread nD τ).loc main_arg1)))
  w2t : W (Proc.devRef .tc main_v13) = (val_main_v31 (F := Ideal) (m ((c : Thread nD τ).loc main_arg3)))
  base : W (Proc.devRef .tc main_v15) = (baseR (m ((c : Thread nD τ).loc main_arg0)) (m ((c : Thread nD τ).loc main_arg1)) (m ((c : Thread nD τ).loc main_arg2)) (m ((c : Thread nD τ).loc main_arg4)) (m ((c : Thread nD τ).loc main_arg5)))

theorem keeps4 : Keeps m c (W4 m ρ c) where
  row := (W4_of_ne m ρ c main_v1 (by decide)).trans (w3_row m ρ c)
  col := (W4_of_ne m ρ c main_v3 (by decide)).trans (w3_col m ρ c)
  w2t := (W4_of_ne m ρ c main_v13 (by decide)).trans (w3_w2t m ρ c)
  base := w4_base m ρ c

/-! ## Step 1 -/

theorem keeps_host1 (h : Keeps m c (W4 m ρ c)) : Keeps m c (W5 m ρ c) where
  row := by
    show StableHlo.after hostOps1 (W4 m ρ c) (Proc.devRef .tc main_v1) = _
    dsimp only [hostOps1]
    after_results
    exact h.row
  col := by
    show StableHlo.after hostOps1 (W4 m ρ c) (Proc.devRef .tc main_v3) = _
    dsimp only [hostOps1]
    after_results
    exact h.col
  w2t := by
    show StableHlo.after hostOps1 (W4 m ρ c) (Proc.devRef .tc main_v13) = _
    dsimp only [hostOps1]
    after_results
    exact h.w2t
  base := by
    show StableHlo.after hostOps1 (W4 m ρ c) (Proc.devRef .tc main_v15) = _
    dsimp only [hostOps1]
    after_results
    exact h.base

set_option maxHeartbeats 2000000 in
/-- The host's aggregation before launch 1. -/
theorem nb1 (h : Keeps m c (W4 m ρ c)) :
    W5 m ρ c (Proc.devRef .tc main_v26) = agg (m ((c : Thread nD τ).loc main_arg1)) Cert.Spec.zeros := by
  show StableHlo.after hostOps1 (W4 m ρ c) (Proc.devRef .tc main_v26) = _
  dsimp only [hostOps1]
  after_results_simp
  rw [h.row, h.col]
  rfl

theorem keeps_launch1 (h : Keeps m c (W5 m ρ c)) : Keeps m c (W6 m ρ c) where
  row := (W6_of_ne m ρ c main_v1 (by decide)).trans h.row
  col := (W6_of_ne m ρ c main_v3 (by decide)).trans h.col
  w2t := (W6_arr m ρ c 2).trans (((dat1 (V5 m ρ) c).arrAt_in 2 rfl _).trans ((A_eq1 (V5 m ρ) c 2).trans h.w2t))
  base := (W6_arr m ρ c 0).trans (((dat1 (V5 m ρ) c).arrAt_in 0 rfl _).trans ((A_eq1 (V5 m ρ) c 0).trans h.base))

/-- After launch 1 its result buffer holds 1 step of the layer. -/
theorem emb1 (h : Keeps m c (W5 m ρ c)) (hn : W5 m ρ c (Proc.devRef .tc main_v26) = agg (m ((c : Thread nD τ).loc main_arg1)) Cert.Spec.zeros) :
    W6 m ρ c (Proc.devRef .tc main_v27) = (Cert.Spec.combine (baseR (m ((c : Thread nD τ).loc main_arg0)) (m ((c : Thread nD τ).loc main_arg1)) (m ((c : Thread nD τ).loc main_arg2)) (m ((c : Thread nD τ).loc main_arg4)) (m ((c : Thread nD τ).loc main_arg5))) (agg (m ((c : Thread nD τ).loc main_arg1)) Cert.Spec.zeros) (val_main_v31 (F := Ideal) (m ((c : Thread nD τ).loc main_arg3)))) :=
  (W6_arr m ρ c 3).trans ((Cert.KernelIdeal.Step1.arr_eq (V5 m ρ) c).trans (combine_congr h.base hn h.w2t))

/-! ## Step 2 -/

theorem keeps_host2 (h : Keeps m c (W6 m ρ c)) : Keeps m c (W7 m ρ c) where
  row := by
    show StableHlo.after hostOps2 (W6 m ρ c) (Proc.devRef .tc main_v1) = _
    dsimp only [hostOps2]
    after_results
    exact h.row
  col := by
    show StableHlo.after hostOps2 (W6 m ρ c) (Proc.devRef .tc main_v3) = _
    dsimp only [hostOps2]
    after_results
    exact h.col
  w2t := by
    show StableHlo.after hostOps2 (W6 m ρ c) (Proc.devRef .tc main_v13) = _
    dsimp only [hostOps2]
    after_results
    exact h.w2t
  base := by
    show StableHlo.after hostOps2 (W6 m ρ c) (Proc.devRef .tc main_v15) = _
    dsimp only [hostOps2]
    after_results
    exact h.base

set_option maxHeartbeats 2000000 in
/-- The host's aggregation before launch 2. -/
theorem nb2 (h : Keeps m c (W6 m ρ c)) (hE : W6 m ρ c (Proc.devRef .tc main_v27) = (Cert.Spec.combine (baseR (m ((c : Thread nD τ).loc main_arg0)) (m ((c : Thread nD τ).loc main_arg1)) (m ((c : Thread nD τ).loc main_arg2)) (m ((c : Thread nD τ).loc main_arg4)) (m ((c : Thread nD τ).loc main_arg5))) (agg (m ((c : Thread nD τ).loc main_arg1)) Cert.Spec.zeros) (val_main_v31 (F := Ideal) (m ((c : Thread nD τ).loc main_arg3))))) :
    W7 m ρ c (Proc.devRef .tc main_v37) = agg (m ((c : Thread nD τ).loc main_arg1)) (Cert.Spec.combine (baseR (m ((c : Thread nD τ).loc main_arg0)) (m ((c : Thread nD τ).loc main_arg1)) (m ((c : Thread nD τ).loc main_arg2)) (m ((c : Thread nD τ).loc main_arg4)) (m ((c : Thread nD τ).loc main_arg5))) (agg (m ((c : Thread nD τ).loc main_arg1)) Cert.Spec.zeros) (val_main_v31 (F := Ideal) (m ((c : Thread nD τ).loc main_arg3)))) := by
  show StableHlo.after hostOps2 (W6 m ρ c) (Proc.devRef .tc main_v37) = _
  dsimp only [hostOps2]
  after_results_simp
  rw [h.row, h.col, hE]
  rfl

theorem keeps_launch2 (h : Keeps m c (W7 m ρ c)) : Keeps m c (W8 m ρ c) where
  row := (W8_of_ne m ρ c main_v1 (by decide)).trans h.row
  col := (W8_of_ne m ρ c main_v3 (by decide)).trans h.col
  w2t := (W8_arr m ρ c 2).trans (((dat2 (V7 m ρ) c).arrAt_in 2 rfl _).trans ((A_eq2 (V7 m ρ) c 2).trans h.w2t))
  base := (W8_arr m ρ c 0).trans (((dat2 (V7 m ρ) c).arrAt_in 0 rfl _).trans ((A_eq2 (V7 m ρ) c 0).trans h.base))

/-- After launch 2 its result buffer holds 2 steps of the layer. -/
theorem emb2 (h : Keeps m c (W7 m ρ c)) (hn : W7 m ρ c (Proc.devRef .tc main_v37) = agg (m ((c : Thread nD τ).loc main_arg1)) (Cert.Spec.combine (baseR (m ((c : Thread nD τ).loc main_arg0)) (m ((c : Thread nD τ).loc main_arg1)) (m ((c : Thread nD τ).loc main_arg2)) (m ((c : Thread nD τ).loc main_arg4)) (m ((c : Thread nD τ).loc main_arg5))) (agg (m ((c : Thread nD τ).loc main_arg1)) Cert.Spec.zeros) (val_main_v31 (F := Ideal) (m ((c : Thread nD τ).loc main_arg3))))) :
    W8 m ρ c (Proc.devRef .tc main_v38) = (Cert.Spec.combine (baseR (m ((c : Thread nD τ).loc main_arg0)) (m ((c : Thread nD τ).loc main_arg1)) (m ((c : Thread nD τ).loc main_arg2)) (m ((c : Thread nD τ).loc main_arg4)) (m ((c : Thread nD τ).loc main_arg5))) (agg (m ((c : Thread nD τ).loc main_arg1)) (Cert.Spec.combine (baseR (m ((c : Thread nD τ).loc main_arg0)) (m ((c : Thread nD τ).loc main_arg1)) (m ((c : Thread nD τ).loc main_arg2)) (m ((c : Thread nD τ).loc main_arg4)) (m ((c : Thread nD τ).loc main_arg5))) (agg (m ((c : Thread nD τ).loc main_arg1)) Cert.Spec.zeros) (val_main_v31 (F := Ideal) (m ((c : Thread nD τ).loc main_arg3))))) (val_main_v31 (F := Ideal) (m ((c : Thread nD τ).loc main_arg3)))) :=
  (W8_arr m ρ c 3).trans ((Cert.KernelIdeal.Step2.arr_eq (V7 m ρ) c).trans (combine_congr h.base hn h.w2t))

/-! ## Step 3 -/

theorem keeps_host3 (h : Keeps m c (W8 m ρ c)) : Keeps m c (W9 m ρ c) where
  row := by
    show StableHlo.after hostOps3 (W8 m ρ c) (Proc.devRef .tc main_v1) = _
    dsimp only [hostOps3]
    after_results
    exact h.row
  col := by
    show StableHlo.after hostOps3 (W8 m ρ c) (Proc.devRef .tc main_v3) = _
    dsimp only [hostOps3]
    after_results
    exact h.col
  w2t := by
    show StableHlo.after hostOps3 (W8 m ρ c) (Proc.devRef .tc main_v13) = _
    dsimp only [hostOps3]
    after_results
    exact h.w2t
  base := by
    show StableHlo.after hostOps3 (W8 m ρ c) (Proc.devRef .tc main_v15) = _
    dsimp only [hostOps3]
    after_results
    exact h.base

set_option maxHeartbeats 2000000 in
/-- The host's aggregation before launch 3. -/
theorem nb3 (h : Keeps m c (W8 m ρ c)) (hE : W8 m ρ c (Proc.devRef .tc main_v38) = (Cert.Spec.combine (baseR (m ((c : Thread nD τ).loc main_arg0)) (m ((c : Thread nD τ).loc main_arg1)) (m ((c : Thread nD τ).loc main_arg2)) (m ((c : Thread nD τ).loc main_arg4)) (m ((c : Thread nD τ).loc main_arg5))) (agg (m ((c : Thread nD τ).loc main_arg1)) (Cert.Spec.combine (baseR (m ((c : Thread nD τ).loc main_arg0)) (m ((c : Thread nD τ).loc main_arg1)) (m ((c : Thread nD τ).loc main_arg2)) (m ((c : Thread nD τ).loc main_arg4)) (m ((c : Thread nD τ).loc main_arg5))) (agg (m ((c : Thread nD τ).loc main_arg1)) Cert.Spec.zeros) (val_main_v31 (F := Ideal) (m ((c : Thread nD τ).loc main_arg3))))) (val_main_v31 (F := Ideal) (m ((c : Thread nD τ).loc main_arg3))))) :
    W9 m ρ c (Proc.devRef .tc main_v48) = agg (m ((c : Thread nD τ).loc main_arg1)) (Cert.Spec.combine (baseR (m ((c : Thread nD τ).loc main_arg0)) (m ((c : Thread nD τ).loc main_arg1)) (m ((c : Thread nD τ).loc main_arg2)) (m ((c : Thread nD τ).loc main_arg4)) (m ((c : Thread nD τ).loc main_arg5))) (agg (m ((c : Thread nD τ).loc main_arg1)) (Cert.Spec.combine (baseR (m ((c : Thread nD τ).loc main_arg0)) (m ((c : Thread nD τ).loc main_arg1)) (m ((c : Thread nD τ).loc main_arg2)) (m ((c : Thread nD τ).loc main_arg4)) (m ((c : Thread nD τ).loc main_arg5))) (agg (m ((c : Thread nD τ).loc main_arg1)) Cert.Spec.zeros) (val_main_v31 (F := Ideal) (m ((c : Thread nD τ).loc main_arg3))))) (val_main_v31 (F := Ideal) (m ((c : Thread nD τ).loc main_arg3)))) := by
  show StableHlo.after hostOps3 (W8 m ρ c) (Proc.devRef .tc main_v48) = _
  dsimp only [hostOps3]
  after_results_simp
  rw [h.row, h.col, hE]
  rfl

theorem keeps_launch3 (h : Keeps m c (W9 m ρ c)) : Keeps m c (W10 m ρ c) where
  row := (W10_of_ne m ρ c main_v1 (by decide)).trans h.row
  col := (W10_of_ne m ρ c main_v3 (by decide)).trans h.col
  w2t := (W10_arr m ρ c 2).trans (((dat3 (V9 m ρ) c).arrAt_in 2 rfl _).trans ((A_eq3 (V9 m ρ) c 2).trans h.w2t))
  base := (W10_arr m ρ c 0).trans (((dat3 (V9 m ρ) c).arrAt_in 0 rfl _).trans ((A_eq3 (V9 m ρ) c 0).trans h.base))

/-- After launch 3 its result buffer holds 3 steps of the layer. -/
theorem emb3 (h : Keeps m c (W9 m ρ c)) (hn : W9 m ρ c (Proc.devRef .tc main_v48) = agg (m ((c : Thread nD τ).loc main_arg1)) (Cert.Spec.combine (baseR (m ((c : Thread nD τ).loc main_arg0)) (m ((c : Thread nD τ).loc main_arg1)) (m ((c : Thread nD τ).loc main_arg2)) (m ((c : Thread nD τ).loc main_arg4)) (m ((c : Thread nD τ).loc main_arg5))) (agg (m ((c : Thread nD τ).loc main_arg1)) (Cert.Spec.combine (baseR (m ((c : Thread nD τ).loc main_arg0)) (m ((c : Thread nD τ).loc main_arg1)) (m ((c : Thread nD τ).loc main_arg2)) (m ((c : Thread nD τ).loc main_arg4)) (m ((c : Thread nD τ).loc main_arg5))) (agg (m ((c : Thread nD τ).loc main_arg1)) Cert.Spec.zeros) (val_main_v31 (F := Ideal) (m ((c : Thread nD τ).loc main_arg3))))) (val_main_v31 (F := Ideal) (m ((c : Thread nD τ).loc main_arg3))))) :
    W10 m ρ c (Proc.devRef .tc main_v49) = (Cert.Spec.combine (baseR (m ((c : Thread nD τ).loc main_arg0)) (m ((c : Thread nD τ).loc main_arg1)) (m ((c : Thread nD τ).loc main_arg2)) (m ((c : Thread nD τ).loc main_arg4)) (m ((c : Thread nD τ).loc main_arg5))) (agg (m ((c : Thread nD τ).loc main_arg1)) (Cert.Spec.combine (baseR (m ((c : Thread nD τ).loc main_arg0)) (m ((c : Thread nD τ).loc main_arg1)) (m ((c : Thread nD τ).loc main_arg2)) (m ((c : Thread nD τ).loc main_arg4)) (m ((c : Thread nD τ).loc main_arg5))) (agg (m ((c : Thread nD τ).loc main_arg1)) (Cert.Spec.combine (baseR (m ((c : Thread nD τ).loc main_arg0)) (m ((c : Thread nD τ).loc main_arg1)) (m ((c : Thread nD τ).loc main_arg2)) (m ((c : Thread nD τ).loc main_arg4)) (m ((c : Thread nD τ).loc main_arg5))) (agg (m ((c : Thread nD τ).loc main_arg1)) Cert.Spec.zeros) (val_main_v31 (F := Ideal) (m ((c : Thread nD τ).loc main_arg3))))) (val_main_v31 (F := Ideal) (m ((c : Thread nD τ).loc main_arg3))))) (val_main_v31 (F := Ideal) (m ((c : Thread nD τ).loc main_arg3)))) :=
  (W10_arr m ρ c 3).trans ((Cert.KernelIdeal.Step3.arr_eq (V9 m ρ) c).trans (combine_congr h.base hn h.w2t))

/-! ## Step 4 -/

theorem keeps_host4 (h : Keeps m c (W10 m ρ c)) : Keeps m c (W11 m ρ c) where
  row := by
    show StableHlo.after hostOps4 (W10 m ρ c) (Proc.devRef .tc main_v1) = _
    dsimp only [hostOps4]
    after_results
    exact h.row
  col := by
    show StableHlo.after hostOps4 (W10 m ρ c) (Proc.devRef .tc main_v3) = _
    dsimp only [hostOps4]
    after_results
    exact h.col
  w2t := by
    show StableHlo.after hostOps4 (W10 m ρ c) (Proc.devRef .tc main_v13) = _
    dsimp only [hostOps4]
    after_results
    exact h.w2t
  base := by
    show StableHlo.after hostOps4 (W10 m ρ c) (Proc.devRef .tc main_v15) = _
    dsimp only [hostOps4]
    after_results
    exact h.base

set_option maxHeartbeats 2000000 in
/-- The host's aggregation before launch 4. -/
theorem nb4 (h : Keeps m c (W10 m ρ c)) (hE : W10 m ρ c (Proc.devRef .tc main_v49) = (Cert.Spec.combine (baseR (m ((c : Thread nD τ).loc main_arg0)) (m ((c : Thread nD τ).loc main_arg1)) (m ((c : Thread nD τ).loc main_arg2)) (m ((c : Thread nD τ).loc main_arg4)) (m ((c : Thread nD τ).loc main_arg5))) (agg (m ((c : Thread nD τ).loc main_arg1)) (Cert.Spec.combine (baseR (m ((c : Thread nD τ).loc main_arg0)) (m ((c : Thread nD τ).loc main_arg1)) (m ((c : Thread nD τ).loc main_arg2)) (m ((c : Thread nD τ).loc main_arg4)) (m ((c : Thread nD τ).loc main_arg5))) (agg (m ((c : Thread nD τ).loc main_arg1)) (Cert.Spec.combine (baseR (m ((c : Thread nD τ).loc main_arg0)) (m ((c : Thread nD τ).loc main_arg1)) (m ((c : Thread nD τ).loc main_arg2)) (m ((c : Thread nD τ).loc main_arg4)) (m ((c : Thread nD τ).loc main_arg5))) (agg (m ((c : Thread nD τ).loc main_arg1)) Cert.Spec.zeros) (val_main_v31 (F := Ideal) (m ((c : Thread nD τ).loc main_arg3))))) (val_main_v31 (F := Ideal) (m ((c : Thread nD τ).loc main_arg3))))) (val_main_v31 (F := Ideal) (m ((c : Thread nD τ).loc main_arg3))))) :
    W11 m ρ c (Proc.devRef .tc main_v59) = agg (m ((c : Thread nD τ).loc main_arg1)) (Cert.Spec.combine (baseR (m ((c : Thread nD τ).loc main_arg0)) (m ((c : Thread nD τ).loc main_arg1)) (m ((c : Thread nD τ).loc main_arg2)) (m ((c : Thread nD τ).loc main_arg4)) (m ((c : Thread nD τ).loc main_arg5))) (agg (m ((c : Thread nD τ).loc main_arg1)) (Cert.Spec.combine (baseR (m ((c : Thread nD τ).loc main_arg0)) (m ((c : Thread nD τ).loc main_arg1)) (m ((c : Thread nD τ).loc main_arg2)) (m ((c : Thread nD τ).loc main_arg4)) (m ((c : Thread nD τ).loc main_arg5))) (agg (m ((c : Thread nD τ).loc main_arg1)) (Cert.Spec.combine (baseR (m ((c : Thread nD τ).loc main_arg0)) (m ((c : Thread nD τ).loc main_arg1)) (m ((c : Thread nD τ).loc main_arg2)) (m ((c : Thread nD τ).loc main_arg4)) (m ((c : Thread nD τ).loc main_arg5))) (agg (m ((c : Thread nD τ).loc main_arg1)) Cert.Spec.zeros) (val_main_v31 (F := Ideal) (m ((c : Thread nD τ).loc main_arg3))))) (val_main_v31 (F := Ideal) (m ((c : Thread nD τ).loc main_arg3))))) (val_main_v31 (F := Ideal) (m ((c : Thread nD τ).loc main_arg3)))) := by
  show StableHlo.after hostOps4 (W10 m ρ c) (Proc.devRef .tc main_v59) = _
  dsimp only [hostOps4]
  after_results_simp
  rw [h.row, h.col, hE]
  rfl

theorem keeps_launch4 (h : Keeps m c (W11 m ρ c)) : Keeps m c (W12 m ρ c) where
  row := (W12_of_ne m ρ c main_v1 (by decide)).trans h.row
  col := (W12_of_ne m ρ c main_v3 (by decide)).trans h.col
  w2t := (W12_arr m ρ c 2).trans (((dat4 (V11 m ρ) c).arrAt_in 2 rfl _).trans ((A_eq4 (V11 m ρ) c 2).trans h.w2t))
  base := (W12_arr m ρ c 0).trans (((dat4 (V11 m ρ) c).arrAt_in 0 rfl _).trans ((A_eq4 (V11 m ρ) c 0).trans h.base))

/-- After launch 4 its result buffer holds 4 steps of the layer. -/
theorem emb4 (h : Keeps m c (W11 m ρ c)) (hn : W11 m ρ c (Proc.devRef .tc main_v59) = agg (m ((c : Thread nD τ).loc main_arg1)) (Cert.Spec.combine (baseR (m ((c : Thread nD τ).loc main_arg0)) (m ((c : Thread nD τ).loc main_arg1)) (m ((c : Thread nD τ).loc main_arg2)) (m ((c : Thread nD τ).loc main_arg4)) (m ((c : Thread nD τ).loc main_arg5))) (agg (m ((c : Thread nD τ).loc main_arg1)) (Cert.Spec.combine (baseR (m ((c : Thread nD τ).loc main_arg0)) (m ((c : Thread nD τ).loc main_arg1)) (m ((c : Thread nD τ).loc main_arg2)) (m ((c : Thread nD τ).loc main_arg4)) (m ((c : Thread nD τ).loc main_arg5))) (agg (m ((c : Thread nD τ).loc main_arg1)) (Cert.Spec.combine (baseR (m ((c : Thread nD τ).loc main_arg0)) (m ((c : Thread nD τ).loc main_arg1)) (m ((c : Thread nD τ).loc main_arg2)) (m ((c : Thread nD τ).loc main_arg4)) (m ((c : Thread nD τ).loc main_arg5))) (agg (m ((c : Thread nD τ).loc main_arg1)) Cert.Spec.zeros) (val_main_v31 (F := Ideal) (m ((c : Thread nD τ).loc main_arg3))))) (val_main_v31 (F := Ideal) (m ((c : Thread nD τ).loc main_arg3))))) (val_main_v31 (F := Ideal) (m ((c : Thread nD τ).loc main_arg3))))) :
    W12 m ρ c (Proc.devRef .tc main_v60) = (Cert.Spec.combine (baseR (m ((c : Thread nD τ).loc main_arg0)) (m ((c : Thread nD τ).loc main_arg1)) (m ((c : Thread nD τ).loc main_arg2)) (m ((c : Thread nD τ).loc main_arg4)) (m ((c : Thread nD τ).loc main_arg5))) (agg (m ((c : Thread nD τ).loc main_arg1)) (Cert.Spec.combine (baseR (m ((c : Thread nD τ).loc main_arg0)) (m ((c : Thread nD τ).loc main_arg1)) (m ((c : Thread nD τ).loc main_arg2)) (m ((c : Thread nD τ).loc main_arg4)) (m ((c : Thread nD τ).loc main_arg5))) (agg (m ((c : Thread nD τ).loc main_arg1)) (Cert.Spec.combine (baseR (m ((c : Thread nD τ).loc main_arg0)) (m ((c : Thread nD τ).loc main_arg1)) (m ((c : Thread nD τ).loc main_arg2)) (m ((c : Thread nD τ).loc main_arg4)) (m ((c : Thread nD τ).loc main_arg5))) (agg (m ((c : Thread nD τ).loc main_arg1)) (Cert.Spec.combine (baseR (m ((c : Thread nD τ).loc main_arg0)) (m ((c : Thread nD τ).loc main_arg1)) (m ((c : Thread nD τ).loc main_arg2)) (m ((c : Thread nD τ).loc main_arg4)) (m ((c : Thread nD τ).loc main_arg5))) (agg (m ((c : Thread nD τ).loc main_arg1)) Cert.Spec.zeros) (val_main_v31 (F := Ideal) (m ((c : Thread nD τ).loc main_arg3))))) (val_main_v31 (F := Ideal) (m ((c : Thread nD τ).loc main_arg3))))) (val_main_v31 (F := Ideal) (m ((c : Thread nD τ).loc main_arg3))))) (val_main_v31 (F := Ideal) (m ((c : Thread nD τ).loc main_arg3)))) :=
  (W12_arr m ρ c 3).trans ((Cert.KernelIdeal.Step4.arr_eq (V11 m ρ) c).trans (combine_congr h.base hn h.w2t))

/-! ## The result -/

/-- The last boundary's contents at the result buffer: the layer of the specification, over the reference's own stages. -/
theorem w12_result : W12 m ρ c (Proc.devRef .tc main_v60) = Cert.Spec.layer (agg (m ((c : Thread nD τ).loc main_arg1))) (baseR (m ((c : Thread nD τ).loc main_arg0)) (m ((c : Thread nD τ).loc main_arg1)) (m ((c : Thread nD τ).loc main_arg2)) (m ((c : Thread nD τ).loc main_arg4)) (m ((c : Thread nD τ).loc main_arg5))) (val_main_v31 (F := Ideal) (m ((c : Thread nD τ).loc main_arg3))) := by
  have k4 := keeps4 m ρ c
  have k5 := keeps_host1 m ρ c k4
  have e1 := emb1 m ρ c k5 (nb1 m ρ c k4)
  have k6 := keeps_launch1 m ρ c k5
  have k7 := keeps_host2 m ρ c k6
  have e2 := emb2 m ρ c k7 (nb2 m ρ c k6 e1)
  have k8 := keeps_launch2 m ρ c k7
  have k9 := keeps_host3 m ρ c k8
  have e3 := emb3 m ρ c k9 (nb3 m ρ c k8 e2)
  have k10 := keeps_launch3 m ρ c k9
  have k11 := keeps_host4 m ρ c k10
  exact emb4 m ρ c k11 (nb4 m ρ c k10 e3)

/-- The kernel's run: the result buffer ends at the layer of the specification, the arguments as launched. -/
theorem run : θ_run defs (onTc (τ := τ) (main (F := Ideal))) ⟨m, fun _ => 0, ρ⟩ (fun r => ∀ c : Dev nD,
      r.2.mem ((c.tc : Thread nD τ).loc main_v60) = Cert.Spec.layer (agg (m ((c : Thread nD τ).loc main_arg1))) (baseR (m ((c : Thread nD τ).loc main_arg0)) (m ((c : Thread nD τ).loc main_arg1)) (m ((c : Thread nD τ).loc main_arg2)) (m ((c : Thread nD τ).loc main_arg4)) (m ((c : Thread nD τ).loc main_arg5))) (val_main_v31 (F := Ideal) (m ((c : Thread nD τ).loc main_arg3)))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)) :=
  (θ_run defs _ _).mono (fun r h c => ⟨(h c).1.trans (w12_result m ρ c), (h c).2⟩)
    (Cert.KernelIdeal.RunValue.run_last (F := Ideal) m ρ)

end Cert.KernelIdeal.Chain

end
-- ==== Proof.lean ====
/-
  The certificate of a graph layer: a kernel of five launches against its plain reference.

  Both programs compute, for node features X (100000 × 64), an edge list (2 × 1600000) and weights W1, W2, W3 (64 × 64)
  and w4 (64 × 1):
      deg   = the number of edges at each target node (ones scatter-added at the targets),
      base  = X·W1ᵀ + (deg ⊗ relu w4)·W3ᵀ,
      emb₀  = 0,   embₙ₊₁ = max(base + (A embₙ)·W2ᵀ, 0)   for four steps,
  where A gathers the rows of an embedding at the edges' sources and scatter-adds them at the edges' targets.
  The kernel computes `base` in one launch and each step's  max(base + nb·W2ᵀ, 0)  in another, ten blocks of 10000 rows
  per launch, with the matrix products taken on narrower floats into a zero accumulator; the host does the degree
  count, the transposes and the aggregation between the launches. The reference does everything on the host.

  On the extended reals a change of float format is the identity and both kinds of matrix product are the same
  row-by-column sums, so entry by entry the kernel's blocks are the blocks of the same arrays the reference computes
  (Base, Step1 … Step4 for the launches; RefValue for the reference). The aggregation, the degree count and the
  transposes are spelt by the same host operations in both programs and are never opened (Chain). The two results are
  then the same term — the specification's `layer` (Spec) — of arguments that agree. No law used here needs finite
  entries: the precondition is not opened.

  The three frames: the two kernels' are the generated ones; the reference's is its generated run with the result
  dropped. The idealized kernel is the kernel's own text read on the extended reals (no rewrite was applied), so
  `preserves` is trivial.
-/
import proofs.«108278_j89567247991232_1_alg».proof.Defs
import proofs.«108278_j89567247991232_1_alg».proof.Proof.Gen.Kernel
import proofs.«108278_j89567247991232_1_alg».proof.Proof.Gen.Kernel.Skeleton
import proofs.«108278_j89567247991232_1_alg».proof.Proof.Gen.Kernel.Launch
import proofs.«108278_j89567247991232_1_alg».proof.Proof.Gen.Kernel.Points
import proofs.«108278_j89567247991232_1_alg».proof.Proof.Gen.Kernel.Frame
import proofs.«108278_j89567247991232_1_alg».proof.Proof.Gen.KernelIdeal
import proofs.«108278_j89567247991232_1_alg».proof.Proof.Gen.KernelIdeal.Skeleton
import proofs.«108278_j89567247991232_1_alg».proof.Proof.Gen.KernelIdeal.Launch
import proofs.«108278_j89567247991232_1_alg».proof.Proof.Gen.KernelIdeal.Points
import proofs.«108278_j89567247991232_1_alg».proof.Proof.Gen.KernelIdeal.Frame
import proofs.«108278_j89567247991232_1_alg».proof.Proof.Gen.ReferenceIdeal
import proofs.«108278_j89567247991232_1_alg».proof.Proof.Gen.Pre_finite_inputs
import proofs.«108278_j89567247991232_1_alg».proof.Proof.Gen.ReferenceIdeal.Run
import proofs.«108278_j89567247991232_1_alg».proof.Proof.Gen.ReferenceIdeal.Read
import proofs.«108278_j89567247991232_1_alg».proof.Proof.Chain
import Idealize.ShloMosaic.Adequacy
import Idealize.ShloMosaic.Init

noncomputable section

namespace Cert.Proof

open Idealize.ShloMosaic Idealize.SL.Sem

theorem frame_kernel : Cert.frame_Kernel := fun m ρ _ => Cert.Kernel.Gen.frame m ρ

theorem frame_kernelIdeal : Cert.frame_KernelIdeal := fun m ρ _ => Cert.KernelIdeal.Gen.frame m ρ

/-- The reference's frame: its run, the result dropped. -/
theorem frame_reference : Cert.frame_ReferenceIdeal := fun m ρ _ =>
  (θ_run Cert.ReferenceIdeal.defs _ _).mono (fun _ h c => (h c).2) (Cert.ReferenceIdeal.Value.run (F := Ideal) m ρ)

theorem preserves : Cert.preserves_Kernel_KernelIdeal := trivial

/-- On the extended reals both programs end at the layer of the specification, of arguments that agree. -/
theorem algebraic : Cert.algebraic_KernelIdeal_ReferenceIdeal := by
  intro m ρ m' ρ' _ hagree
  refine ⟨_, Cert.KernelIdeal.Chain.run m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v76_eq, Cert.ReferenceIdeal.RefValue.result_eq,
    (hagree c).1, (hagree c).2.1, (hagree c).2.2.1, (hagree c).2.2.2.1, (hagree c).2.2.2.2.1, (hagree c).2.2.2.2.2]

theorem claim : Cert.Claim :=
  ⟨Cert.Kernel.Gen.facts, Cert.KernelIdeal.Gen.facts, Cert.ReferenceIdeal.Gen.facts, Cert.Pre_finite_inputs.Gen.facts,
    frame_kernel, frame_kernelIdeal, frame_reference, preserves, algebraic⟩

end Cert.Proof

end
